-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg17 : FVec F S64x32 .f32) (main_arg18 : FVec F S64x32 .f32) (main_arg19 : FVec F S32 .f32) (main_v63 : IVec S_ 1) (main_v67 : IVec S_ 1) : IVec S_ 1 :=
  let main_v68 : IVec S_ 1 := andi main_v63 main_v67
  let main_v69 : FVec F S64x32 .f32 := Host.absf main_arg17
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S64x32 .f32 := Host.absf main_arg18
  let main_cst_28 : FVec F S_ .f32 := constant S_ .f32 0x7F800000#32
  let main_v75 : FVec F S64x32 .f32 := broadcastInDim S64x32 ![] bcast_S_S64x32 main_cst_28
  let main_v76 : IVec S64x32 1 := cmpf .olt main_v74 main_v75
  let main_c_29 : IVec S_ 1 := constantI S_ 1 1#1
  let main_v77 : IVec S_ 1 := (fun x v => Host.reduce IntOp.andi x v reducesTo_S64x32_S_d0_1 h_S_) main_v76 main_c_29
  let main_v78 : IVec S_ 1 := andi main_v73 main_v77
  let main_v79 : FVec F S32 .f32 := Host.absf main_arg19
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  main_v83

def fn_part3 {F : FTy → Type} [FloatOps F] (main_arg14 : FVec F S64 .f32) (main_arg15 : FVec F S64 .f32) (main_arg16 : FVec F S64 .f32) (main_arg17 : FVec F S64x32 .f32) (main_arg18 : FVec F S64x32 .f32) (main_arg19 : FVec F S32 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg17 main_arg18 main_arg19 main_v63 main_v67

def fn_part2 {F : FTy → Type} [FloatOps F] (main_arg10 : FVec F S64 .f32) (main_arg11 : FVec F S64 .f32) (main_arg12 : FVec F S64x64 .f32) (main_arg13 : FVec F S64x64 .f32) (main_arg14 : FVec F S64 .f32) (main_arg15 : FVec F S64 .f32) (main_arg16 : FVec F S64 .f32) (main_arg17 : FVec F S64x32 .f32) (main_arg18 : FVec F S64x32 .f32) (main_arg19 : FVec F S32 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg12
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg13
  let main_cst_18 : FVec F S_ .f32 := constant S_ .f32 0x7F800000#32
  let main_v50 : FVec F S64x64 .f32 := broadcastInDim S64x64 ![] bcast_S_S64x64 main_cst_18
  fn_part3 (F := F) main_arg14 main_arg15 main_arg16 main_arg17 main_arg18 main_arg19 main_v48 main_v49 main_v50

def fn_part1 {F : FTy → Type} [FloatOps F] (main_arg7 : FVec F S128x64 .f32) (main_arg8 : FVec F S64 .f32) (main_arg9 : FVec F S64 .f32) (main_arg10 : FVec F S64 .f32) (main_arg11 : FVec F S64 .f32) (main_arg12 : FVec F S64x64 .f32) (main_arg13 : FVec F S64x64 .f32) (main_arg14 : FVec F S64 .f32) (main_arg15 : FVec F S64 .f32) (main_arg16 : FVec F S64 .f32) (main_arg17 : FVec F S64x32 .f32) (main_arg18 : FVec F S64x32 .f32) (main_arg19 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_v33

def fn {F : FTy → Type} [FloatOps F] (main_arg0 : FVec F S100000x128 .f32) (main_arg1 : IVec S800000 32) (main_arg2 : IVec S800000 32) (main_arg3 : FVec F S800000 .f32) (main_arg4 : IVec S50000 32) (main_arg5 : FVec F S128x64 .f32) (main_arg6 : FVec F S64 .f32) (main_arg7 : FVec F S128x64 .f32) (main_arg8 : FVec F S64 .f32) (main_arg9 : FVec F S64 .f32) (main_arg10 : FVec F S64 .f32) (main_arg11 : FVec F S64 .f32) (main_arg12 : FVec F S64x64 .f32) (main_arg13 : FVec F S64x64 .f32) (main_arg14 : FVec F S64 .f32) (main_arg15 : FVec F S64 .f32) (main_arg16 : FVec F S64 .f32) (main_arg17 : FVec F S64x32 .f32) (main_arg18 : FVec F S64x32 .f32) (main_arg19 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S800000x1 : Shape := ⟨2, ![800000, 1]⟩
abbrev S800000x64 : Shape := ⟨2, ![800000, 64]⟩
abbrev S1x32 : Shape := ⟨2, ![1, 32]⟩
abbrev S100000x32 : Shape := ⟨2, ![100000, 32]⟩
abbrev S10000x32 : Shape := ⟨2, ![10000, 32]⟩
abbrev S800000x32 : Shape := ⟨2, ![800000, 32]⟩
abbrev S50000x1 : Shape := ⟨2, ![50000, 1]⟩
abbrev S50000x32 : Shape := ⟨2, ![50000, 32]⟩

abbrev nBuf : Space → Nat
  | .hbm => 131
  | .vmem => 71
  | .smem => 0
  | _ => 0

abbrev hbmTy0_0 (i : Nat) : BufTy := match i % 128 with
  | 0 => ⟨S100000x128, .f32⟩
  | 1 => ⟨S800000, .i32⟩
  | 2 => ⟨S800000, .i32⟩
  | 3 => ⟨S800000, .f32⟩
  | 4 => ⟨S50000, .i32⟩
  | 5 => ⟨S128x64, .f32⟩
  | 6 => ⟨S64, .f32⟩
  | 7 => ⟨S128x64, .f32⟩
  | 8 => ⟨S64, .f32⟩
  | 9 => ⟨S64, .f32⟩
  | 10 => ⟨S64, .f32⟩
  | 11 => ⟨S64, .f32⟩
  | 12 => ⟨S64x64, .f32⟩
  | 13 => ⟨S64x64, .f32⟩
  | 14 => ⟨S64, .f32⟩
  | 15 => ⟨S64, .f32⟩
  | 16 => ⟨S64, .f32⟩
  | 17 => ⟨S64x32, .f32⟩
  | 18 => ⟨S64x32, .f32⟩
  | 19 => ⟨S32, .f32⟩
  | 20 => ⟨S1x64, .f32⟩
  | 21 => ⟨S1x64, .f32⟩
  | 22 => ⟨S100000x64, .f32⟩
  | 23 => ⟨S100000x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x1, .f32⟩
  | 34 => ⟨S800000x64, .f32⟩
  | 35 => ⟨S800000x64, .f32⟩
  | 36 => ⟨S_, .f32⟩
  | 37 => ⟨S100000x64, .f32⟩
  | 38 => ⟨S800000x1, .i32⟩
  | 39 => ⟨S100000x64, .f32⟩
  | 40 => ⟨S1x64, .f32⟩
  | 41 => ⟨S100000x64, .f32⟩
  | 42 => ⟨S1x64, .f32⟩
  | 43 => ⟨S1x64, .f32⟩
  | 44 => ⟨S_, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S1x64, .f32⟩
  | 51 => ⟨S1x64, .f32⟩
  | 52 => ⟨S_, .f32⟩
  | 53 => ⟨S1x64, .f32⟩
  | 54 => ⟨S1x64, .f32⟩
  | 55 => ⟨S1x64, .f32⟩
  | 56 => ⟨S1x64, .f32⟩
  | 57 => ⟨S100000x64, .f32⟩
  | 58 => ⟨S_, .f32⟩
  | 59 => ⟨S64, .f32⟩
  | 60 => ⟨S1x64, .f32⟩
  | 61 => ⟨S1x64, .f32⟩
  | 62 => ⟨S100000x64, .f32⟩
  | 63 => ⟨S100000x64, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S800000x1, .f32⟩
  | 74 => ⟨S800000x64, .f32⟩
  | 75 => ⟨S800000x64, .f32⟩
  | 76 => ⟨S_, .f32⟩
  | 77 => ⟨S100000x64, .f32⟩
  | 78 => ⟨S800000x1, .i32⟩
  | 79 => ⟨S100000x64, .f32⟩
  | 80 => ⟨S1x64, .f32⟩
  | 81 => ⟨S100000x64, .f32⟩
  | 82 => ⟨S1x64, .f32⟩
  | 83 => ⟨S1x64, .f32⟩
  | 84 => ⟨S_, .f32⟩
  | 85 => ⟨S1x64, .f32⟩
  | 86 => ⟨S1x64, .f32⟩
  | 87 => ⟨S_, .f32⟩
  | 88 => ⟨S1x64, .f32⟩
  | 89 => ⟨S1x64, .f32⟩
  | 90 => ⟨S1x64, .f32⟩
  | 91 => ⟨S1x64, .f32⟩
  | 92 => ⟨S_, .f32⟩
  | 93 => ⟨S1x64, .f32⟩
  | 94 => ⟨S1x64, .f32⟩
  | 95 => ⟨S1x64, .f32⟩
  | 96 => ⟨S1x64, .f32⟩
  | 97 => ⟨S100000x64, .f32⟩
  | 98 => ⟨S_, .f32⟩
  | 99 => ⟨S32, .f32⟩
  | 100 => ⟨S1x32, .f32⟩
  | 101 => ⟨S1x32, .f32⟩
  | 102 => ⟨S100000x32, .f32⟩
  | 103 => ⟨S100000x32, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x32, .f32⟩
  | 113 => ⟨S800000x1, .f32⟩
  | 114 => ⟨S800000x32, .f32⟩
  | 115 => ⟨S800000x32, .f32⟩
  | 116 => ⟨S_, .f32⟩
  | 117 => ⟨S100000x32, .f32⟩
  | 118 => ⟨S800000x1, .i32⟩
  | 119 => ⟨S100000x32, .f32⟩
  | 120 => ⟨S1x32, .f32⟩
  | 121 => ⟨S100000x32, .f32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S100000x128, .f32⟩

abbrev hbmTy0_1 (i : Nat) : BufTy := match i % 128 with
  | 0 => ⟨S50000, .i32⟩
  | 1 => ⟨S50000x1, .i32⟩
  | 2 => ⟨S50000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S128x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S1x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64x64, .f32⟩
  | .local _ .vmem, ⟨30, _⟩ => ⟨S1x64, .f32⟩
  | .local _ .vmem, ⟨31, _⟩ => ⟨S64x64, .f32⟩
  | .local _ .vmem, ⟨32, _⟩ => ⟨S1x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S1x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S1x64, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S64x32, .f32⟩
  | .local _ .vmem, ⟨57, _⟩ => ⟨S1x32, .f32⟩
  | .local _ .vmem, ⟨58, _⟩ => ⟨S64x32, .f32⟩
  | .local _ .vmem, ⟨59, _⟩ => ⟨S1x32, .f32⟩
  | .local _ .vmem, ⟨60, _⟩ => ⟨S10000x32, .f32⟩
  | .local _ .vmem, ⟨61, _⟩ => ⟨S10000x32, .f32⟩
  | .local _ .vmem, ⟨62, _⟩ => ⟨S10000x32, .f32⟩
  | .local _ .vmem, ⟨63, _⟩ => ⟨S10000x32, .f32⟩
  | .local _ .vmem, ⟨64, _⟩ => ⟨S10000x32, .f32⟩
  | .local _ .vmem, ⟨65, _⟩ => ⟨S10000x32, .f32⟩
  | .local _ .vmem, ⟨66, _⟩ => ⟨S10000x32, .f32⟩
  | .local _ .vmem, ⟨67, _⟩ => ⟨S10000x32, .f32⟩
  | .local _ .vmem, ⟨68, _⟩ => ⟨S1x32, .f32⟩
  | .local _ .vmem, ⟨69, _⟩ => ⟨S10000x32, .f32⟩
  | .local _ .vmem, ⟨70, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2_0 : Ref sig .tc := ⟨.hbm, 22, rfl⟩
abbrev main_v2_1 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17_0 : Ref sig .tc := ⟨.hbm, 41, rfl⟩
abbrev main_v17_1 : Ref sig .tc := ⟨.hbm, 42, rfl⟩
abbrev main_v17_2 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32_0 : Ref sig .tc := ⟨.hbm, 62, rfl⟩
abbrev main_v32_1 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47_0 : Ref sig .tc := ⟨.hbm, 81, rfl⟩
abbrev main_v47_1 : Ref sig .tc := ⟨.hbm, 82, rfl⟩
abbrev main_v47_2 : Ref sig .tc := ⟨.hbm, 83, rfl⟩
abbrev main_cst_8 : Ref sig .tc := ⟨.hbm, 84, rfl⟩
abbrev main_v48 : Ref sig .tc := ⟨.hbm, 85, rfl⟩
abbrev main_v49 : Ref sig .tc := ⟨.hbm, 86, rfl⟩
abbrev main_cst_9 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_10 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_11 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62_0 : Ref sig .tc := ⟨.hbm, 102, rfl⟩
abbrev main_v62_1 : Ref sig .tc := ⟨.hbm, 103, rfl⟩
abbrev main_c_12 : Ref sig .tc := ⟨.hbm, 104, rfl⟩
abbrev main_v63 : Ref sig .tc := ⟨.hbm, 105, rfl⟩
abbrev main_v64 : Ref sig .tc := ⟨.hbm, 106, rfl⟩
abbrev main_c_13 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_14 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_15 : Ref sig .tc := ⟨.hbm, 122, rfl⟩
abbrev main_v78 : Ref sig .tc := ⟨.hbm, 123, rfl⟩
abbrev main_v79 : Ref sig .tc := ⟨.hbm, 124, rfl⟩
abbrev main_c_16 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg5_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg6_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg3_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem5_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem3_0 : DmaSem sig := 42
abbrev cc4_sem3_1 : DmaSem sig := 43
abbrev cc4_sem4_0 : DmaSem sig := 44
abbrev cc4_sem5_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem6_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem3_0 : DmaSem sig := 69
abbrev cc7_sem3_1 : DmaSem sig := 70

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S10000x32 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  shapeCasts_S10000x64_S10000x64 : S10000x64.ShapeCasts S10000x64
  reduces_S10000x64_S64 : S10000x64.Reduces [0] S64
  bcast_S_S1x64 : S_.BroadcastsInDim S1x64 (![] : Fin 0 → Fin S1x64.rank)
  bcast_S_S64 : S_.BroadcastsInDim S64 (![] : Fin 0 → Fin S64.rank)
  inb_S64x64_S64x64_0_0 : ∀ a, (![0, 0] : Fin 2 → Nat) a + S64x64.size a ≤ S64x64.size a
  h_S64x64 : 0 < S64x64.numel
  bcast_S_S32 : S_.BroadcastsInDim S32 (![] : Fin 0 → Fin S32.rank)
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S800000x1_S800000x32_0_1 : S800000x1.BroadcastsInDim S800000x32 (![0, 1] : Fin 2 → Fin S800000x32.rank)
  bcast_S_S100000x32 : S_.BroadcastsInDim S100000x32 (![] : Fin 0 → Fin S100000x32.rank)
  shapeCasts_S10000x32_S10000x32 : S10000x32.ShapeCasts S10000x32
  bcast_S_S50000 : S_.BroadcastsInDim S50000 (![] : Fin 0 → Fin S50000.rank)
  bcast_S50000_S50000x1_0 : S50000.BroadcastsInDim S50000x1 (![0] : Fin 1 → Fin S50000x1.rank)
  dot_S10000x128_S128x64_S10000x64_1_0_0_1_n_n_wf : DotDims.WF S10000x128 S128x64 S10000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  gather_S100000x32_S50000x1_S50000x32_1_0_n_n_0_1_132_wf : GatherDims.WF S100000x32 S50000x1 S50000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .f32 = 32 ∨ (Rect.block (s := S100000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x32.size a ≤ S64x32.size a
  hwx6_1 : ∀ i : grid6.Coords, EltTy.bits .f32 = 32 ∨ (Rect.block (s := S64x32) S64x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x32.size a ≤ S100000x32.size a
  hwx6_5 : ∀ i : grid6.Coords, EltTy.bits .f32 = 32 ∨ (Rect.block (s := S100000x32) S10000x32.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x32.size a ≤ S100000x32.size a
  hwx6_6 : ∀ i : grid6.Coords, EltTy.bits .f32 = 32 ∨ (Rect.block (s := S100000x32) S10000x32.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x32.size a ≤ S100000x32.size a
  hwx7_0 : ∀ i : grid7.Coords, EltTy.bits .f32 = 32 ∨ (Rect.block (s := S100000x32) S10000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x32.size a ≤ S100000x32.size a
  hwx7_1 : ∀ i : grid7.Coords, EltTy.bits .f32 = 32 ∨ (Rect.block (s := S100000x32) S10000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x32.size a ≤ S100000x32.size a
  hwx7_3 : ∀ i : grid7.Coords, EltTy.bits .f32 = 32 ∨ (Rect.block (s := S100000x32) S10000x32.size (cc7_transform_3 i) (hinb7_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def gather_S100000x32_S50000x1_S50000x32_1_0_n_n_0_1_132 : GatherDims S100000x32 S50000x1 S50000x32 where
  offsetDims := [1]
  collapsedSliceDims := [0]
  operandBatchingDims := []
  startIndicesBatchingDims := []
  startIndexMap := [0]
  indexVectorDim := 1
  sliceSizes := ![1, 32]
  wf := gather_S100000x32_S50000x1_S50000x32_1_0_n_n_0_1_132_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S10000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17_0) S10000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17_1) S1x64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17_2) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v28) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v31) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v32_0) S10000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v32_1) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v32_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v45) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47_0) S10000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v47_1) S1x64.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v47_2) S1x64.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v47_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v49) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v55) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v57) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v58) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg17) S64x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v60) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg18) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v61) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v62_0) S10000x32.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v62_1) S10000x32.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v62_0) S10000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v75) S10000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v76) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v77) S10000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S800000 : Shape := ⟨1, ![800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S100000x64 : Shape := ⟨2, ![100000, 64]⟩
abbrev S1x64 : Shape := ⟨2, ![1, 64]⟩
abbrev S800000x1 : Shape := ⟨2, ![800000, 1]⟩
abbrev S_ : Shape := ⟨0, ![]⟩
abbrev S800000x64 : Shape := ⟨2, ![800000, 64]⟩
abbrev S100000x32 : Shape := ⟨2, ![100000, 32]⟩
abbrev S800000x32 : Shape := ⟨2, ![800000, 32]⟩
abbrev S1x32 : Shape := ⟨2, ![1, 32]⟩
abbrev S50000x1 : Shape := ⟨2, ![50000, 1]⟩
abbrev S50000x32 : Shape := ⟨2, ![50000, 32]⟩

abbrev nBuf : Space → Nat
  | .hbm => 195
  | .vmem => 0
  | .smem => 0
  | _ => 0

abbrev hbmTy0_0 (i : Nat) : BufTy := match i % 128 with
  | 0 => ⟨S100000x128, .f32⟩
  | 1 => ⟨S800000, .i32⟩
  | 2 => ⟨S800000, .i32⟩
  | 3 => ⟨S800000, .f32⟩
  | 4 => ⟨S50000, .i32⟩
  | 5 => ⟨S128x64, .f32⟩
  | 6 => ⟨S64, .f32⟩
  | 7 => ⟨S128x64, .f32⟩
  | 8 => ⟨S64, .f32⟩
  | 9 => ⟨S64, .f32⟩
  | 10 => ⟨S64, .f32⟩
  | 11 => ⟨S64, .f32⟩
  | 12 => ⟨S64x64, .f32⟩
  | 13 => ⟨S64x64, .f32⟩
  | 14 => ⟨S64, .f32⟩
  | 15 => ⟨S64, .f32⟩
  | 16 => ⟨S64, .f32⟩
  | 17 => ⟨S64x32, .f32⟩
  | 18 => ⟨S64x32, .f32⟩
  | 19 => ⟨S32, .f32⟩
  | 20 => ⟨S100000x64, .f32⟩
  | 21 => ⟨S1x64, .f32⟩
  | 22 => ⟨S100000x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S800000x1, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S800000x64, .f32⟩
  | 39 => ⟨S800000x64, .f32⟩
  | 40 => ⟨S_, .f32⟩
  | 41 => ⟨S100000x64, .f32⟩
  | 42 => ⟨S800000x1, .i32⟩
  | 43 => ⟨S100000x64, .f32⟩
  | 44 => ⟨S1x64, .f32⟩
  | 45 => ⟨S100000x64, .f32⟩
  | 46 => ⟨S100000x64, .f32⟩
  | 47 => ⟨S100000x64, .f32⟩
  | 48 => ⟨S_, .f32⟩
  | 49 => ⟨S64, .f32⟩
  | 50 => ⟨S_, .f32⟩
  | 51 => ⟨S64, .f32⟩
  | 52 => ⟨S64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S100000x64, .f32⟩
  | 61 => ⟨S100000x64, .f32⟩
  | 62 => ⟨S100000x64, .f32⟩
  | 63 => ⟨S_, .f32⟩
  | 64 => ⟨S_, .f32⟩
  | 65 => ⟨S_, .f32⟩
  | 66 => ⟨S_, .f32⟩
  | 67 => ⟨S64, .f32⟩
  | 68 => ⟨S64, .f32⟩
  | 69 => ⟨S64, .f32⟩
  | 70 => ⟨S_, .f32⟩
  | 71 => ⟨S_, .i1⟩
  | 72 => ⟨S_, .f32⟩
  | 73 => ⟨S_, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S64, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .f32⟩
  | 95 => ⟨S100000x64, .f32⟩
  | 96 => ⟨S100000x64, .f32⟩
  | 97 => ⟨S800000x1, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x64, .f32⟩
  | 108 => ⟨S800000x64, .f32⟩
  | 109 => ⟨S_, .f32⟩
  | 110 => ⟨S100000x64, .f32⟩
  | 111 => ⟨S800000x1, .i32⟩
  | 112 => ⟨S100000x64, .f32⟩
  | 113 => ⟨S1x64, .f32⟩
  | 114 => ⟨S100000x64, .f32⟩
  | 115 => ⟨S100000x64, .f32⟩
  | 116 => ⟨S100000x64, .f32⟩
  | 117 => ⟨S_, .f32⟩
  | 118 => ⟨S64, .f32⟩
  | 119 => ⟨S_, .f32⟩
  | 120 => ⟨S64, .f32⟩
  | 121 => ⟨S64, .f32⟩
  | 122 => ⟨S_, .i32⟩
  | 123 => ⟨S_, .f32⟩
  | 124 => ⟨S64, .f32⟩
  | 125 => ⟨S1x64, .f32⟩
  | 126 => ⟨S_, .f32⟩
  | 127 => ⟨S1x64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S100000x64, .f32⟩
  | 4 => ⟨S_, .f32⟩
  | 5 => ⟨S_, .f32⟩
  | 6 => ⟨S_, .f32⟩
  | 7 => ⟨S_, .f32⟩
  | 8 => ⟨S64, .f32⟩
  | 9 => ⟨S64, .f32⟩
  | 10 => ⟨S64, .f32⟩
  | 11 => ⟨S_, .f32⟩
  | 12 => ⟨S_, .i1⟩
  | 13 => ⟨S_, .f32⟩
  | 14 => ⟨S_, .f32⟩
  | 15 => ⟨S64, .f32⟩
  | 16 => ⟨S64, .f32⟩
  | 17 => ⟨S1x64, .f32⟩
  | 18 => ⟨S100000x64, .f32⟩
  | 19 => ⟨S100000x64, .f32⟩
  | 20 => ⟨S_, .f32⟩
  | 21 => ⟨S64, .f32⟩
  | 22 => ⟨S64, .f32⟩
  | 23 => ⟨S64, .f32⟩
  | 24 => ⟨S1x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S100000x32, .f32⟩
  | 37 => ⟨S100000x32, .f32⟩
  | 38 => ⟨S800000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x32, .f32⟩
  | 48 => ⟨S800000x32, .f32⟩
  | 49 => ⟨S800000x32, .f32⟩
  | 50 => ⟨S_, .f32⟩
  | 51 => ⟨S100000x32, .f32⟩
  | 52 => ⟨S800000x1, .i32⟩
  | 53 => ⟨S100000x32, .f32⟩
  | 54 => ⟨S1x32, .f32⟩
  | 55 => ⟨S100000x32, .f32⟩
  | 56 => ⟨S100000x32, .f32⟩
  | 57 => ⟨S100000x32, .f32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S50000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_1 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩
abbrev main_c_3 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_4 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_call1_cst : Ref sig .tc := ⟨.hbm, 92, rfl⟩
abbrev main_call1_v0 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_c_5 : Ref sig .tc := ⟨.hbm, 98, rfl⟩
abbrev main_v48 : Ref sig .tc := ⟨.hbm, 99, rfl⟩
abbrev main_v49 : Ref sig .tc := ⟨.hbm, 100, rfl⟩
abbrev main_c_6 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_7 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_cst_8 : Ref sig .tc := ⟨.hbm, 117, rfl⟩
abbrev main_v64 : Ref sig .tc := ⟨.hbm, 118, rfl⟩
abbrev main_cst_9 : Ref sig .tc := ⟨.hbm, 119, rfl⟩
abbrev main_v65 : Ref sig .tc := ⟨.hbm, 120, rfl⟩
abbrev main_v66 : Ref sig .tc := ⟨.hbm, 121, rfl⟩
abbrev main_c_10 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_cst_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_cst_1 : Ref sig .tc := ⟨.hbm, 133, rfl⟩
abbrev main_call2_v8 : Ref sig .tc := ⟨.hbm, 134, rfl⟩
abbrev main_call2_cst_2 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_cst_3 : Ref sig .tc := ⟨.hbm, 139, rfl⟩
abbrev main_call2_v12 : Ref sig .tc := ⟨.hbm, 140, rfl⟩
abbrev main_call2_cst_4 : Ref sig .tc := ⟨.hbm, 141, rfl⟩
abbrev main_call2_call0_v0 : Ref sig .tc := ⟨.hbm, 142, rfl⟩
abbrev main_call2_call0_v1 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_cst_11 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_call3_cst : Ref sig .tc := ⟨.hbm, 161, rfl⟩
abbrev main_call3_v0 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_c_12 : Ref sig .tc := ⟨.hbm, 167, rfl⟩
abbrev main_v87 : Ref sig .tc := ⟨.hbm, 168, rfl⟩
abbrev main_v88 : Ref sig .tc := ⟨.hbm, 169, rfl⟩
abbrev main_c_13 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_cst_14 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_c_15 : Ref sig .tc := ⟨.hbm, 186, rfl⟩
abbrev main_v103 : Ref sig .tc := ⟨.hbm, 187, rfl⟩
abbrev main_v104 : Ref sig .tc := ⟨.hbm, 188, rfl⟩
abbrev main_c_16 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S800000x1_S800000x32_0_1 : S800000x1.BroadcastsInDim S800000x32 (![0, 1] : Fin 2 → Fin S800000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S50000 : S_.BroadcastsInDim S50000 (![] : Fin 0 → Fin S50000.rank)
  bcast_S50000_S50000x1_0 : S50000.BroadcastsInDim S50000x1 (![0] : Fin 1 → Fin S50000x1.rank)
  dot_S100000x128_S128x64_S100000x64_1_0_0_1_n_n_wf : DotDims.WF S100000x128 S128x64 S100000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  gather_S100000x32_S800000x1_S800000x32_1_0_n_n_0_1_132_wf : GatherDims.WF S100000x32 S800000x1 S800000x32 [1] [0] [] [0] [] 1 ![1, 32]
  scatter_S100000x32_S800000x1_S800000x32_1_0_0_1_wf : ScatterDims.WF S100000x32 S800000x1 S800000x32 [1] [0] [0] 1
  gather_S100000x32_S50000x1_S50000x32_1_0_n_n_0_1_132_wf : GatherDims.WF S100000x32 S50000x1 S50000x32 [1] [0] [] [0] [] 1 ![1, 32]

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def gather_S100000x32_S50000x1_S50000x32_1_0_n_n_0_1_132 : GatherDims S100000x32 S50000x1 S50000x32 where
  offsetDims := [1]
  collapsedSliceDims := [0]
  operandBatchingDims := []
  startIndicesBatchingDims := []
  startIndexMap := [0]
  indexVectorDim := 1
  sliceSizes := ![1, 32]
  wf := gather_S100000x32_S50000x1_S50000x32_1_0_n_n_0_1_132_wf

class Facts : Prop extends Facts₀ where

variable [Facts]
-- ==== Proof.KRun.lean ====
/-
  The run of the kernel program with its result named.

  The program is nine stretches of host operations alternating with eight regions.  The buffer contents at the
  seventeen boundaries are a fold from the launch memory: a stretch applies its operations, a region replaces
  each of its arrays by what its write-backs leave and keeps every other buffer.  The run ends with every
  unscoped buffer at the last boundary's contents; read at the result buffer this names the result, and read at
  the arguments it says they are unchanged.
-/
import proofs.«115488_j17910013624557_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from a launch memory `m` terminates without a fault; in every final
    state the result buffer holds the last boundary's contents of it (`W17`: the launch memory folded through the nine
    stretches of host operations and the eight regions), and the twenty argument arrays are as launched. -/
theorem run_named : θ_run defs (onTc (τ := τ) (main (F := F))) ⟨m, fun _ => 0, ρ⟩ (fun r => ∀ c : Dev nD,
      r.2.mem ((c.tc : Thread nD τ).loc main_v84) = W17 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v84 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c)⟩)

end Cert.KernelIdeal.KRun

end
-- ==== Proof.Spec.lean ====
/-
  The specification both programs are compared against, as pure functions on extended reals, index by index.

  A graph layer takes node features `x : [n, k]`, two weight matrices and their biases, a neighbour
  aggregation `SP` (the sparse adjacency applied to a feature matrix: a linear map the two programs
  compute by the same gather, scale and scatter-add), a post-aggregation bias, and batch-normalisation
  parameters.  It forms `s = x·Wn + bn + SP (x·Wg + bg) + ab`, normalises every column of `s` by that
  column's mean and variance over all `n` rows, scales, shifts and clamps at zero.

  The two programs differ in three arrangements only:
  * the three summands of `s` are associated `(node + agg) + ab` in one and `node + (agg + ab)` in the other;
  * a bias that is identically zero is added in one and absent in the other;
  * the variance of a column is `max (E[s²] − E[s]², 0)` in one and `E[(s − E[s])²]` in the other.
  The first two are laws of the extended reals; the third is the usual identity of the variance, valid when
  every entry of `s` is a real number.
-/
import Idealize.ShloMosaic.PureOps.Ideal
import Idealize.ShloMosaic.Lib.ValueIdx

noncomputable section

namespace Cert.Spec

open Idealize.ShloMosaic Idealize.ShloMosaic.ValueIdx
open scoped BigOperators

/-- A matrix of extended reals, indexed as the programs index a rank-2 array. -/
abbrev Mat (n k : Nat) : Type := (⟨2, ![n, k]⟩ : Shape).Idx → EReal
/-- A row vector of extended reals, indexed as the programs index a rank-1 array. -/
abbrev Row (h : Nat) : Type := (⟨1, ![h]⟩ : Shape).Idx → EReal

variable {n k h : Nat}

/-- `x · W`, entry `(i, j)` the sum over `l` of `x (i, l) · W (l, j)`. -/
def mm (x : Mat n k) (W : Mat k h) : Mat n h :=
  fun i => ∑ l : Fin k, x (ix2 (i 0) l) * W (ix2 l (i 1))

/-- `x · W + b`, the bias added along every row. -/
def dense (x : Mat n k) (W : Mat k h) (b : Row h) : Mat n h :=
  fun i => mm x W i + b (ix1 (i 1))

/-- The sum of column `j` over all rows. -/
def colsum (s : Mat n h) : Row h :=
  fun j => ∑ r : Fin n, s (ix2 r (j 0))

/-- The mean of each column: its sum divided by `N` (the number of rows, as the programs' float constant). -/
def mean (N : EReal) (s : Mat n h) : Row h :=
  fun j => Ideal.div (colsum s j) N

/-- The variance of each column as the mean of the squares less the square of the mean, clamped below at zero. -/
def varMoments (N : EReal) (s : Mat n h) : Row h :=
  fun j => max (Ideal.div (colsum (fun i => s i * s i) j) N - mean N s j * mean N s j) 0

/-- The variance of each column as the mean of the squared deviations from the column's mean. -/
def varCentered (N : EReal) (s : Mat n h) : Row h :=
  fun j => Ideal.div (colsum (fun i => (s i - mean N s (ix1 (i 1))) * (s i - mean N s (ix1 (i 1)))) j) N

/-- Normalise by a given mean and variance, scale by `g`, shift by `b`, clamp at zero. -/
def normRelu (eps : EReal) (mu var g b : Row h) (s : Mat n h) : Mat n h :=
  fun i => max ((s i - mu (ix1 (i 1))) * Ideal.rsqrt (var (ix1 (i 1)) + eps) * g (ix1 (i 1)) + b (ix1 (i 1))) 0

/-- The pre-normalisation sum, associated to the left: `(node + agg) + ab`. -/
def sumL (node agg : Mat n h) (ab : Row h) : Mat n h :=
  fun i => node i + agg i + ab (ix1 (i 1))

/-- The pre-normalisation sum, associated to the right: `node + (agg + ab)`. -/
def sumR (node agg : Mat n h) (ab : Row h) : Mat n h :=
  fun i => node i + (agg i + ab (ix1 (i 1)))

/-- A normalised layer in the first arrangement: biases `bn`, `bg` always added, left-associated sum,
    variance from the moments. -/
def layerK (SP : Mat n h → Mat n h) (N eps : EReal) (x : Mat n k) (Wn : Mat k h) (bn : Row h) (Wg : Mat k h) (bg : Row h)
    (ab g b : Row h) : Mat n h :=
  let s := sumL (dense x Wn bn) (SP (dense x Wg bg)) ab
  normRelu eps (mean N s) (varMoments N s) g b s

/-- A normalised layer in the second arrangement, with biases: right-associated sum, centred variance. -/
def layerR (SP : Mat n h → Mat n h) (N eps : EReal) (x : Mat n k) (Wn : Mat k h) (bn : Row h) (Wg : Mat k h) (bg : Row h)
    (ab g b : Row h) : Mat n h :=
  let s := sumR (dense x Wn bn) (SP (dense x Wg bg)) ab
  normRelu eps (mean N s) (varCentered N s) g b s

/-- A normalised layer in the second arrangement, without biases on the two products. -/
def layerR0 (SP : Mat n h → Mat n h) (N eps : EReal) (x : Mat n k) (Wn Wg : Mat k h) (ab g b : Row h) : Mat n h :=
  let s := sumR (mm x Wn) (SP (mm x Wg)) ab
  normRelu eps (mean N s) (varCentered N s) g b s

/-- The zero row: the bias the first arrangement adds where the second adds none. -/
def zrow : Row h := fun _ => 0

/-- The whole network in the first arrangement: two normalised layers, a last un-normalised layer, and the
    final selection of rows `GA`. -/
def outK {n d h e q : Nat} (SP : Mat n h → Mat n h) (SPL : Mat n e → Mat n e) (GA : Mat n e → Mat q e) (N eps : EReal)
    (x : Mat n d) (Wn0 : Mat d h) (bn0 : Row h) (Wg0 : Mat d h) (bg0 ab0 g0 b0 : Row h)
    (Wn1 Wg1 : Mat h h) (ab1 g1 b1 : Row h) (WnL WgL : Mat h e) (abL : Row e) : Mat q e :=
  let x1 := layerK SP N eps x Wn0 bn0 Wg0 bg0 ab0 g0 b0
  let x2 := layerK SP N eps x1 Wn1 zrow Wg1 zrow ab1 g1 b1
  GA (sumL (dense x2 WnL zrow) (SPL (dense x2 WgL zrow)) abL)

/-- The whole network in the second arrangement. -/
def outR {n d h e q : Nat} (SP : Mat n h → Mat n h) (SPL : Mat n e → Mat n e) (GA : Mat n e → Mat q e) (N eps : EReal)
    (x : Mat n d) (Wn0 : Mat d h) (bn0 : Row h) (Wg0 : Mat d h) (bg0 ab0 g0 b0 : Row h)
    (Wn1 Wg1 : Mat h h) (ab1 g1 b1 : Row h) (WnL WgL : Mat h e) (abL : Row e) : Mat q e :=
  let x1 := layerR SP N eps x Wn0 bn0 Wg0 bg0 ab0 g0 b0
  let x2 := layerR0 SP N eps x1 Wn1 Wg1 ab1 g1 b1
  GA (sumR (mm x2 WnL) (SPL (mm x2 WgL)) abL)

/-- Every entry is a real number (neither infinity). -/
def AllReal {S : Shape} (f : S.Idx → EReal) : Prop := ∀ i, ∃ r : ℝ, f i = (r : EReal)

end Cert.Spec

end
-- ==== Proof.KWalk.lean ====
/-
  Reading a buffer through the boundaries of the kernel program.

  A stretch of host operations leaves every buffer it does not write as it found it, and a region leaves every
  buffer that is not one of its arrays as it found it.  So an argument array, which nothing writes, holds its
  launch contents at every boundary; and a region's output, carried over the next stretch to the region that
  reads it, is unchanged by that stretch.
-/
import proofs.«115488_j17910013624557_2_alg».proof.Proof.Gen.KernelIdeal.Frame

set_option maxRecDepth 16384

noncomputable section

namespace Cert.KernelIdeal.KWalk

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg) (c : Dev nD)

/-- A stretch of host operations does not change a buffer none of its operations writes. -/
macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The arguments at the boundaries where they are read -/

theorem arg0_at1 : W1 m ρ c (Proc.devRef .tc main_arg0) = m ((c : Thread nD τ).loc main_arg0) :=
  calc W1 m ρ c (Proc.devRef .tc main_arg0)
    _ = W0 m ρ c (Proc.devRef .tc main_arg0) := by unwritten hostOps0
    _ = m ((c : Thread nD τ).loc main_arg0) := rfl

theorem arg5_at1 : W1 m ρ c (Proc.devRef .tc main_arg5) = m ((c : Thread nD τ).loc main_arg5) :=
  calc W1 m ρ c (Proc.devRef .tc main_arg5)
    _ = W0 m ρ c (Proc.devRef .tc main_arg5) := by unwritten hostOps0
    _ = m ((c : Thread nD τ).loc main_arg5) := rfl

theorem arg7_at1 : W1 m ρ c (Proc.devRef .tc main_arg7) = m ((c : Thread nD τ).loc main_arg7) :=
  calc W1 m ρ c (Proc.devRef .tc main_arg7)
    _ = W0 m ρ c (Proc.devRef .tc main_arg7) := by unwritten hostOps0
    _ = m ((c : Thread nD τ).loc main_arg7) := rfl

theorem arg1_at2 : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl

theorem arg2_at2 : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by unwritten hostOps0
    _ = m ((c : Thread nD τ).loc main_arg2) := rfl

theorem arg3_at2 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by unwritten hostOps0
    _ = m ((c : Thread nD τ).loc main_arg3) := rfl

theorem arg9_at2 : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by unwritten hostOps0
    _ = m ((c : Thread nD τ).loc main_arg9) := rfl

theorem arg10_at4 : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by unwritten hostOps1
    _ = W1 m ρ c (Proc.devRef .tc main_arg10) := W2_of_ne m ρ c main_arg10 (by decide)
    _ = W0 m ρ c (Proc.devRef .tc main_arg10) := by unwritten hostOps0
    _ = m ((c : Thread nD τ).loc main_arg10) := rfl

theorem arg11_at4 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by unwritten hostOps1
    _ = W1 m ρ c (Proc.devRef .tc main_arg11) := W2_of_ne m ρ c main_arg11 (by decide)
    _ = W0 m ρ c (Proc.devRef .tc main_arg11) := by unwritten hostOps0
    _ = m ((c : Thread nD τ).loc main_arg11) := rfl

theorem arg12_at7 : W7 m ρ c (Proc.devRef .tc main_arg12) = m ((c : Thread nD τ).loc main_arg12) :=
  calc W7 m ρ c (Proc.devRef .tc main_arg12)
    _ = W6 m ρ c (Proc.devRef .tc main_arg12) := by unwritten hostOps3
    _ = W5 m ρ c (Proc.devRef .tc main_arg12) := W6_of_ne m ρ c main_arg12 (by decide)
    _ = W4 m ρ c (Proc.devRef .tc main_arg12) := by unwritten hostOps2
    _ = W3 m ρ c (Proc.devRef .tc main_arg12) := W4_of_ne m ρ c main_arg12 (by decide)
    _ = W2 m ρ c (Proc.devRef .tc main_arg12) := by unwritten hostOps1
    _ = W1 m ρ c (Proc.devRef .tc main_arg12) := W2_of_ne m ρ c main_arg12 (by decide)
    _ = W0 m ρ c (Proc.devRef .tc main_arg12) := by unwritten hostOps0
    _ = m ((c : Thread nD τ).loc main_arg12) := rfl

theorem arg13_at7 : W7 m ρ c (Proc.devRef .tc main_arg13) = m ((c : Thread nD τ).loc main_arg13) :=
  calc W7 m ρ c (Proc.devRef .tc main_arg13)
    _ = W6 m ρ c (Proc.devRef .tc main_arg13) := by unwritten hostOps3
    _ = W5 m ρ c (Proc.devRef .tc main_arg13) := W6_of_ne m ρ c main_arg13 (by decide)
    _ = W4 m ρ c (Proc.devRef .tc main_arg13) := by unwritten hostOps2
    _ = W3 m ρ c (Proc.devRef .tc main_arg13) := W4_of_ne m ρ c main_arg13 (by decide)
    _ = W2 m ρ c (Proc.devRef .tc main_arg13) := by unwritten hostOps1
    _ = W1 m ρ c (Proc.devRef .tc main_arg13) := W2_of_ne m ρ c main_arg13 (by decide)
    _ = W0 m ρ c (Proc.devRef .tc main_arg13) := by unwritten hostOps0
    _ = m ((c : Thread nD τ).loc main_arg13) := rfl

theorem arg1_at8 : W8 m ρ c (Proc.devRef .tc main_arg1) = m ((c : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := by unwritten hostOps3
    _ = W5 m ρ c (Proc.devRef .tc main_arg1) := W6_of_ne m ρ c main_arg1 (by decide)
    _ = W4 m ρ c (Proc.devRef .tc main_arg1) := by unwritten hostOps2
    _ = W3 m ρ c (Proc.devRef .tc main_arg1) := W4_of_ne m ρ c main_arg1 (by decide)
    _ = W2 m ρ c (Proc.devRef .tc main_arg1) := by unwritten hostOps1
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl

theorem arg2_at8 : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by unwritten hostOps3
    _ = W5 m ρ c (Proc.devRef .tc main_arg2) := W6_of_ne m ρ c main_arg2 (by decide)
    _ = W4 m ρ c (Proc.devRef .tc main_arg2) := by unwritten hostOps2
    _ = W3 m ρ c (Proc.devRef .tc main_arg2) := W4_of_ne m ρ c main_arg2 (by decide)
    _ = W2 m ρ c (Proc.devRef .tc main_arg2) := by unwritten hostOps1
    _ = W1 m ρ c (Proc.devRef .tc main_arg2) := W2_of_ne m ρ c main_arg2 (by decide)
    _ = W0 m ρ c (Proc.devRef .tc main_arg2) := by unwritten hostOps0
    _ = m ((c : Thread nD τ).loc main_arg2) := rfl

theorem arg3_at8 : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by unwritten hostOps3
    _ = W5 m ρ c (Proc.devRef .tc main_arg3) := W6_of_ne m ρ c main_arg3 (by decide)
    _ = W4 m ρ c (Proc.devRef .tc main_arg3) := by unwritten hostOps2
    _ = W3 m ρ c (Proc.devRef .tc main_arg3) := W4_of_ne m ρ c main_arg3 (by decide)
    _ = W2 m ρ c (Proc.devRef .tc main_arg3) := by unwritten hostOps1
    _ = W1 m ρ c (Proc.devRef .tc main_arg3) := W2_of_ne m ρ c main_arg3 (by decide)
    _ = W0 m ρ c (Proc.devRef .tc main_arg3) := by unwritten hostOps0
    _ = m ((c : Thread nD τ).loc main_arg3) := rfl

theorem arg14_at8 : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := by unwritten hostOps3
    _ = W5 m ρ c (Proc.devRef .tc main_arg14) := W6_of_ne m ρ c main_arg14 (by decide)
    _ = W4 m ρ c (Proc.devRef .tc main_arg14) := by unwritten hostOps2
    _ = W3 m ρ c (Proc.devRef .tc main_arg14) := W4_of_ne m ρ c main_arg14 (by decide)
    _ = W2 m ρ c (Proc.devRef .tc main_arg14) := by unwritten hostOps1
    _ = W1 m ρ c (Proc.devRef .tc main_arg14) := W2_of_ne m ρ c main_arg14 (by decide)
    _ = W0 m ρ c (Proc.devRef .tc main_arg14) := by unwritten hostOps0
    _ = m ((c : Thread nD τ).loc main_arg14) := rfl

theorem arg15_at10 : W10 m ρ c (Proc.devRef .tc main_arg15) = m ((c : Thread nD τ).loc main_arg15) :=
  calc W10 m ρ c (Proc.devRef .tc main_arg15)
    _ = W9 m ρ c (Proc.devRef .tc main_arg15) := W10_of_ne m ρ c main_arg15 (by decide)
    _ = W8 m ρ c (Proc.devRef .tc main_arg15) := by unwritten hostOps4
    _ = W7 m ρ c (Proc.devRef .tc main_arg15) := W8_of_ne m ρ c main_arg15 (by decide)
    _ = W6 m ρ c (Proc.devRef .tc main_arg15) := by unwritten hostOps3
    _ = W5 m ρ c (Proc.devRef .tc main_arg15) := W6_of_ne m ρ c main_arg15 (by decide)
    _ = W4 m ρ c (Proc.devRef .tc main_arg15) := by unwritten hostOps2
    _ = W3 m ρ c (Proc.devRef .tc main_arg15) := W4_of_ne m ρ c main_arg15 (by decide)
    _ = W2 m ρ c (Proc.devRef .tc main_arg15) := by unwritten hostOps1
    _ = W1 m ρ c (Proc.devRef .tc main_arg15) := W2_of_ne m ρ c main_arg15 (by decide)
    _ = W0 m ρ c (Proc.devRef .tc main_arg15) := by unwritten hostOps0
    _ = m ((c : Thread nD τ).loc main_arg15) := rfl

theorem arg16_at10 : W10 m ρ c (Proc.devRef .tc main_arg16) = m ((c : Thread nD τ).loc main_arg16) :=
  calc W10 m ρ c (Proc.devRef .tc main_arg16)
    _ = W9 m ρ c (Proc.devRef .tc main_arg16) := W10_of_ne m ρ c main_arg16 (by decide)
    _ = W8 m ρ c (Proc.devRef .tc main_arg16) := by unwritten hostOps4
    _ = W7 m ρ c (Proc.devRef .tc main_arg16) := W8_of_ne m ρ c main_arg16 (by decide)
    _ = W6 m ρ c (Proc.devRef .tc main_arg16) := by unwritten hostOps3
    _ = W5 m ρ c (Proc.devRef .tc main_arg16) := W6_of_ne m ρ c main_arg16 (by decide)
    _ = W4 m ρ c (Proc.devRef .tc main_arg16) := by unwritten hostOps2
    _ = W3 m ρ c (Proc.devRef .tc main_arg16) := W4_of_ne m ρ c main_arg16 (by decide)
    _ = W2 m ρ c (Proc.devRef .tc main_arg16) := by unwritten hostOps1
    _ = W1 m ρ c (Proc.devRef .tc main_arg16) := W2_of_ne m ρ c main_arg16 (by decide)
    _ = W0 m ρ c (Proc.devRef .tc main_arg16) := by unwritten hostOps0
    _ = m ((c : Thread nD τ).loc main_arg16) := rfl

theorem arg17_at13 : W13 m ρ c (Proc.devRef .tc main_arg17) = m ((c : Thread nD τ).loc main_arg17) :=
  calc W13 m ρ c (Proc.devRef .tc main_arg17)
    _ = W12 m ρ c (Proc.devRef .tc main_arg17) := by unwritten hostOps6
    _ = W11 m ρ c (Proc.devRef .tc main_arg17) := W12_of_ne m ρ c main_arg17 (by decide)
    _ = W10 m ρ c (Proc.devRef .tc main_arg17) := by unwritten hostOps5
    _ = W9 m ρ c (Proc.devRef .tc main_arg17) := W10_of_ne m ρ c main_arg17 (by decide)
    _ = W8 m ρ c (Proc.devRef .tc main_arg17) := by unwritten hostOps4
    _ = W7 m ρ c (Proc.devRef .tc main_arg17) := W8_of_ne m ρ c main_arg17 (by decide)
    _ = W6 m ρ c (Proc.devRef .tc main_arg17) := by unwritten hostOps3
    _ = W5 m ρ c (Proc.devRef .tc main_arg17) := W6_of_ne m ρ c main_arg17 (by decide)
    _ = W4 m ρ c (Proc.devRef .tc main_arg17) := by unwritten hostOps2
    _ = W3 m ρ c (Proc.devRef .tc main_arg17) := W4_of_ne m ρ c main_arg17 (by decide)
    _ = W2 m ρ c (Proc.devRef .tc main_arg17) := by unwritten hostOps1
    _ = W1 m ρ c (Proc.devRef .tc main_arg17) := W2_of_ne m ρ c main_arg17 (by decide)
    _ = W0 m ρ c (Proc.devRef .tc main_arg17) := by unwritten hostOps0
    _ = m ((c : Thread nD τ).loc main_arg17) := rfl

theorem arg18_at13 : W13 m ρ c (Proc.devRef .tc main_arg18) = m ((c : Thread nD τ).loc main_arg18) :=
  calc W13 m ρ c (Proc.devRef .tc main_arg18)
    _ = W12 m ρ c (Proc.devRef .tc main_arg18) := by unwritten hostOps6
    _ = W11 m ρ c (Proc.devRef .tc main_arg18) := W12_of_ne m ρ c main_arg18 (by decide)
    _ = W10 m ρ c (Proc.devRef .tc main_arg18) := by unwritten hostOps5
    _ = W9 m ρ c (Proc.devRef .tc main_arg18) := W10_of_ne m ρ c main_arg18 (by decide)
    _ = W8 m ρ c (Proc.devRef .tc main_arg18) := by unwritten hostOps4
    _ = W7 m ρ c (Proc.devRef .tc main_arg18) := W8_of_ne m ρ c main_arg18 (by decide)
    _ = W6 m ρ c (Proc.devRef .tc main_arg18) := by unwritten hostOps3
    _ = W5 m ρ c (Proc.devRef .tc main_arg18) := W6_of_ne m ρ c main_arg18 (by decide)
    _ = W4 m ρ c (Proc.devRef .tc main_arg18) := by unwritten hostOps2
    _ = W3 m ρ c (Proc.devRef .tc main_arg18) := W4_of_ne m ρ c main_arg18 (by decide)
    _ = W2 m ρ c (Proc.devRef .tc main_arg18) := by unwritten hostOps1
    _ = W1 m ρ c (Proc.devRef .tc main_arg18) := W2_of_ne m ρ c main_arg18 (by decide)
    _ = W0 m ρ c (Proc.devRef .tc main_arg18) := by unwritten hostOps0
    _ = m ((c : Thread nD τ).loc main_arg18) := rfl

theorem arg1_at14 : W14 m ρ c (Proc.devRef .tc main_arg1) = m ((c : Thread nD τ).loc main_arg1) :=
  calc W14 m ρ c (Proc.devRef .tc main_arg1)
    _ = W13 m ρ c (Proc.devRef .tc main_arg1) := W14_of_ne m ρ c main_arg1 (by decide)
    _ = W12 m ρ c (Proc.devRef .tc main_arg1) := by unwritten hostOps6
    _ = W11 m ρ c (Proc.devRef .tc main_arg1) := W12_of_ne m ρ c main_arg1 (by decide)
    _ = W10 m ρ c (Proc.devRef .tc main_arg1) := by unwritten hostOps5
    _ = W9 m ρ c (Proc.devRef .tc main_arg1) := W10_of_ne m ρ c main_arg1 (by decide)
    _ = W8 m ρ c (Proc.devRef .tc main_arg1) := by unwritten hostOps4
    _ = W7 m ρ c (Proc.devRef .tc main_arg1) := W8_of_ne m ρ c main_arg1 (by decide)
    _ = W6 m ρ c (Proc.devRef .tc main_arg1) := by unwritten hostOps3
    _ = W5 m ρ c (Proc.devRef .tc main_arg1) := W6_of_ne m ρ c main_arg1 (by decide)
    _ = W4 m ρ c (Proc.devRef .tc main_arg1) := by unwritten hostOps2
    _ = W3 m ρ c (Proc.devRef .tc main_arg1) := W4_of_ne m ρ c main_arg1 (by decide)
    _ = W2 m ρ c (Proc.devRef .tc main_arg1) := by unwritten hostOps1
    _ = W1 m ρ c (Proc.devRef .tc main_arg1) := W2_of_ne m ρ c main_arg1 (by decide)
    _ = W0 m ρ c (Proc.devRef .tc main_arg1) := by unwritten hostOps0
    _ = m ((c : Thread nD τ).loc main_arg1) := rfl

theorem arg2_at14 : W14 m ρ c (Proc.devRef .tc main_arg2) = m ((c : Thread nD τ).loc main_arg2) :=
  calc W14 m ρ c (Proc.devRef .tc main_arg2)
    _ = W13 m ρ c (Proc.devRef .tc main_arg2) := W14_of_ne m ρ c main_arg2 (by decide)
    _ = W12 m ρ c (Proc.devRef .tc main_arg2) := by unwritten hostOps6
    _ = W11 m ρ c (Proc.devRef .tc main_arg2) := W12_of_ne m ρ c main_arg2 (by decide)
    _ = W10 m ρ c (Proc.devRef .tc main_arg2) := by unwritten hostOps5
    _ = W9 m ρ c (Proc.devRef .tc main_arg2) := W10_of_ne m ρ c main_arg2 (by decide)
    _ = W8 m ρ c (Proc.devRef .tc main_arg2) := by unwritten hostOps4
    _ = W7 m ρ c (Proc.devRef .tc main_arg2) := W8_of_ne m ρ c main_arg2 (by decide)
    _ = W6 m ρ c (Proc.devRef .tc main_arg2) := by unwritten hostOps3
    _ = W5 m ρ c (Proc.devRef .tc main_arg2) := W6_of_ne m ρ c main_arg2 (by decide)
    _ = W4 m ρ c (Proc.devRef .tc main_arg2) := by unwritten hostOps2
    _ = W3 m ρ c (Proc.devRef .tc main_arg2) := W4_of_ne m ρ c main_arg2 (by decide)
    _ = W2 m ρ c (Proc.devRef .tc main_arg2) := by unwritten hostOps1
    _ = W1 m ρ c (Proc.devRef .tc main_arg2) := W2_of_ne m ρ c main_arg2 (by decide)
    _ = W0 m ρ c (Proc.devRef .tc main_arg2) := by unwritten hostOps0
    _ = m ((c : Thread nD τ).loc main_arg2) := rfl

theorem arg3_at14 : W14 m ρ c (Proc.devRef .tc main_arg3) = m ((c : Thread nD τ).loc main_arg3) :=
  calc W14 m ρ c (Proc.devRef .tc main_arg3)
    _ = W13 m ρ c (Proc.devRef .tc main_arg3) := W14_of_ne m ρ c main_arg3 (by decide)
    _ = W12 m ρ c (Proc.devRef .tc main_arg3) := by unwritten hostOps6
    _ = W11 m ρ c (Proc.devRef .tc main_arg3) := W12_of_ne m ρ c main_arg3 (by decide)
    _ = W10 m ρ c (Proc.devRef .tc main_arg3) := by unwritten hostOps5
    _ = W9 m ρ c (Proc.devRef .tc main_arg3) := W10_of_ne m ρ c main_arg3 (by decide)
    _ = W8 m ρ c (Proc.devRef .tc main_arg3) := by unwritten hostOps4
    _ = W7 m ρ c (Proc.devRef .tc main_arg3) := W8_of_ne m ρ c main_arg3 (by decide)
    _ = W6 m ρ c (Proc.devRef .tc main_arg3) := by unwritten hostOps3
    _ = W5 m ρ c (Proc.devRef .tc main_arg3) := W6_of_ne m ρ c main_arg3 (by decide)
    _ = W4 m ρ c (Proc.devRef .tc main_arg3) := by unwritten hostOps2
    _ = W3 m ρ c (Proc.devRef .tc main_arg3) := W4_of_ne m ρ c main_arg3 (by decide)
    _ = W2 m ρ c (Proc.devRef .tc main_arg3) := by unwritten hostOps1
    _ = W1 m ρ c (Proc.devRef .tc main_arg3) := W2_of_ne m ρ c main_arg3 (by decide)
    _ = W0 m ρ c (Proc.devRef .tc main_arg3) := by unwritten hostOps0
    _ = m ((c : Thread nD τ).loc main_arg3) := rfl

theorem arg19_at14 : W14 m ρ c (Proc.devRef .tc main_arg19) = m ((c : Thread nD τ).loc main_arg19) :=
  calc W14 m ρ c (Proc.devRef .tc main_arg19)
    _ = W13 m ρ c (Proc.devRef .tc main_arg19) := W14_of_ne m ρ c main_arg19 (by decide)
    _ = W12 m ρ c (Proc.devRef .tc main_arg19) := by unwritten hostOps6
    _ = W11 m ρ c (Proc.devRef .tc main_arg19) := W12_of_ne m ρ c main_arg19 (by decide)
    _ = W10 m ρ c (Proc.devRef .tc main_arg19) := by unwritten hostOps5
    _ = W9 m ρ c (Proc.devRef .tc main_arg19) := W10_of_ne m ρ c main_arg19 (by decide)
    _ = W8 m ρ c (Proc.devRef .tc main_arg19) := by unwritten hostOps4
    _ = W7 m ρ c (Proc.devRef .tc main_arg19) := W8_of_ne m ρ c main_arg19 (by decide)
    _ = W6 m ρ c (Proc.devRef .tc main_arg19) := by unwritten hostOps3
    _ = W5 m ρ c (Proc.devRef .tc main_arg19) := W6_of_ne m ρ c main_arg19 (by decide)
    _ = W4 m ρ c (Proc.devRef .tc main_arg19) := by unwritten hostOps2
    _ = W3 m ρ c (Proc.devRef .tc main_arg19) := W4_of_ne m ρ c main_arg19 (by decide)
    _ = W2 m ρ c (Proc.devRef .tc main_arg19) := by unwritten hostOps1
    _ = W1 m ρ c (Proc.devRef .tc main_arg19) := W2_of_ne m ρ c main_arg19 (by decide)
    _ = W0 m ρ c (Proc.devRef .tc main_arg19) := by unwritten hostOps0
    _ = m ((c : Thread nD τ).loc main_arg19) := rfl

theorem arg4_at16 : W16 m ρ c (Proc.devRef .tc main_arg4) = m ((c : Thread nD τ).loc main_arg4) :=
  calc W16 m ρ c (Proc.devRef .tc main_arg4)
    _ = W15 m ρ c (Proc.devRef .tc main_arg4) := W16_of_ne m ρ c main_arg4 (by decide)
    _ = W14 m ρ c (Proc.devRef .tc main_arg4) := by unwritten hostOps7
    _ = W13 m ρ c (Proc.devRef .tc main_arg4) := W14_of_ne m ρ c main_arg4 (by decide)
    _ = W12 m ρ c (Proc.devRef .tc main_arg4) := by unwritten hostOps6
    _ = W11 m ρ c (Proc.devRef .tc main_arg4) := W12_of_ne m ρ c main_arg4 (by decide)
    _ = W10 m ρ c (Proc.devRef .tc main_arg4) := by unwritten hostOps5
    _ = W9 m ρ c (Proc.devRef .tc main_arg4) := W10_of_ne m ρ c main_arg4 (by decide)
    _ = W8 m ρ c (Proc.devRef .tc main_arg4) := by unwritten hostOps4
    _ = W7 m ρ c (Proc.devRef .tc main_arg4) := W8_of_ne m ρ c main_arg4 (by decide)
    _ = W6 m ρ c (Proc.devRef .tc main_arg4) := by unwritten hostOps3
    _ = W5 m ρ c (Proc.devRef .tc main_arg4) := W6_of_ne m ρ c main_arg4 (by decide)
    _ = W4 m ρ c (Proc.devRef .tc main_arg4) := by unwritten hostOps2
    _ = W3 m ρ c (Proc.devRef .tc main_arg4) := W4_of_ne m ρ c main_arg4 (by decide)
    _ = W2 m ρ c (Proc.devRef .tc main_arg4) := by unwritten hostOps1
    _ = W1 m ρ c (Proc.devRef .tc main_arg4) := W2_of_ne m ρ c main_arg4 (by decide)
    _ = W0 m ρ c (Proc.devRef .tc main_arg4) := by unwritten hostOps0
    _ = m ((c : Thread nD τ).loc main_arg4) := rfl

/-! ## A region's output carried over the stretch that follows it -/

theorem v2_0_over : W3 m ρ c (Proc.devRef .tc main_v2_0) = W2 m ρ c (Proc.devRef .tc main_v2_0) := by unwritten hostOps1
theorem v17_0_over : W5 m ρ c (Proc.devRef .tc main_v17_0) = W4 m ρ c (Proc.devRef .tc main_v17_0) := by unwritten hostOps2
theorem v28_over : W7 m ρ c (Proc.devRef .tc main_v28) = W6 m ρ c (Proc.devRef .tc main_v28) := by unwritten hostOps3
theorem v32_0_over : W9 m ρ c (Proc.devRef .tc main_v32_0) = W8 m ρ c (Proc.devRef .tc main_v32_0) := by unwritten hostOps4
theorem v47_0_over : W11 m ρ c (Proc.devRef .tc main_v47_0) = W10 m ρ c (Proc.devRef .tc main_v47_0) := by unwritten hostOps5
theorem v58_over : W13 m ρ c (Proc.devRef .tc main_v58) = W12 m ρ c (Proc.devRef .tc main_v58) := by unwritten hostOps6
theorem v62_0_over : W15 m ρ c (Proc.devRef .tc main_v62_0) = W14 m ρ c (Proc.devRef .tc main_v62_0) := by unwritten hostOps7

end Cert.KernelIdeal.KWalk

end
-- ==== Proof.KHost.lean ====
/-
  The host operations of the kernel program, read as functions.

  Between the regions the program reshapes each bias vector `[h]` to a one-row matrix `[1, h]`, aggregates the
  neighbour features (gather the rows named by the column indices, scale each by its edge weight, add it into
  the row named by the row index), and forms each column's mean and variance from the column sums a region
  accumulated.  Here each stretch's results are stated as functions of what the stretch reads.
-/
import proofs.«115488_j17910013624557_2_alg».proof.Proof.Gen.KernelIdeal.Frame
import proofs.«115488_j17910013624557_2_alg».proof.Proof.Spec
import proofs.«115488_j17910013624557_2_alg».proof.Proof.KWalk
import Idealize.ShloMosaic.Lib.StableHlo.Run
import Idealize.ShloMosaic.Lib.Pipeline.Value
import Idealize.ShloMosaic.PureOps.Ideal
import Idealize.ShloMosaic.PureOps.Ideal.Laws
set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.StableHlo
open Idealize.ShloMosaic.ValueIdx Idealize.ShloMosaic.Pipeline
open Idealize.SL.Sem

variable (m : (ℓ : Loc nD τ sig) → Buf (Elt Ideal) ℓ) (ρ : Dev nD → PrngReg) (c : Dev nD)

/-- A one-row matrix `[1, h]` read as a row vector. -/
abbrev row {h : Nat} (B : (⟨2, ![1, h]⟩ : Shape).Idx → EReal) : Cert.Spec.Row h := fun j => B (ix2 0 (j 0))

/-- Reshaping a vector `[h]` to `[1, h]` and reading it back as a row gives the vector. -/
theorem row_reshape {h : Nat} (b : (⟨1, ![h]⟩ : Shape).Idx → EReal)
    (hc : (⟨1, ![h]⟩ : Shape).ShapeCasts ⟨2, ![1, h]⟩) :
    row (fun i => shapeCast ⟨2, ![1, h]⟩ b hc i) = b := by
  funext j
  show shapeCast ⟨1 + 1, Matrix.vecCons 1 ![h]⟩ b hc (ix2 0 (j 0)) = b j
  rw [shapeCast_addUnit_apply]
  exact congrArg b (funext fun a => match a with | ⟨0, _⟩ => rfl)

/-- The column indices with a negative index counted from the end, as a one-column index matrix. -/
def normIdx (cols : IVec S800000 32) : IVec S800000x1 32 :=
  broadcastInDim S800000x1 ![0] bcast_S800000_S800000x1_0
    (select (cmpi CmpIPredicate.slt cols (broadcastInDim S800000 ![] bcast_S_S800000 (constantI S_ 32 0#32)))
      (addi cols (broadcastInDim S800000 ![] bcast_S_S800000 (constantI S_ 32 100000#32))) cols)

/-- The neighbour aggregation at width 64: row `i` of the result is the sum over the edges `e` with
    `rows e = i` of `vals e` times row `cols e` of `x`. -/
def SP64 (rows cols : IVec S800000 32) (vals : FVec Ideal S800000 .f32)
    (x : FVec Ideal S100000x64 .f32) : FVec Ideal S100000x64 .f32 :=
  Host.scatterAdd (F := Ideal) scatter_S100000x64_S800000x1_S800000x64_1_0_0_1
    (broadcastInDim S100000x64 ![] bcast_S_S100000x64 (constant (F := Ideal) S_ FTy.f32 0#32))
    (broadcastInDim S800000x1 ![0] bcast_S800000_S800000x1_0 rows)
    (mulf (broadcastInDim S800000x64 ![0, 1] bcast_S800000x1_S800000x64_0_1
        (broadcastInDim S800000x1 ![0] bcast_S800000_S800000x1_0 vals))
      (Host.gather gather_S100000x64_S800000x1_S800000x64_1_0_n_n_0_1_164 x (normIdx cols)))

/-- The neighbour aggregation at width 32 (the last layer). -/
def SP32 (rows cols : IVec S800000 32) (vals : FVec Ideal S800000 .f32)
    (x : FVec Ideal S100000x32 .f32) : FVec Ideal S100000x32 .f32 :=
  Host.scatterAdd (F := Ideal) scatter_S100000x32_S800000x1_S800000x32_1_0_0_1
    (broadcastInDim S100000x32 ![] bcast_S_S100000x32 (constant (F := Ideal) S_ FTy.f32 0#32))
    (broadcastInDim S800000x1 ![0] bcast_S800000_S800000x1_0 rows)
    (mulf (broadcastInDim S800000x32 ![0, 1] bcast_S800000x1_S800000x32_0_1
        (broadcastInDim S800000x1 ![0] bcast_S800000_S800000x1_0 vals))
      (Host.gather gather_S100000x32_S800000x1_S800000x32_1_0_n_n_0_1_132 x (normIdx cols)))

/-- The final selection: row `p` of the result is row `idx p` of `x` (a negative index counted from the end). -/
def GA (idx : IVec S50000 32) (x : FVec Ideal S100000x32 .f32) : FVec Ideal S50000x32 .f32 :=
  Host.gather gather_S100000x32_S50000x1_S50000x32_1_0_n_n_0_1_132 x
    (broadcastInDim S50000x1 ![0] bcast_S50000_S50000x1_0
      (select (cmpi CmpIPredicate.slt idx (broadcastInDim S50000 ![] bcast_S_S50000 (constantI S_ 32 0#32)))
        (addi idx (broadcastInDim S50000 ![] bcast_S_S50000 (constantI S_ 32 100000#32))) idx))

/-- The number of rows as the programs' float constant. -/
abbrev Nf : EReal := Ideal.ofBits .f32 0x47C35000#32

/-! ## Stretch 0: the two biases of the first layer as one-row matrices -/

set_option maxHeartbeats 4000000 in
theorem v0_row : row (W1 m ρ c (Proc.devRef .tc main_v0)) = m ((c : Thread nD τ).loc main_arg6) := by
  have e : (W1 m ρ c (Proc.devRef .tc main_v0) : (⟨2, ![1, 64]⟩ : Shape).Idx → EReal)
      = fun i => shapeCast ⟨2, ![1, 64]⟩ (m ((c : Thread nD τ).loc main_arg6)) shapeCasts_S64_S1x64 i := by
    show StableHlo.after hostOps0 _ (Proc.devRef .tc main_v0) = _
    after_results_simp

    rfl
  rw [e]; exact row_reshape _ _

set_option maxHeartbeats 4000000 in
theorem v1_row : row (W1 m ρ c (Proc.devRef .tc main_v1)) = m ((c : Thread nD τ).loc main_arg8) := by
  have e : (W1 m ρ c (Proc.devRef .tc main_v1) : (⟨2, ![1, 64]⟩ : Shape).Idx → EReal)
      = fun i => shapeCast ⟨2, ![1, 64]⟩ (m ((c : Thread nD τ).loc main_arg8)) shapeCasts_S64_S1x64 i := by
    show StableHlo.after hostOps0 _ (Proc.devRef .tc main_v1) = _
    after_results_simp

    rfl
  rw [e]; exact row_reshape _ _

/-! ## Stretch 1: the first aggregation, and its bias as a one-row matrix -/

set_option maxHeartbeats 4000000 in
theorem v15_eq : W3 m ρ c (Proc.devRef .tc main_v15)
    = SP64 (m ((c : Thread nD τ).loc main_arg1)) (m ((c : Thread nD τ).loc main_arg2)) (m ((c : Thread nD τ).loc main_arg3)) (W2 m ρ c (Proc.devRef .tc main_v2_1)) := by
  show StableHlo.after hostOps1 _ (Proc.devRef .tc main_v15) = _
  after_results_simp
  rw [KWalk.arg1_at2, KWalk.arg2_at2, KWalk.arg3_at2]
  rfl

set_option maxHeartbeats 4000000 in
theorem v16_row : row (W3 m ρ c (Proc.devRef .tc main_v16)) = m ((c : Thread nD τ).loc main_arg9) := by
  have e : (W3 m ρ c (Proc.devRef .tc main_v16) : (⟨2, ![1, 64]⟩ : Shape).Idx → EReal)
      = fun i => shapeCast ⟨2, ![1, 64]⟩ (m ((c : Thread nD τ).loc main_arg9)) shapeCasts_S64_S1x64 i := by
    show StableHlo.after hostOps1 _ (Proc.devRef .tc main_v16) = _
    after_results_simp
    rw [KWalk.arg9_at2]
    rfl
  rw [e]; exact row_reshape _ _

/-! ## Stretch 2: the first layer's column means and variances, scale and shift as one-row matrices -/

set_option maxHeartbeats 4000000 in
theorem v19_eq : (W5 m ρ c (Proc.devRef .tc main_v19) : (⟨2, ![1, 64]⟩ : Shape).Idx → EReal)
    = Host.divf (F := Ideal) (W4 m ρ c (Proc.devRef .tc main_v17_1))
        (broadcastInDim S1x64 ![] bcast_S_S1x64 (constant (F := Ideal) S_ FTy.f32 0x47C35000#32)) := by
  show StableHlo.after hostOps2 _ (Proc.devRef .tc main_v19) = _
  after_results_simp

set_option maxHeartbeats 4000000 in
theorem v25_eq : (W5 m ρ c (Proc.devRef .tc main_v25) : (⟨2, ![1, 64]⟩ : Shape).Idx → EReal)
    = maximumf (F := Ideal)
        (subf (F := Ideal)
          (Host.divf (F := Ideal) (W4 m ρ c (Proc.devRef .tc main_v17_2))
            (broadcastInDim S1x64 ![] bcast_S_S1x64 (constant (F := Ideal) S_ FTy.f32 0x47C35000#32)))
          (mulf (F := Ideal)
            (Host.divf (F := Ideal) (W4 m ρ c (Proc.devRef .tc main_v17_1))
              (broadcastInDim S1x64 ![] bcast_S_S1x64 (constant (F := Ideal) S_ FTy.f32 0x47C35000#32)))
            (Host.divf (F := Ideal) (W4 m ρ c (Proc.devRef .tc main_v17_1))
              (broadcastInDim S1x64 ![] bcast_S_S1x64 (constant (F := Ideal) S_ FTy.f32 0x47C35000#32)))))
        (broadcastInDim S1x64 ![] bcast_S_S1x64 (constant (F := Ideal) S_ FTy.f32 0x00000000#32)) := by
  show StableHlo.after hostOps2 _ (Proc.devRef .tc main_v25) = _
  after_results_simp

/-- The mean row the next region reads is each column's sum over all rows divided by the row count. -/
theorem v19_row (S : Cert.Spec.Mat 100000 64)
    (h1 : (W4 m ρ c (Proc.devRef .tc main_v17_1) : (⟨2, ![1, 64]⟩ : Shape).Idx → EReal) = fun i => Cert.Spec.colsum S (ix1 (i 1))) :
    row (W5 m ρ c (Proc.devRef .tc main_v19)) = Cert.Spec.mean Nf S := by
  rw [v19_eq, h1]
  funext j
  simp only [row, Host.divf, broadcastInDim, broadcast, constant, Ideal.hostDivf_def, Ideal.ofBits_def]
  try rfl

/-- The variance row the next region reads is the mean of the squares less the square of the mean, clamped at zero. -/
theorem v25_row (S : Cert.Spec.Mat 100000 64)
    (h1 : (W4 m ρ c (Proc.devRef .tc main_v17_1) : (⟨2, ![1, 64]⟩ : Shape).Idx → EReal) = fun i => Cert.Spec.colsum S (ix1 (i 1)))
    (h2 : (W4 m ρ c (Proc.devRef .tc main_v17_2) : (⟨2, ![1, 64]⟩ : Shape).Idx → EReal) = fun i => Cert.Spec.colsum (fun i => S i * S i) (ix1 (i 1))) :
    row (W5 m ρ c (Proc.devRef .tc main_v25)) = Cert.Spec.varMoments Nf S := by
  rw [v25_eq, h1, h2]
  funext j
  simp only [row, Host.divf, maximumf, subf, mulf, broadcastInDim, broadcast, constant, Ideal.hostDivf_def,
    Ideal.maximumf_def, Ideal.subf_def, Ideal.mulf_def, Ideal.ofBits_def, Ideal.ofBits_zero_f32]
  rfl

set_option maxHeartbeats 4000000 in
theorem v26_row : row (W5 m ρ c (Proc.devRef .tc main_v26)) = m ((c : Thread nD τ).loc main_arg10) := by
  have e : (W5 m ρ c (Proc.devRef .tc main_v26) : (⟨2, ![1, 64]⟩ : Shape).Idx → EReal)
      = fun i => shapeCast ⟨2, ![1, 64]⟩ (m ((c : Thread nD τ).loc main_arg10)) shapeCasts_S64_S1x64 i := by
    show StableHlo.after hostOps2 _ (Proc.devRef .tc main_v26) = _
    after_results_simp
    rw [KWalk.arg10_at4]
    rfl
  rw [e]; exact row_reshape _ _

set_option maxHeartbeats 4000000 in
theorem v27_row : row (W5 m ρ c (Proc.devRef .tc main_v27)) = m ((c : Thread nD τ).loc main_arg11) := by
  have e : (W5 m ρ c (Proc.devRef .tc main_v27) : (⟨2, ![1, 64]⟩ : Shape).Idx → EReal)
      = fun i => shapeCast ⟨2, ![1, 64]⟩ (m ((c : Thread nD τ).loc main_arg11)) shapeCasts_S64_S1x64 i := by
    show StableHlo.after hostOps2 _ (Proc.devRef .tc main_v27) = _
    after_results_simp
    rw [KWalk.arg11_at4]
    rfl
  rw [e]; exact row_reshape _ _

/-! ## Stretch 3: the second layer's two zero biases -/

set_option maxHeartbeats 4000000 in
theorem v30_row : row (W7 m ρ c (Proc.devRef .tc main_v30)) = (Cert.Spec.zrow : Cert.Spec.Row 64) := by
  have e : (W7 m ρ c (Proc.devRef .tc main_v30) : (⟨2, ![1, 64]⟩ : Shape).Idx → EReal)
      = fun i => shapeCast ⟨2, ![1, 64]⟩ (broadcastInDim S64 ![] bcast_S_S64 (constant (F := Ideal) S_ FTy.f32 0x00000000#32)) shapeCasts_S64_S1x64 i := by
    show StableHlo.after hostOps3 _ (Proc.devRef .tc main_v30) = _
    after_results_simp
    rfl
  rw [e, row_reshape]
  funext j
  simp only [broadcastInDim, broadcast, constant, Ideal.ofBits_def, Ideal.ofBits_zero_f32]
  rfl

set_option maxHeartbeats 4000000 in
theorem v31_row : row (W7 m ρ c (Proc.devRef .tc main_v31)) = (Cert.Spec.zrow : Cert.Spec.Row 64) := by
  have e : (W7 m ρ c (Proc.devRef .tc main_v31) : (⟨2, ![1, 64]⟩ : Shape).Idx → EReal)
      = fun i => shapeCast ⟨2, ![1, 64]⟩ (broadcastInDim S64 ![] bcast_S_S64 (constant (F := Ideal) S_ FTy.f32 0x00000000#32)) shapeCasts_S64_S1x64 i := by
    show StableHlo.after hostOps3 _ (Proc.devRef .tc main_v31) = _
    after_results_simp
    rfl
  rw [e, row_reshape]
  funext j
  simp only [broadcastInDim, broadcast, constant, Ideal.ofBits_def, Ideal.ofBits_zero_f32]
  rfl

/-! ## Stretch 4: the second aggregation and its bias -/

set_option maxHeartbeats 4000000 in
theorem v45_eq : W9 m ρ c (Proc.devRef .tc main_v45)
    = SP64 (m ((c : Thread nD τ).loc main_arg1)) (m ((c : Thread nD τ).loc main_arg2)) (m ((c : Thread nD τ).loc main_arg3)) (W8 m ρ c (Proc.devRef .tc main_v32_1)) := by
  show StableHlo.after hostOps4 _ (Proc.devRef .tc main_v45) = _
  after_results_simp
  rw [KWalk.arg1_at8, KWalk.arg2_at8, KWalk.arg3_at8]
  rfl

set_option maxHeartbeats 4000000 in
theorem v46_row : row (W9 m ρ c (Proc.devRef .tc main_v46)) = m ((c : Thread nD τ).loc main_arg14) := by
  have e : (W9 m ρ c (Proc.devRef .tc main_v46) : (⟨2, ![1, 64]⟩ : Shape).Idx → EReal)
      = fun i => shapeCast ⟨2, ![1, 64]⟩ (m ((c : Thread nD τ).loc main_arg14)) shapeCasts_S64_S1x64 i := by
    show StableHlo.after hostOps4 _ (Proc.devRef .tc main_v46) = _
    after_results_simp
    rw [KWalk.arg14_at8]
    rfl
  rw [e]; exact row_reshape _ _

/-! ## Stretch 5: the second layer's column means and variances, scale and shift -/

set_option maxHeartbeats 4000000 in
theorem v49_eq : (W11 m ρ c (Proc.devRef .tc main_v49) : (⟨2, ![1, 64]⟩ : Shape).Idx → EReal)
    = Host.divf (F := Ideal) (W10 m ρ c (Proc.devRef .tc main_v47_1))
        (broadcastInDim S1x64 ![] bcast_S_S1x64 (constant (F := Ideal) S_ FTy.f32 0x47C35000#32)) := by
  show StableHlo.after hostOps5 _ (Proc.devRef .tc main_v49) = _
  after_results_simp

set_option maxHeartbeats 4000000 in
theorem v55_eq : (W11 m ρ c (Proc.devRef .tc main_v55) : (⟨2, ![1, 64]⟩ : Shape).Idx → EReal)
    = maximumf (F := Ideal)
        (subf (F := Ideal)
          (Host.divf (F := Ideal) (W10 m ρ c (Proc.devRef .tc main_v47_2))
            (broadcastInDim S1x64 ![] bcast_S_S1x64 (constant (F := Ideal) S_ FTy.f32 0x47C35000#32)))
          (mulf (F := Ideal)
            (Host.divf (F := Ideal) (W10 m ρ c (Proc.devRef .tc main_v47_1))
              (broadcastInDim S1x64 ![] bcast_S_S1x64 (constant (F := Ideal) S_ FTy.f32 0x47C35000#32)))
            (Host.divf (F := Ideal) (W10 m ρ c (Proc.devRef .tc main_v47_1))
              (broadcastInDim S1x64 ![] bcast_S_S1x64 (constant (F := Ideal) S_ FTy.f32 0x47C35000#32)))))
        (broadcastInDim S1x64 ![] bcast_S_S1x64 (constant (F := Ideal) S_ FTy.f32 0x00000000#32)) := by
  show StableHlo.after hostOps5 _ (Proc.devRef .tc main_v55) = _
  after_results_simp

/-- The mean row the next region reads is each column's sum over all rows divided by the row count. -/
theorem v49_row (S : Cert.Spec.Mat 100000 64)
    (h1 : (W10 m ρ c (Proc.devRef .tc main_v47_1) : (⟨2, ![1, 64]⟩ : Shape).Idx → EReal) = fun i => Cert.Spec.colsum S (ix1 (i 1))) :
    row (W11 m ρ c (Proc.devRef .tc main_v49)) = Cert.Spec.mean Nf S := by
  rw [v49_eq, h1]
  funext j
  simp only [row, Host.divf, broadcastInDim, broadcast, constant, Ideal.hostDivf_def, Ideal.ofBits_def]
  try rfl

/-- The variance row the next region reads is the mean of the squares less the square of the mean, clamped at zero. -/
theorem v55_row (S : Cert.Spec.Mat 100000 64)
    (h1 : (W10 m ρ c (Proc.devRef .tc main_v47_1) : (⟨2, ![1, 64]⟩ : Shape).Idx → EReal) = fun i => Cert.Spec.colsum S (ix1 (i 1)))
    (h2 : (W10 m ρ c (Proc.devRef .tc main_v47_2) : (⟨2, ![1, 64]⟩ : Shape).Idx → EReal) = fun i => Cert.Spec.colsum (fun i => S i * S i) (ix1 (i 1))) :
    row (W11 m ρ c (Proc.devRef .tc main_v55)) = Cert.Spec.varMoments Nf S := by
  rw [v55_eq, h1, h2]
  funext j
  simp only [row, Host.divf, maximumf, subf, mulf, broadcastInDim, broadcast, constant, Ideal.hostDivf_def,
    Ideal.maximumf_def, Ideal.subf_def, Ideal.mulf_def, Ideal.ofBits_def, Ideal.ofBits_zero_f32]
  rfl

set_option maxHeartbeats 4000000 in
theorem v56_row : row (W11 m ρ c (Proc.devRef .tc main_v56)) = m ((c : Thread nD τ).loc main_arg15) := by
  have e : (W11 m ρ c (Proc.devRef .tc main_v56) : (⟨2, ![1, 64]⟩ : Shape).Idx → EReal)
      = fun i => shapeCast ⟨2, ![1, 64]⟩ (m ((c : Thread nD τ).loc main_arg15)) shapeCasts_S64_S1x64 i := by
    show StableHlo.after hostOps5 _ (Proc.devRef .tc main_v56) = _
    after_results_simp
    rw [KWalk.arg15_at10]
    rfl
  rw [e]; exact row_reshape _ _

set_option maxHeartbeats 4000000 in
theorem v57_row : row (W11 m ρ c (Proc.devRef .tc main_v57)) = m ((c : Thread nD τ).loc main_arg16) := by
  have e : (W11 m ρ c (Proc.devRef .tc main_v57) : (⟨2, ![1, 64]⟩ : Shape).Idx → EReal)
      = fun i => shapeCast ⟨2, ![1, 64]⟩ (m ((c : Thread nD τ).loc main_arg16)) shapeCasts_S64_S1x64 i := by
    show StableHlo.after hostOps5 _ (Proc.devRef .tc main_v57) = _
    after_results_simp
    rw [KWalk.arg16_at10]
    rfl
  rw [e]; exact row_reshape _ _

/-! ## Stretch 6: the last layer's two zero biases -/

set_option maxHeartbeats 4000000 in
theorem v60_row : row (W13 m ρ c (Proc.devRef .tc main_v60)) = (Cert.Spec.zrow : Cert.Spec.Row 32) := by
  have e : (W13 m ρ c (Proc.devRef .tc main_v60) : (⟨2, ![1, 32]⟩ : Shape).Idx → EReal)
      = fun i => shapeCast ⟨2, ![1, 32]⟩ (broadcastInDim S32 ![] bcast_S_S32 (constant (F := Ideal) S_ FTy.f32 0x00000000#32)) shapeCasts_S32_S1x32 i := by
    show StableHlo.after hostOps6 _ (Proc.devRef .tc main_v60) = _
    after_results_simp
    rfl
  rw [e, row_reshape]
  funext j
  simp only [broadcastInDim, broadcast, constant, Ideal.ofBits_def, Ideal.ofBits_zero_f32]
  rfl

set_option maxHeartbeats 4000000 in
theorem v61_row : row (W13 m ρ c (Proc.devRef .tc main_v61)) = (Cert.Spec.zrow : Cert.Spec.Row 32) := by
  have e : (W13 m ρ c (Proc.devRef .tc main_v61) : (⟨2, ![1, 32]⟩ : Shape).Idx → EReal)
      = fun i => shapeCast ⟨2, ![1, 32]⟩ (broadcastInDim S32 ![] bcast_S_S32 (constant (F := Ideal) S_ FTy.f32 0x00000000#32)) shapeCasts_S32_S1x32 i := by
    show StableHlo.after hostOps6 _ (Proc.devRef .tc main_v61) = _
    after_results_simp
    rfl
  rw [e, row_reshape]
  funext j
  simp only [broadcastInDim, broadcast, constant, Ideal.ofBits_def, Ideal.ofBits_zero_f32]
  rfl

/-! ## Stretch 7: the last aggregation and its bias -/

set_option maxHeartbeats 4000000 in
theorem v75_eq : W15 m ρ c (Proc.devRef .tc main_v75)
    = SP32 (m ((c : Thread nD τ).loc main_arg1)) (m ((c : Thread nD τ).loc main_arg2)) (m ((c : Thread nD τ).loc main_arg3)) (W14 m ρ c (Proc.devRef .tc main_v62_1)) := by
  show StableHlo.after hostOps7 _ (Proc.devRef .tc main_v75) = _
  after_results_simp
  rw [KWalk.arg1_at14, KWalk.arg2_at14, KWalk.arg3_at14]
  rfl

set_option maxHeartbeats 4000000 in
theorem v76_row : row (W15 m ρ c (Proc.devRef .tc main_v76)) = m ((c : Thread nD τ).loc main_arg19) := by
  have e : (W15 m ρ c (Proc.devRef .tc main_v76) : (⟨2, ![1, 32]⟩ : Shape).Idx → EReal)
      = fun i => shapeCast ⟨2, ![1, 32]⟩ (m ((c : Thread nD τ).loc main_arg19)) shapeCasts_S32_S1x32 i := by
    show StableHlo.after hostOps7 _ (Proc.devRef .tc main_v76) = _
    after_results_simp
    rw [KWalk.arg19_at14]
    rfl
  rw [e]; exact row_reshape _ _

/-! ## Stretch 8: the final selection of rows -/

set_option maxHeartbeats 4000000 in
theorem v84_eq : W17 m ρ c (Proc.devRef .tc main_v84) = GA (m ((c : Thread nD τ).loc main_arg4)) (W16 m ρ c (Proc.devRef .tc main_v77)) := by
  show StableHlo.after hostOps8 _ (Proc.devRef .tc main_v84) = _
  after_results_simp
  rw [KWalk.arg4_at16]
  rfl

end Cert.KernelIdeal.KHost

end
-- ==== Proof.KDense.lean ====
/-
  The three matrix-product regions of the kernel program, each read as a function of the arrays it finds.

  A product region walks ten blocks of 10000 rows.  At block `t` its body loads rows `10000 t … 10000 t + 9999` of the
  feature matrix `x`, the whole of two weight matrices and of two biases (each a `[1, h]` row), and stores
  `x_block · Wn + bn` and `x_block · Wg + bg` into the matching blocks of its two outputs.  Entry `(p, q)` of a stored
  block is `∑ l, x_block (p, l) · W (l, q) + b (0, q)`; the blocks tile the output, row `r` lying in block `r / 10000`;
  so after the region each output is `Cert.Spec.dense x W b`, entry by entry.
-/
import proofs.«115488_j17910013624557_2_alg».proof.Proof.Gen.KernelIdeal.Frame
import proofs.«115488_j17910013624557_2_alg».proof.Proof.Spec
import Idealize.ShloMosaic.Lib.Pipeline.Value
import Idealize.ShloMosaic.Lib.ValueIdx
import Idealize.ShloMosaic.PureOps.Ideal.Laws

noncomputable section

namespace Cert.KernelIdeal.KDense

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-! # The first product region: `[100000, 128] · [128, 64]`, ten blocks of 10000 rows -/

/-- One matrix product with a zero accumulator, read at an entry: the sum over the contracted coordinate. -/
theorem matmul0_apply (x : FVec Ideal S10000x128 .bf16) (w : FVec Ideal S128x64 .bf16) (p : Fin 10000) (q : Fin 64) :
    matmul dot_S10000x128_S128x64_S10000x64_1_0_0_1_n_n none x w (constant (F := Ideal) S10000x64 .f32 0x00000000#32) (ix2 p q)
      = ∑ l : Fin 128, x (ix2 p l) * w (ix2 l q) := by
  show FloatOps.matmul _ none x w _ (ix2 p q) = _
  rw [Ideal.matmul_constant_zero_apply,
    ← Equiv.sum_comp (contrEquiv1 dot_S10000x128_S128x64_S10000x64_1_0_0_1_n_n 128 rfl rfl).symm]
  refine Finset.sum_congr rfl fun l _ => ?_
  have c2 := contrEquiv1_symm_val dot_S10000x128_S128x64_S10000x64_1_0_0_1_n_n 128 rfl rfl l
  have hl := dot_S10000x128_S128x64_S10000x64_1_0_0_1_n_n.lhsIdx_val_of_single (cl := 1) rfl (ix2 p q)
    ((contrEquiv1 dot_S10000x128_S128x64_S10000x64_1_0_0_1_n_n 128 rfl rfl).symm l)
  have hr := dot_S10000x128_S128x64_S10000x64_1_0_0_1_n_n.rhsIdx_val_of_single (cr := 0) rfl (ix2 p q)
    ((contrEquiv1 dot_S10000x128_S128x64_S10000x64_1_0_0_1_n_n 128 rfl rfl).symm l)
  have l2 : dot_S10000x128_S128x64_S10000x64_1_0_0_1_n_n.lhsIdx (ix2 p q)
      ((contrEquiv1 dot_S10000x128_S128x64_S10000x64_1_0_0_1_n_n 128 rfl rfl).symm l) = ix2 p l := by
    funext ax; apply Fin.ext
    match ax with
    | ⟨0, _⟩ => simp [DotDims.lhsIdx, dot_S10000x128_S128x64_S10000x64_1_0_0_1_n_n]; rfl
    | ⟨1, _⟩ => exact hl.trans c2
  have r2 : dot_S10000x128_S128x64_S10000x64_1_0_0_1_n_n.rhsIdx (ix2 p q)
      ((contrEquiv1 dot_S10000x128_S128x64_S10000x64_1_0_0_1_n_n 128 rfl rfl).symm l) = ix2 l q := by
    funext ax; apply Fin.ext
    match ax with
    | ⟨0, _⟩ => exact hr.trans c2
    | ⟨1, _⟩ => simp [DotDims.rhsIdx, dot_S10000x128_S128x64_S10000x64_1_0_0_1_n_n]; rfl
  rw [l2, r2]

/-- The first stored value of the body at an entry: row `p` of the block times column `q` of the weight, plus the
    bias at `q` (the format changes are the identity on extended reals). -/
theorem pay0_2_apply (x0 : Vec Ideal S10000x128 .f32) (x1 : Vec Ideal S128x64 .f32) (x2 : Vec Ideal S1x64 .f32)
    (p : Fin 10000) (q : Fin 64) :
    (k0_pay2 (F := Ideal) x0 x1 x2 (ix2 p q) : EReal)
      = (∑ l : Fin 128, (x0 (ix2 p l) : EReal) * (x1 (ix2 l q) : EReal)) + (x2 (ix2 0 q) : EReal) := by
  unfold k0_pay2 k0_pay1
  dsimp only
  rw [addf_apply, matmul0_apply]
  simp only [shapeCast_self]
  rw [broadcastTo_apply x2 _ (ix2 p q) (ix2 0 q) (fun a => by match a with | ⟨0, _⟩ => rfl | ⟨1, _⟩ => rfl)]
  rfl

/-- A row of the body's first stored value, when the loaded block is rows of `A0` and the loaded weight and bias are
    `A1`, `A2`: the entry of `A0 · A1 + A2` on that row. -/
theorem pay0_2_rows (A0 : Cert.Spec.Mat 100000 128) (A1 : Cert.Spec.Mat 128 64) (A2 : S1x64.Idx → EReal)
    (x0 : Vec Ideal S10000x128 .f32) (x1 : Vec Ideal S128x64 .f32) (x2 : Vec Ideal S1x64 .f32)
    (p : Fin 10000) (q : Fin 64) (r : Fin 100000)
    (h0 : ∀ l : Fin 128, (x0 (ix2 p l) : EReal) = A0 (ix2 r l))
    (h1 : ∀ l : Fin 128, (x1 (ix2 l q) : EReal) = A1 (ix2 l q))
    (h2 : (x2 (ix2 0 q) : EReal) = A2 (ix2 0 q)) :
    (k0_pay2 (F := Ideal) x0 x1 x2 (ix2 p q) : EReal) = Cert.Spec.dense A0 A1 (fun j => A2 (ix2 0 (j 0))) (ix2 r q) := by
  rw [pay0_2_apply]
  show _ = (∑ l : Fin 128, A0 (ix2 r l) * A1 (ix2 l q)) + A2 (ix2 0 q)
  rw [h2]
  exact congrArg (· + A2 (ix2 0 q)) (Finset.sum_congr rfl fun l _ => by rw [h0 l, h1 l])

/-- The second stored value of the body at an entry: row `p` of the block times column `q` of the weight, plus the
    bias at `q` (the format changes are the identity on extended reals). -/
theorem pay0_3_apply (x0 : Vec Ideal S10000x128 .f32) (x1 : Vec Ideal S128x64 .f32) (x2 : Vec Ideal S1x64 .f32)
    (p : Fin 10000) (q : Fin 64) :
    (k0_pay3 (F := Ideal) x0 x1 x2 (ix2 p q) : EReal)
      = (∑ l : Fin 128, (x0 (ix2 p l) : EReal) * (x1 (ix2 l q) : EReal)) + (x2 (ix2 0 q) : EReal) := by
  unfold k0_pay3 k0_pay1
  dsimp only
  rw [addf_apply, matmul0_apply]
  simp only [shapeCast_self]
  rw [broadcastTo_apply x2 _ (ix2 p q) (ix2 0 q) (fun a => by match a with | ⟨0, _⟩ => rfl | ⟨1, _⟩ => rfl)]
  rfl

/-- A row of the body's second stored value, when the loaded block is rows of `A0` and the loaded weight and bias are
    `A1`, `A2`: the entry of `A0 · A1 + A2` on that row. -/
theorem pay0_3_rows (A0 : Cert.Spec.Mat 100000 128) (A1 : Cert.Spec.Mat 128 64) (A2 : S1x64.Idx → EReal)
    (x0 : Vec Ideal S10000x128 .f32) (x1 : Vec Ideal S128x64 .f32) (x2 : Vec Ideal S1x64 .f32)
    (p : Fin 10000) (q : Fin 64) (r : Fin 100000)
    (h0 : ∀ l : Fin 128, (x0 (ix2 p l) : EReal) = A0 (ix2 r l))
    (h1 : ∀ l : Fin 128, (x1 (ix2 l q) : EReal) = A1 (ix2 l q))
    (h2 : (x2 (ix2 0 q) : EReal) = A2 (ix2 0 q)) :
    (k0_pay3 (F := Ideal) x0 x1 x2 (ix2 p q) : EReal) = Cert.Spec.dense A0 A1 (fun j => A2 (ix2 0 (j 0))) (ix2 r q) := by
  rw [pay0_3_apply]
  show _ = (∑ l : Fin 128, A0 (ix2 r l) * A1 (ix2 l q)) + A2 (ix2 0 q)
  rw [h2]
  exact congrArg (· + A2 (ix2 0 q)) (Finset.sum_congr rfl fun l _ => by rw [h0 l, h1 l])

/-- The block index of every window of the region at every grid point: the row blocks move with the point, the
    weights and biases stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The first output of the region as one function of the arrays the region finds. -/
abbrev G0_5 (c : Dev nD) : S100000x64.Idx → EReal :=
  Cert.Spec.dense (V c (Pipeline.arrRef spec0 0)) (V c (Pipeline.arrRef spec0 1)) (fun j => V c (Pipeline.arrRef spec0 2) (ix2 0 (j 0)))

/-- What point `t` writes back to the first output is block `t` of that function. -/
theorem flushed0_5_eq (c : Dev nD) (t : Fin cfg0.N) :
    (dat0 V c).flushed 5 t = ((cfg0.win 5).blk t).view.read (Elt Ideal) (G0_5 V c) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x64) hz, View.ld_unit_zero (S := S1x64) hz]
  funext j
  have hj0 : (j 0).val < 10000 := (j 0).isLt
  have hj1 : (j 1).val < 64 := (j 1).isLt
  have ht : t.val < 10 := lt_of_lt_of_eq t.isLt N_0
  obtain ⟨e00, e01, e10, e11, e20, e21, e30, e31, e40, e41, e50, e51, e60, e61⟩ := idx_facts0 t
  have hx : (win0 5).xinj (grid0.coords t) j = ix2 (⟨(j 0).val, hj0⟩ : Fin 10000) (⟨(j 1).val, hj1⟩ : Fin 64) :=
    funext fun a => by match a with | ⟨0, _⟩ => rfl | ⟨1, _⟩ => rfl
  have he : ((cfg0.win 5).blk t).view.emb j = ix2 (⟨t.val * 10000 + (j 0).val, by omega⟩ : Fin 100000) (⟨(j 1).val, hj1⟩ : Fin 64) := by
    funext a; apply Fin.ext
    match a with
    | ⟨0, _⟩ => show win0_5.index t (0 : Fin 2) * 10000 + 1 * (j 0).val = t.val * 10000 + (j 0).val; omega
    | ⟨1, _⟩ => show win0_5.index t (1 : Fin 2) * 64 + 1 * (j 1).val = (j 1).val; omega
  show k0_pay2 (F := Ideal) (iblk0 V c 0 t) (iblk0 V c 1 t) (iblk0 V c 2 t) ((win0 5).xinj (grid0.coords t) j) = G0_5 V c (((cfg0.win 5).blk t).view.emb j)
  rw [hx, he]
  refine pay0_2_rows (V c (Pipeline.arrRef spec0 0)) (V c (Pipeline.arrRef spec0 1)) (V c (Pipeline.arrRef spec0 2))
    (iblk0 V c 0 t) (iblk0 V c 1 t) (iblk0 V c 2 t) ⟨(j 0).val, hj0⟩ ⟨(j 1).val, hj1⟩ ⟨t.val * 10000 + (j 0).val, by omega⟩
    (fun l => ?_) (fun l => ?_) ?_
  · show V c (Pipeline.arrRef spec0 0) (((cfg0.win 0).blk t).view.emb (ix2 (⟨(j 0).val, hj0⟩ : Fin 10000) l))
      = V c (Pipeline.arrRef spec0 0) (ix2 (⟨t.val * 10000 + (j 0).val, by omega⟩ : Fin 100000) l)
    refine congrArg _ (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 128 + 1 * l.val = l.val; omega
  · show V c (Pipeline.arrRef spec0 1) (((cfg0.win 1).blk t).view.emb (ix2 l (⟨(j 1).val, hj1⟩ : Fin 64)))
      = V c (Pipeline.arrRef spec0 1) (ix2 l (⟨(j 1).val, hj1⟩ : Fin 64))
    refine congrArg _ (funext fun a => Fin.ext ?_)
    match a with
    | ⟨0, _⟩ => show win0_1.index t (0 : Fin 2) * 128 + 1 * l.val = l.val; omega
    | ⟨1, _⟩ => show win0_1.index t (1 : Fin 2) * 64 + 1 * (j 1).val = (j 1).val; omega
  · show V c (Pipeline.arrRef spec0 2) (((cfg0.win 2).blk t).view.emb (ix2 (0 : Fin 1) (⟨(j 1).val, hj1⟩ : Fin 64)))
      = V c (Pipeline.arrRef spec0 2) (ix2 (0 : Fin 1) (⟨(j 1).val, hj1⟩ : Fin 64))
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * (j 1).val = (j 1).val; omega

/-- An entry of the first output is in point `t`'s block iff each coordinate is in the block's range on its axis. -/
theorem mem_blk0_5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v2_0).slice (win0_5.rect t)).set ↔ _
  rw [View.set_slice_whole, Rect.mem_set_unit]
  exact Iff.rfl

/-- Row `r` of the first output is written by the point `r / 10000`. -/
theorem covered0_5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, Nat.lt_of_lt_of_eq (by omega : (i 0).val / 10000 < 10) N_0.symm⟩, rfl⟩
  obtain ⟨-, -, -, -, -, -, -, -, -, -, e50, e51, e60, e61⟩ := idx_facts0 t
  refine ⟨t, flush0_5 t, ?_⟩
  rw [mem_blk0_5]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- After the region its first output holds `x · W + b` of the arrays the region found (the first weight and bias). -/
theorem region0_node (c : Dev nD) :
    ((dat0 (F := Ideal) V c).arrAt 5 cfg0.N : S100000x64.Idx → EReal)
      = Cert.Spec.dense (V c (Pipeline.arrRef spec0 0)) (V c (Pipeline.arrRef spec0 1)) (fun j => V c (Pipeline.arrRef spec0 2) (ix2 0 (j 0))) :=
  (dat0 V c).arrAt_eq_of_cover 5 (G0_5 V c) (fun t _ => flushed0_5_eq V c t) covered0_5

/-- The second output of the region as one function of the arrays the region finds. -/
abbrev G0_6 (c : Dev nD) : S100000x64.Idx → EReal :=
  Cert.Spec.dense (V c (Pipeline.arrRef spec0 0)) (V c (Pipeline.arrRef spec0 3)) (fun j => V c (Pipeline.arrRef spec0 4) (ix2 0 (j 0)))

/-- What point `t` writes back to the second output is block `t` of that function. -/
theorem flushed0_6_eq (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S128x64) hz, View.ld_unit_zero (S := S1x64) hz]
  funext j
  have hj0 : (j 0).val < 10000 := (j 0).isLt
  have hj1 : (j 1).val < 64 := (j 1).isLt
  have ht : t.val < 10 := lt_of_lt_of_eq t.isLt N_0
  obtain ⟨e00, e01, e10, e11, e20, e21, e30, e31, e40, e41, e50, e51, e60, e61⟩ := idx_facts0 t
  have hx : (win0 6).xinj (grid0.coords t) j = ix2 (⟨(j 0).val, hj0⟩ : Fin 10000) (⟨(j 1).val, hj1⟩ : Fin 64) :=
    funext fun a => by match a with | ⟨0, _⟩ => rfl | ⟨1, _⟩ => rfl
  have he : ((cfg0.win 6).blk t).view.emb j = ix2 (⟨t.val * 10000 + (j 0).val, by omega⟩ : Fin 100000) (⟨(j 1).val, hj1⟩ : Fin 64) := by
    funext a; apply Fin.ext
    match a with
    | ⟨0, _⟩ => show win0_6.index t (0 : Fin 2) * 10000 + 1 * (j 0).val = t.val * 10000 + (j 0).val; omega
    | ⟨1, _⟩ => show win0_6.index t (1 : Fin 2) * 64 + 1 * (j 1).val = (j 1).val; omega
  show k0_pay3 (F := Ideal) (iblk0 V c 0 t) (iblk0 V c 3 t) (iblk0 V c 4 t) ((win0 6).xinj (grid0.coords t) j) = G0_6 V c (((cfg0.win 6).blk t).view.emb j)
  rw [hx, he]
  refine pay0_3_rows (V c (Pipeline.arrRef spec0 0)) (V c (Pipeline.arrRef spec0 3)) (V c (Pipeline.arrRef spec0 4))
    (iblk0 V c 0 t) (iblk0 V c 3 t) (iblk0 V c 4 t) ⟨(j 0).val, hj0⟩ ⟨(j 1).val, hj1⟩ ⟨t.val * 10000 + (j 0).val, by omega⟩
    (fun l => ?_) (fun l => ?_) ?_
  · show V c (Pipeline.arrRef spec0 0) (((cfg0.win 0).blk t).view.emb (ix2 (⟨(j 0).val, hj0⟩ : Fin 10000) l))
      = V c (Pipeline.arrRef spec0 0) (ix2 (⟨t.val * 10000 + (j 0).val, by omega⟩ : Fin 100000) l)
    refine congrArg _ (funext fun a => Fin.ext ?_)
    match a with
    | ⟨0, _⟩ => show win0_0.index t (0 : Fin 2) * 10000 + 1 * (j 0).val = t.val * 10000 + (j 0).val; omega
    | ⟨1, _⟩ => show win0_0.index t (1 : Fin 2) * 128 + 1 * l.val = l.val; omega
  · show V c (Pipeline.arrRef spec0 3) (((cfg0.win 3).blk t).view.emb (ix2 l (⟨(j 1).val, hj1⟩ : Fin 64)))
      = V c (Pipeline.arrRef spec0 3) (ix2 l (⟨(j 1).val, hj1⟩ : Fin 64))
    refine congrArg _ (funext fun a => Fin.ext ?_)
    match a with
    | ⟨0, _⟩ => show win0_3.index t (0 : Fin 2) * 128 + 1 * l.val = l.val; omega
    | ⟨1, _⟩ => show win0_3.index t (1 : Fin 2) * 64 + 1 * (j 1).val = (j 1).val; omega
  · show V c (Pipeline.arrRef spec0 4) (((cfg0.win 4).blk t).view.emb (ix2 (0 : Fin 1) (⟨(j 1).val, hj1⟩ : Fin 64)))
      = V c (Pipeline.arrRef spec0 4) (ix2 (0 : Fin 1) (⟨(j 1).val, hj1⟩ : Fin 64))
    refine congrArg _ (funext fun a => Fin.ext ?_)
    match a with
    | ⟨0, _⟩ => show win0_4.index t (0 : Fin 2) * 1 + 1 * 0 = 0; omega
    | ⟨1, _⟩ => show win0_4.index t (1 : Fin 2) * 64 + 1 * (j 1).val = (j 1).val; omega

/-- An entry of the second output is in point `t`'s block iff each coordinate is in the block's range on its axis. -/
theorem mem_blk0_6 (t : Fin cfg0.N) (i : S100000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v2_1).slice (win0_6.rect t)).set ↔ _
  rw [View.set_slice_whole, Rect.mem_set_unit]
  exact Iff.rfl

/-- Row `r` of the second output is written by the point `r / 10000`. -/
theorem covered0_6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, Nat.lt_of_lt_of_eq (by omega : (i 0).val / 10000 < 10) N_0.symm⟩, rfl⟩
  obtain ⟨-, -, -, -, -, -, -, -, -, -, e50, e51, e60, e61⟩ := idx_facts0 t
  refine ⟨t, flush0_6 t, ?_⟩
  rw [mem_blk0_6]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

/-- After the region its second output holds `x · W + b` of the arrays the region found (the second weight and bias). -/
theorem region0_neigh (c : Dev nD) :
    ((dat0 (F := Ideal) V c).arrAt 6 cfg0.N : S100000x64.Idx → EReal)
      = Cert.Spec.dense (V c (Pipeline.arrRef spec0 0)) (V c (Pipeline.arrRef spec0 3)) (fun j => V c (Pipeline.arrRef spec0 4) (ix2 0 (j 0))) :=
  (dat0 V c).arrAt_eq_of_cover 6 (G0_6 V c) (fun t _ => flushed0_6_eq V c t) covered0_6

/-! # The second product region: `[100000, 64] · [64, 64]`, ten blocks of 10000 rows -/

/-- One matrix product with a zero accumulator, read at an entry: the sum over the contracted coordinate. -/
theorem matmul3_apply (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ l : Fin 64, x (ix2 p l) * w (ix2 l q) := by
  show FloatOps.matmul _ none x w _ (ix2 p q) = _
  rw [Ideal.matmul_constant_zero_apply,
    ← Equiv.sum_comp (contrEquiv1 dot_S10000x64_S64x64_S10000x64_1_0_0_1_n_n 64 rfl rfl).symm]
  refine Finset.sum_congr rfl fun l _ => ?_
  have c2 := contrEquiv1_symm_val dot_S10000x64_S64x64_S10000x64_1_0_0_1_n_n 64 rfl rfl l
  have hl := dot_S10000x64_S64x64_S10000x64_1_0_0_1_n_n.lhsIdx_val_of_single (cl := 1) rfl (ix2 p q)
    ((contrEquiv1 dot_S10000x64_S64x64_S10000x64_1_0_0_1_n_n 64 rfl rfl).symm l)
  have hr := dot_S10000x64_S64x64_S10000x64_1_0_0_1_n_n.rhsIdx_val_of_single (cr := 0) rfl (ix2 p q)
    ((contrEquiv1 dot_S10000x64_S64x64_S10000x64_1_0_0_1_n_n 64 rfl rfl).symm l)
  have l2 : dot_S10000x64_S64x64_S10000x64_1_0_0_1_n_n.lhsIdx (ix2 p q)
      ((contrEquiv1 dot_S10000x64_S64x64_S10000x64_1_0_0_1_n_n 64 rfl rfl).symm l) = ix2 p l := by
    funext ax; apply Fin.ext
    match ax with
    | ⟨0, _⟩ => simp [DotDims.lhsIdx, dot_S10000x64_S64x64_S10000x64_1_0_0_1_n_n]; rfl
    | ⟨1, _⟩ => exact hl.trans c2
  have r2 : dot_S10000x64_S64x64_S10000x64_1_0_0_1_n_n.rhsIdx (ix2 p q)
      ((contrEquiv1 dot_S10000x64_S64x64_S10000x64_1_0_0_1_n_n 64 rfl rfl).symm l) = ix2 l q := by
    funext ax; apply Fin.ext
    match ax with
    | ⟨0, _⟩ => exact hr.trans c2
    | ⟨1, _⟩ => simp [DotDims.rhsIdx, dot_S10000x64_S64x64_S10000x64_1_0_0_1_n_n]; rfl
  rw [l2, r2]

/-- The first stored value of the body at an entry: row `p` of the block times column `q` of the weight, plus the
    bias at `q` (the format changes are the identity on extended reals). -/
theorem pay3_2_apply (x0 : Vec Ideal S10000x64 .f32) (x1 : Vec Ideal S64x64 .f32) (x2 : Vec Ideal S1x64 .f32)
    (p : Fin 10000) (q : Fin 64) :
    (k3_pay2 (F := Ideal) x0 x1 x2 (ix2 p q) : EReal)
      = (∑ l : Fin 64, (x0 (ix2 p l) : EReal) * (x1 (ix2 l q) : EReal)) + (x2 (ix2 0 q) : EReal) := by
  unfold k3_pay2 k3_pay1
  dsimp only
  rw [addf_apply, matmul3_apply]
  simp only [shapeCast_self]
  rw [broadcastTo_apply x2 _ (ix2 p q) (ix2 0 q) (fun a => by match a with | ⟨0, _⟩ => rfl | ⟨1, _⟩ => rfl)]
  rfl

/-- A row of the body's first stored value, when the loaded block is rows of `A0` and the loaded weight and bias are
    `A1`, `A2`: the entry of `A0 · A1 + A2` on that row. -/
theorem pay3_2_rows (A0 : Cert.Spec.Mat 100000 64) (A1 : Cert.Spec.Mat 64 64) (A2 : S1x64.Idx → EReal)
    (x0 : Vec Ideal S10000x64 .f32) (x1 : Vec Ideal S64x64 .f32) (x2 : Vec Ideal S1x64 .f32)
    (p : Fin 10000) (q : Fin 64) (r : Fin 100000)
    (h0 : ∀ l : Fin 64, (x0 (ix2 p l) : EReal) = A0 (ix2 r l))
    (h1 : ∀ l : Fin 64, (x1 (ix2 l q) : EReal) = A1 (ix2 l q))
    (h2 : (x2 (ix2 0 q) : EReal) = A2 (ix2 0 q)) :
    (k3_pay2 (F := Ideal) x0 x1 x2 (ix2 p q) : EReal) = Cert.Spec.dense A0 A1 (fun j => A2 (ix2 0 (j 0))) (ix2 r q) := by
  rw [pay3_2_apply]
  show _ = (∑ l : Fin 64, A0 (ix2 r l) * A1 (ix2 l q)) + A2 (ix2 0 q)
  rw [h2]
  exact congrArg (· + A2 (ix2 0 q)) (Finset.sum_congr rfl fun l _ => by rw [h0 l, h1 l])

/-- The second stored value of the body at an entry: row `p` of the block times column `q` of the weight, plus the
    bias at `q` (the format changes are the identity on extended reals). -/
theorem pay3_3_apply (x0 : Vec Ideal S10000x64 .f32) (x1 : Vec Ideal S64x64 .f32) (x2 : Vec Ideal S1x64 .f32)
    (p : Fin 10000) (q : Fin 64) :
    (k3_pay3 (F := Ideal) x0 x1 x2 (ix2 p q) : EReal)
      = (∑ l : Fin 64, (x0 (ix2 p l) : EReal) * (x1 (ix2 l q) : EReal)) + (x2 (ix2 0 q) : EReal) := by
  unfold k3_pay3 k3_pay1
  dsimp only
  rw [addf_apply, matmul3_apply]
  simp only [shapeCast_self]
  rw [broadcastTo_apply x2 _ (ix2 p q) (ix2 0 q) (fun a => by match a with | ⟨0, _⟩ => rfl | ⟨1, _⟩ => rfl)]
  rfl

/-- A row of the body's second stored value, when the loaded block is rows of `A0` and the loaded weight and bias are
    `A1`, `A2`: the entry of `A0 · A1 + A2` on that row. -/
theorem pay3_3_rows (A0 : Cert.Spec.Mat 100000 64) (A1 : Cert.Spec.Mat 64 64) (A2 : S1x64.Idx → EReal)
    (x0 : Vec Ideal S10000x64 .f32) (x1 : Vec Ideal S64x64 .f32) (x2 : Vec Ideal S1x64 .f32)
    (p : Fin 10000) (q : Fin 64) (r : Fin 100000)
    (h0 : ∀ l : Fin 64, (x0 (ix2 p l) : EReal) = A0 (ix2 r l))
    (h1 : ∀ l : Fin 64, (x1 (ix2 l q) : EReal) = A1 (ix2 l q))
    (h2 : (x2 (ix2 0 q) : EReal) = A2 (ix2 0 q)) :
    (k3_pay3 (F := Ideal) x0 x1 x2 (ix2 p q) : EReal) = Cert.Spec.dense A0 A1 (fun j => A2 (ix2 0 (j 0))) (ix2 r q) := by
  rw [pay3_3_apply]
  show _ = (∑ l : Fin 64, A0 (ix2 r l) * A1 (ix2 l q)) + A2 (ix2 0 q)
  rw [h2]
  exact congrArg (· + A2 (ix2 0 q)) (Finset.sum_congr rfl fun l _ => by rw [h0 l, h1 l])

/-- The block index of every window of the region at every grid point: the row blocks move with the point, the
    weights and biases stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The first output of the region as one function of the arrays the region finds. -/
abbrev G3_5 (c : Dev nD) : S100000x64.Idx → EReal :=
  Cert.Spec.dense (V c (Pipeline.arrRef spec3 0)) (V c (Pipeline.arrRef spec3 1)) (fun j => V c (Pipeline.arrRef spec3 2) (ix2 0 (j 0)))

/-- What point `t` writes back to the first output is block `t` of that function. -/
theorem flushed3_5_eq (c : Dev nD) (t : Fin cfg3.N) :
    (dat3 V c).flushed 5 t = ((cfg3.win 5).blk t).view.read (Elt Ideal) (G3_5 V c) := by
  show (cfg3.win 5).cut (grid3.coords t) ((dat3 V c).after 5 t) = _
  rw [after3_5]
  unfold out3_5
  rw [View.canon_unit_zero hz]
  simp only [View.ld_unit_zero (S := S10000x64) hz, View.ld_unit_zero (S := S64x64) hz, View.ld_unit_zero (S := S1x64) hz]
  funext j
  have hj0 : (j 0).val < 10000 := (j 0).isLt
  have hj1 : (j 1).val < 64 := (j 1).isLt
  have ht : t.val < 10 := lt_of_lt_of_eq t.isLt N_3
  obtain ⟨e00, e01, e10, e11, e20, e21, e30, e31, e40, e41, e50, e51, e60, e61⟩ := idx_facts3 t
  have hx : (win3 5).xinj (grid3.coords t) j = ix2 (⟨(j 0).val, hj0⟩ : Fin 10000) (⟨(j 1).val, hj1⟩ : Fin 64) :=
    funext fun a => by match a with | ⟨0, _⟩ => rfl | ⟨1, _⟩ => rfl
  have he : ((cfg3.win 5).blk t).view.emb j = ix2 (⟨t.val * 10000 + (j 0).val, by omega⟩ : Fin 100000) (⟨(j 1).val, hj1⟩ : Fin 64) := by
    funext a; apply Fin.ext
    match a with
    | ⟨0, _⟩ => show win3_5.index t (0 : Fin 2) * 10000 + 1 * (j 0).val = t.val * 10000 + (j 0).val; omega
    | ⟨1, _⟩ => show win3_5.index t (1 : Fin 2) * 64 + 1 * (j 1).val = (j 1).val; omega
  show k3_pay2 (F := Ideal) (iblk3 V c 0 t) (iblk3 V c 1 t) (iblk3 V c 2 t) ((win3 5).xinj (grid3.coords t) j) = G3_5 V c (((cfg3.win 5).blk t).view.emb j)
  rw [hx, he]
  refine pay3_2_rows (V c (Pipeline.arrRef spec3 0)) (V c (Pipeline.arrRef spec3 1)) (V c (Pipeline.arrRef spec3 2))
    (iblk3 V c 0 t) (iblk3 V c 1 t) (iblk3 V c 2 t) ⟨(j 0).val, hj0⟩ ⟨(j 1).val, hj1⟩ ⟨t.val * 10000 + (j 0).val, by omega⟩
    (fun l => ?_) (fun l => ?_) ?_
  · show V c (Pipeline.arrRef spec3 0) (((cfg3.win 0).blk t).view.emb (ix2 (⟨(j 0).val, hj0⟩ : Fin 10000) l))
      = V c (Pipeline.arrRef spec3 0) (ix2 (⟨t.val * 10000 + (j 0).val, by omega⟩ : Fin 100000) l)
    refine congrArg _ (funext fun a => Fin.ext ?_)
    match a with
    | ⟨0, _⟩ => show win3_0.index t (0 : Fin 2) * 10000 + 1 * (j 0).val = t.val * 10000 + (j 0).val; omega
    | ⟨1, _⟩ => show win3_0.index t (1 : Fin 2) * 64 + 1 * l.val = l.val; omega
  · show V c (Pipeline.arrRef spec3 1) (((cfg3.win 1).blk t).view.emb (ix2 l (⟨(j 1).val, hj1⟩ : Fin 64)))
      = V c (Pipeline.arrRef spec3 1) (ix2 l (⟨(j 1).val, hj1⟩ : Fin 64))
    refine congrArg _ (funext fun a => Fin.ext ?_)
    match a with
    | ⟨0, _⟩ => show win3_1.index t (0 : Fin 2) * 64 + 1 * l.val = l.val; omega
    | ⟨1, _⟩ => show win3_1.index t (1 : Fin 2) * 64 + 1 * (j 1).val = (j 1).val; omega
  · show V c (Pipeline.arrRef spec3 2) (((cfg3.win 2).blk t).view.emb (ix2 (0 : Fin 1) (⟨(j 1).val, hj1⟩ : Fin 64)))
      = V c (Pipeline.arrRef spec3 2) (ix2 (0 : Fin 1) (⟨(j 1).val, hj1⟩ : Fin 64))
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * (j 1).val = (j 1).val; omega

/-- An entry of the first output is in point `t`'s block iff each coordinate is in the block's range on its axis. -/
theorem mem_blk3_5 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v32_0).slice (win3_5.rect t)).set ↔ _
  rw [View.set_slice_whole, Rect.mem_set_unit]
  exact Iff.rfl

/-- Row `r` of the first output is written by the point `r / 10000`. -/
theorem covered3_5 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, Nat.lt_of_lt_of_eq (by omega : (i 0).val / 10000 < 10) N_3.symm⟩, rfl⟩
  obtain ⟨-, -, -, -, -, -, -, -, -, -, e50, e51, e60, e61⟩ := idx_facts3 t
  refine ⟨t, flush3_5 t, ?_⟩
  rw [mem_blk3_5]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- After the region its first output holds `x · W + b` of the arrays the region found (the first weight and bias). -/
theorem region3_node (c : Dev nD) :
    ((dat3 (F := Ideal) V c).arrAt 5 cfg3.N : S100000x64.Idx → EReal)
      = Cert.Spec.dense (V c (Pipeline.arrRef spec3 0)) (V c (Pipeline.arrRef spec3 1)) (fun j => V c (Pipeline.arrRef spec3 2) (ix2 0 (j 0))) :=
  (dat3 V c).arrAt_eq_of_cover 5 (G3_5 V c) (fun t _ => flushed3_5_eq V c t) covered3_5

/-- The second output of the region as one function of the arrays the region finds. -/
abbrev G3_6 (c : Dev nD) : S100000x64.Idx → EReal :=
  Cert.Spec.dense (V c (Pipeline.arrRef spec3 0)) (V c (Pipeline.arrRef spec3 3)) (fun j => V c (Pipeline.arrRef spec3 4) (ix2 0 (j 0)))

/-- What point `t` writes back to the second output is block `t` of that function. -/
theorem flushed3_6_eq (c : Dev nD) (t : Fin cfg3.N) :
    (dat3 V c).flushed 6 t = ((cfg3.win 6).blk t).view.read (Elt Ideal) (G3_6 V c) := by
  show (cfg3.win 6).cut (grid3.coords t) ((dat3 V c).after 6 t) = _
  rw [after3_6]
  unfold out3_6
  rw [View.canon_unit_zero hz]
  simp only [View.ld_unit_zero (S := S10000x64) hz, View.ld_unit_zero (S := S64x64) hz, View.ld_unit_zero (S := S1x64) hz]
  funext j
  have hj0 : (j 0).val < 10000 := (j 0).isLt
  have hj1 : (j 1).val < 64 := (j 1).isLt
  have ht : t.val < 10 := lt_of_lt_of_eq t.isLt N_3
  obtain ⟨e00, e01, e10, e11, e20, e21, e30, e31, e40, e41, e50, e51, e60, e61⟩ := idx_facts3 t
  have hx : (win3 6).xinj (grid3.coords t) j = ix2 (⟨(j 0).val, hj0⟩ : Fin 10000) (⟨(j 1).val, hj1⟩ : Fin 64) :=
    funext fun a => by match a with | ⟨0, _⟩ => rfl | ⟨1, _⟩ => rfl
  have he : ((cfg3.win 6).blk t).view.emb j = ix2 (⟨t.val * 10000 + (j 0).val, by omega⟩ : Fin 100000) (⟨(j 1).val, hj1⟩ : Fin 64) := by
    funext a; apply Fin.ext
    match a with
    | ⟨0, _⟩ => show win3_6.index t (0 : Fin 2) * 10000 + 1 * (j 0).val = t.val * 10000 + (j 0).val; omega
    | ⟨1, _⟩ => show win3_6.index t (1 : Fin 2) * 64 + 1 * (j 1).val = (j 1).val; omega
  show k3_pay3 (F := Ideal) (iblk3 V c 0 t) (iblk3 V c 3 t) (iblk3 V c 4 t) ((win3 6).xinj (grid3.coords t) j) = G3_6 V c (((cfg3.win 6).blk t).view.emb j)
  rw [hx, he]
  refine pay3_3_rows (V c (Pipeline.arrRef spec3 0)) (V c (Pipeline.arrRef spec3 3)) (V c (Pipeline.arrRef spec3 4))
    (iblk3 V c 0 t) (iblk3 V c 3 t) (iblk3 V c 4 t) ⟨(j 0).val, hj0⟩ ⟨(j 1).val, hj1⟩ ⟨t.val * 10000 + (j 0).val, by omega⟩
    (fun l => ?_) (fun l => ?_) ?_
  · show V c (Pipeline.arrRef spec3 0) (((cfg3.win 0).blk t).view.emb (ix2 (⟨(j 0).val, hj0⟩ : Fin 10000) l))
      = V c (Pipeline.arrRef spec3 0) (ix2 (⟨t.val * 10000 + (j 0).val, by omega⟩ : Fin 100000) l)
    refine congrArg _ (funext fun a => Fin.ext ?_)
    match a with
    | ⟨0, _⟩ => show win3_0.index t (0 : Fin 2) * 10000 + 1 * (j 0).val = t.val * 10000 + (j 0).val; omega
    | ⟨1, _⟩ => show win3_0.index t (1 : Fin 2) * 64 + 1 * l.val = l.val; omega
  · show V c (Pipeline.arrRef spec3 3) (((cfg3.win 3).blk t).view.emb (ix2 l (⟨(j 1).val, hj1⟩ : Fin 64)))
      = V c (Pipeline.arrRef spec3 3) (ix2 l (⟨(j 1).val, hj1⟩ : Fin 64))
    refine congrArg _ (funext fun a => Fin.ext ?_)
    match a with
    | ⟨0, _⟩ => show win3_3.index t (0 : Fin 2) * 64 + 1 * l.val = l.val; omega
    | ⟨1, _⟩ => show win3_3.index t (1 : Fin 2) * 64 + 1 * (j 1).val = (j 1).val; omega
  · show V c (Pipeline.arrRef spec3 4) (((cfg3.win 4).blk t).view.emb (ix2 (0 : Fin 1) (⟨(j 1).val, hj1⟩ : Fin 64)))
      = V c (Pipeline.arrRef spec3 4) (ix2 (0 : Fin 1) (⟨(j 1).val, hj1⟩ : Fin 64))
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * (j 1).val = (j 1).val; omega

/-- An entry of the second output is in point `t`'s block iff each coordinate is in the block's range on its axis. -/
theorem mem_blk3_6 (t : Fin cfg3.N) (i : S100000x64.Idx) :
    i ∈ ((cfg3.win 6).blk t).view.set ↔ ∀ a : Fin 2, win3_6.index t a * S10000x64.size a ≤ (i a).val ∧ (i a).val < win3_6.index t a * S10000x64.size a + S10000x64.size a := by
  show i ∈ ((View.whole main_v32_1).slice (win3_6.rect t)).set ↔ _
  rw [View.set_slice_whole, Rect.mem_set_unit]
  exact Iff.rfl

/-- Row `r` of the second output is written by the point `r / 10000`. -/
theorem covered3_6 (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ : ∃ t : Fin cfg3.N, t.val = (i 0).val / 10000 :=
    ⟨⟨(i 0).val / 10000, Nat.lt_of_lt_of_eq (by omega : (i 0).val / 10000 < 10) N_3.symm⟩, rfl⟩
  obtain ⟨-, -, -, -, -, -, -, -, -, -, e50, e51, e60, e61⟩ := idx_facts3 t
  refine ⟨t, flush3_6 t, ?_⟩
  rw [mem_blk3_6]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 64 ≤ (i 1).val ∧ (i 1).val < win3_6.index t (1 : Fin 2) * 64 + 64; omega

/-- After the region its second output holds `x · W + b` of the arrays the region found (the second weight and bias). -/
theorem region3_neigh (c : Dev nD) :
    ((dat3 (F := Ideal) V c).arrAt 6 cfg3.N : S100000x64.Idx → EReal)
      = Cert.Spec.dense (V c (Pipeline.arrRef spec3 0)) (V c (Pipeline.arrRef spec3 3)) (fun j => V c (Pipeline.arrRef spec3 4) (ix2 0 (j 0))) :=
  (dat3 V c).arrAt_eq_of_cover 6 (G3_6 V c) (fun t _ => flushed3_6_eq V c t) covered3_6

/-! # The third product region: `[100000, 64] · [64, 32]`, ten blocks of 10000 rows -/

/-- One matrix product with a zero accumulator, read at an entry: the sum over the contracted coordinate. -/
theorem matmul6_apply (x : FVec Ideal S10000x64 .bf16) (w : FVec Ideal S64x32 .bf16) (p : Fin 10000) (q : Fin 32) :
    matmul dot_S10000x64_S64x32_S10000x32_1_0_0_1_n_n none x w (constant (F := Ideal) S10000x32 .f32 0x00000000#32) (ix2 p q)
      = ∑ l : Fin 64, x (ix2 p l) * w (ix2 l q) := by
  show FloatOps.matmul _ none x w _ (ix2 p q) = _
  rw [Ideal.matmul_constant_zero_apply,
    ← Equiv.sum_comp (contrEquiv1 dot_S10000x64_S64x32_S10000x32_1_0_0_1_n_n 64 rfl rfl).symm]
  refine Finset.sum_congr rfl fun l _ => ?_
  have c2 := contrEquiv1_symm_val dot_S10000x64_S64x32_S10000x32_1_0_0_1_n_n 64 rfl rfl l
  have hl := dot_S10000x64_S64x32_S10000x32_1_0_0_1_n_n.lhsIdx_val_of_single (cl := 1) rfl (ix2 p q)
    ((contrEquiv1 dot_S10000x64_S64x32_S10000x32_1_0_0_1_n_n 64 rfl rfl).symm l)
  have hr := dot_S10000x64_S64x32_S10000x32_1_0_0_1_n_n.rhsIdx_val_of_single (cr := 0) rfl (ix2 p q)
    ((contrEquiv1 dot_S10000x64_S64x32_S10000x32_1_0_0_1_n_n 64 rfl rfl).symm l)
  have l2 : dot_S10000x64_S64x32_S10000x32_1_0_0_1_n_n.lhsIdx (ix2 p q)
      ((contrEquiv1 dot_S10000x64_S64x32_S10000x32_1_0_0_1_n_n 64 rfl rfl).symm l) = ix2 p l := by
    funext ax; apply Fin.ext
    match ax with
    | ⟨0, _⟩ => simp [DotDims.lhsIdx, dot_S10000x64_S64x32_S10000x32_1_0_0_1_n_n]; rfl
    | ⟨1, _⟩ => exact hl.trans c2
  have r2 : dot_S10000x64_S64x32_S10000x32_1_0_0_1_n_n.rhsIdx (ix2 p q)
      ((contrEquiv1 dot_S10000x64_S64x32_S10000x32_1_0_0_1_n_n 64 rfl rfl).symm l) = ix2 l q := by
    funext ax; apply Fin.ext
    match ax with
    | ⟨0, _⟩ => exact hr.trans c2
    | ⟨1, _⟩ => simp [DotDims.rhsIdx, dot_S10000x64_S64x32_S10000x32_1_0_0_1_n_n]; rfl
  rw [l2, r2]

/-- The first stored value of the body at an entry: row `p` of the block times column `q` of the weight, plus the
    bias at `q` (the format changes are the identity on extended reals). -/
theorem pay6_2_apply (x0 : Vec Ideal S10000x64 .f32) (x1 : Vec Ideal S64x32 .f32) (x2 : Vec Ideal S1x32 .f32)
    (p : Fin 10000) (q : Fin 32) :
    (k6_pay2 (F := Ideal) x0 x1 x2 (ix2 p q) : EReal)
      = (∑ l : Fin 64, (x0 (ix2 p l) : EReal) * (x1 (ix2 l q) : EReal)) + (x2 (ix2 0 q) : EReal) := by
  unfold k6_pay2 k6_pay1
  dsimp only
  rw [addf_apply, matmul6_apply]
  simp only [shapeCast_self]
  rw [broadcastTo_apply x2 _ (ix2 p q) (ix2 0 q) (fun a => by match a with | ⟨0, _⟩ => rfl | ⟨1, _⟩ => rfl)]
  rfl

/-- A row of the body's first stored value, when the loaded block is rows of `A0` and the loaded weight and bias are
    `A1`, `A2`: the entry of `A0 · A1 + A2` on that row. -/
theorem pay6_2_rows (A0 : Cert.Spec.Mat 100000 64) (A1 : Cert.Spec.Mat 64 32) (A2 : S1x32.Idx → EReal)
    (x0 : Vec Ideal S10000x64 .f32) (x1 : Vec Ideal S64x32 .f32) (x2 : Vec Ideal S1x32 .f32)
    (p : Fin 10000) (q : Fin 32) (r : Fin 100000)
    (h0 : ∀ l : Fin 64, (x0 (ix2 p l) : EReal) = A0 (ix2 r l))
    (h1 : ∀ l : Fin 64, (x1 (ix2 l q) : EReal) = A1 (ix2 l q))
    (h2 : (x2 (ix2 0 q) : EReal) = A2 (ix2 0 q)) :
    (k6_pay2 (F := Ideal) x0 x1 x2 (ix2 p q) : EReal) = Cert.Spec.dense A0 A1 (fun j => A2 (ix2 0 (j 0))) (ix2 r q) := by
  rw [pay6_2_apply]
  show _ = (∑ l : Fin 64, A0 (ix2 r l) * A1 (ix2 l q)) + A2 (ix2 0 q)
  rw [h2]
  exact congrArg (· + A2 (ix2 0 q)) (Finset.sum_congr rfl fun l _ => by rw [h0 l, h1 l])

/-- The second stored value of the body at an entry: row `p` of the block times column `q` of the weight, plus the
    bias at `q` (the format changes are the identity on extended reals). -/
theorem pay6_3_apply (x0 : Vec Ideal S10000x64 .f32) (x1 : Vec Ideal S64x32 .f32) (x2 : Vec Ideal S1x32 .f32)
    (p : Fin 10000) (q : Fin 32) :
    (k6_pay3 (F := Ideal) x0 x1 x2 (ix2 p q) : EReal)
      = (∑ l : Fin 64, (x0 (ix2 p l) : EReal) * (x1 (ix2 l q) : EReal)) + (x2 (ix2 0 q) : EReal) := by
  unfold k6_pay3 k6_pay1
  dsimp only
  rw [addf_apply, matmul6_apply]
  simp only [shapeCast_self]
  rw [broadcastTo_apply x2 _ (ix2 p q) (ix2 0 q) (fun a => by match a with | ⟨0, _⟩ => rfl | ⟨1, _⟩ => rfl)]
  rfl

/-- A row of the body's second stored value, when the loaded block is rows of `A0` and the loaded weight and bias are
    `A1`, `A2`: the entry of `A0 · A1 + A2` on that row. -/
theorem pay6_3_rows (A0 : Cert.Spec.Mat 100000 64) (A1 : Cert.Spec.Mat 64 32) (A2 : S1x32.Idx → EReal)
    (x0 : Vec Ideal S10000x64 .f32) (x1 : Vec Ideal S64x32 .f32) (x2 : Vec Ideal S1x32 .f32)
    (p : Fin 10000) (q : Fin 32) (r : Fin 100000)
    (h0 : ∀ l : Fin 64, (x0 (ix2 p l) : EReal) = A0 (ix2 r l))
    (h1 : ∀ l : Fin 64, (x1 (ix2 l q) : EReal) = A1 (ix2 l q))
    (h2 : (x2 (ix2 0 q) : EReal) = A2 (ix2 0 q)) :
    (k6_pay3 (F := Ideal) x0 x1 x2 (ix2 p q) : EReal) = Cert.Spec.dense A0 A1 (fun j => A2 (ix2 0 (j 0))) (ix2 r q) := by
  rw [pay6_3_apply]
  show _ = (∑ l : Fin 64, A0 (ix2 r l) * A1 (ix2 l q)) + A2 (ix2 0 q)
  rw [h2]
  exact congrArg (· + A2 (ix2 0 q)) (Finset.sum_congr rfl fun l _ => by rw [h0 l, h1 l])

/-- The block index of every window of the region at every grid point: the row blocks move with the point, the
    weights and biases stay. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- The first output of the region as one function of the arrays the region finds. -/
abbrev G6_5 (c : Dev nD) : S100000x32.Idx → EReal :=
  Cert.Spec.dense (V c (Pipeline.arrRef spec6 0)) (V c (Pipeline.arrRef spec6 1)) (fun j => V c (Pipeline.arrRef spec6 2) (ix2 0 (j 0)))

/-- What point `t` writes back to the first output is block `t` of that function. -/
theorem flushed6_5_eq (c : Dev nD) (t : Fin cfg6.N) :
    (dat6 V c).flushed 5 t = ((cfg6.win 5).blk t).view.read (Elt Ideal) (G6_5 V c) := by
  show (cfg6.win 5).cut (grid6.coords t) ((dat6 V c).after 5 t) = _
  rw [after6_5]
  unfold out6_5
  rw [View.canon_unit_zero hz]
  simp only [View.ld_unit_zero (S := S10000x64) hz, View.ld_unit_zero (S := S64x32) hz, View.ld_unit_zero (S := S1x32) hz]
  funext j
  have hj0 : (j 0).val < 10000 := (j 0).isLt
  have hj1 : (j 1).val < 32 := (j 1).isLt
  have ht : t.val < 10 := lt_of_lt_of_eq t.isLt N_6
  obtain ⟨e00, e01, e10, e11, e20, e21, e30, e31, e40, e41, e50, e51, e60, e61⟩ := idx_facts6 t
  have hx : (win6 5).xinj (grid6.coords t) j = ix2 (⟨(j 0).val, hj0⟩ : Fin 10000) (⟨(j 1).val, hj1⟩ : Fin 32) :=
    funext fun a => by match a with | ⟨0, _⟩ => rfl | ⟨1, _⟩ => rfl
  have he : ((cfg6.win 5).blk t).view.emb j = ix2 (⟨t.val * 10000 + (j 0).val, by omega⟩ : Fin 100000) (⟨(j 1).val, hj1⟩ : Fin 32) := by
    funext a; apply Fin.ext
    match a with
    | ⟨0, _⟩ => show win6_5.index t (0 : Fin 2) * 10000 + 1 * (j 0).val = t.val * 10000 + (j 0).val; omega
    | ⟨1, _⟩ => show win6_5.index t (1 : Fin 2) * 32 + 1 * (j 1).val = (j 1).val; omega
  show k6_pay2 (F := Ideal) (iblk6 V c 0 t) (iblk6 V c 1 t) (iblk6 V c 2 t) ((win6 5).xinj (grid6.coords t) j) = G6_5 V c (((cfg6.win 5).blk t).view.emb j)
  rw [hx, he]
  refine pay6_2_rows (V c (Pipeline.arrRef spec6 0)) (V c (Pipeline.arrRef spec6 1)) (V c (Pipeline.arrRef spec6 2))
    (iblk6 V c 0 t) (iblk6 V c 1 t) (iblk6 V c 2 t) ⟨(j 0).val, hj0⟩ ⟨(j 1).val, hj1⟩ ⟨t.val * 10000 + (j 0).val, by omega⟩
    (fun l => ?_) (fun l => ?_) ?_
  · show V c (Pipeline.arrRef spec6 0) (((cfg6.win 0).blk t).view.emb (ix2 (⟨(j 0).val, hj0⟩ : Fin 10000) l))
      = V c (Pipeline.arrRef spec6 0) (ix2 (⟨t.val * 10000 + (j 0).val, by omega⟩ : Fin 100000) l)
    refine congrArg _ (funext fun a => Fin.ext ?_)
    match a with
    | ⟨0, _⟩ => show win6_0.index t (0 : Fin 2) * 10000 + 1 * (j 0).val = t.val * 10000 + (j 0).val; omega
    | ⟨1, _⟩ => show win6_0.index t (1 : Fin 2) * 64 + 1 * l.val = l.val; omega
  · show V c (Pipeline.arrRef spec6 1) (((cfg6.win 1).blk t).view.emb (ix2 l (⟨(j 1).val, hj1⟩ : Fin 32)))
      = V c (Pipeline.arrRef spec6 1) (ix2 l (⟨(j 1).val, hj1⟩ : Fin 32))
    refine congrArg _ (funext fun a => Fin.ext ?_)
    match a with
    | ⟨0, _⟩ => show win6_1.index t (0 : Fin 2) * 64 + 1 * l.val = l.val; omega
    | ⟨1, _⟩ => show win6_1.index t (1 : Fin 2) * 32 + 1 * (j 1).val = (j 1).val; omega
  · show V c (Pipeline.arrRef spec6 2) (((cfg6.win 2).blk t).view.emb (ix2 (0 : Fin 1) (⟨(j 1).val, hj1⟩ : Fin 32)))
      = V c (Pipeline.arrRef spec6 2) (ix2 (0 : Fin 1) (⟨(j 1).val, hj1⟩ : Fin 32))
    refine congrArg _ (funext fun a => Fin.ext ?_)
    match a with
    | ⟨0, _⟩ => show win6_2.index t (0 : Fin 2) * 1 + 1 * 0 = 0; omega
    | ⟨1, _⟩ => show win6_2.index t (1 : Fin 2) * 32 + 1 * (j 1).val = (j 1).val; omega

/-- An entry of the first output is in point `t`'s block iff each coordinate is in the block's range on its axis. -/
theorem mem_blk6_5 (t : Fin cfg6.N) (i : S100000x32.Idx) :
    i ∈ ((cfg6.win 5).blk t).view.set ↔ ∀ a : Fin 2, win6_5.index t a * S10000x32.size a ≤ (i a).val ∧ (i a).val < win6_5.index t a * S10000x32.size a + S10000x32.size a := by
  show i ∈ ((View.whole main_v62_0).slice (win6_5.rect t)).set ↔ _
  rw [View.set_slice_whole, Rect.mem_set_unit]
  exact Iff.rfl

/-- Row `r` of the first output is written by the point `r / 10000`. -/
theorem covered6_5 (i : S100000x32.Idx) :
    ∃ t : Fin cfg6.N, (cfg6.win 5).flush t = true ∧ i ∈ ((cfg6.win 5).blk t).view.set := by
  have hi0 : (i 0).val < 100000 := (i 0).isLt
  have hi1 : (i 1).val < 32 := (i 1).isLt
  obtain ⟨t, ht⟩ : ∃ t : Fin cfg6.N, t.val = (i 0).val / 10000 :=
    ⟨⟨(i 0).val / 10000, Nat.lt_of_lt_of_eq (by omega : (i 0).val / 10000 < 10) N_6.symm⟩, rfl⟩
  obtain ⟨-, -, -, -, -, -, -, -, -, -, e50, e51, e60, e61⟩ := idx_facts6 t
  refine ⟨t, flush6_5 t, ?_⟩
  rw [mem_blk6_5]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 32 ≤ (i 1).val ∧ (i 1).val < win6_5.index t (1 : Fin 2) * 32 + 32; omega

/-- After the region its first output holds `x · W + b` of the arrays the region found (the first weight and bias). -/
theorem region6_node (c : Dev nD) :
    ((dat6 (F := Ideal) V c).arrAt 5 cfg6.N : S100000x32.Idx → EReal)
      = Cert.Spec.dense (V c (Pipeline.arrRef spec6 0)) (V c (Pipeline.arrRef spec6 1)) (fun j => V c (Pipeline.arrRef spec6 2) (ix2 0 (j 0))) :=
  (dat6 V c).arrAt_eq_of_cover 5 (G6_5 V c) (fun t _ => flushed6_5_eq V c t) covered6_5

/-- The second output of the region as one function of the arrays the region finds. -/
abbrev G6_6 (c : Dev nD) : S100000x32.Idx → EReal :=
  Cert.Spec.dense (V c (Pipeline.arrRef spec6 0)) (V c (Pipeline.arrRef spec6 3)) (fun j => V c (Pipeline.arrRef spec6 4) (ix2 0 (j 0)))

/-- What point `t` writes back to the second output is block `t` of that function. -/
theorem flushed6_6_eq (c : Dev nD) (t : Fin cfg6.N) :
    (dat6 V c).flushed 6 t = ((cfg6.win 6).blk t).view.read (Elt Ideal) (G6_6 V c) := by
  show (cfg6.win 6).cut (grid6.coords t) ((dat6 V c).after 6 t) = _
  rw [after6_6]
  unfold out6_6
  rw [View.canon_unit_zero hz]
  simp only [View.ld_unit_zero (S := S10000x64) hz, View.ld_unit_zero (S := S64x32) hz, View.ld_unit_zero (S := S1x32) hz]
  funext j
  have hj0 : (j 0).val < 10000 := (j 0).isLt
  have hj1 : (j 1).val < 32 := (j 1).isLt
  have ht : t.val < 10 := lt_of_lt_of_eq t.isLt N_6
  obtain ⟨e00, e01, e10, e11, e20, e21, e30, e31, e40, e41, e50, e51, e60, e61⟩ := idx_facts6 t
  have hx : (win6 6).xinj (grid6.coords t) j = ix2 (⟨(j 0).val, hj0⟩ : Fin 10000) (⟨(j 1).val, hj1⟩ : Fin 32) :=
    funext fun a => by match a with | ⟨0, _⟩ => rfl | ⟨1, _⟩ => rfl
  have he : ((cfg6.win 6).blk t).view.emb j = ix2 (⟨t.val * 10000 + (j 0).val, by omega⟩ : Fin 100000) (⟨(j 1).val, hj1⟩ : Fin 32) := by
    funext a; apply Fin.ext
    match a with
    | ⟨0, _⟩ => show win6_6.index t (0 : Fin 2) * 10000 + 1 * (j 0).val = t.val * 10000 + (j 0).val; omega
    | ⟨1, _⟩ => show win6_6.index t (1 : Fin 2) * 32 + 1 * (j 1).val = (j 1).val; omega
  show k6_pay3 (F := Ideal) (iblk6 V c 0 t) (iblk6 V c 3 t) (iblk6 V c 4 t) ((win6 6).xinj (grid6.coords t) j) = G6_6 V c (((cfg6.win 6).blk t).view.emb j)
  rw [hx, he]
  refine pay6_3_rows (V c (Pipeline.arrRef spec6 0)) (V c (Pipeline.arrRef spec6 3)) (V c (Pipeline.arrRef spec6 4))
    (iblk6 V c 0 t) (iblk6 V c 3 t) (iblk6 V c 4 t) ⟨(j 0).val, hj0⟩ ⟨(j 1).val, hj1⟩ ⟨t.val * 10000 + (j 0).val, by omega⟩
    (fun l => ?_) (fun l => ?_) ?_
  · show V c (Pipeline.arrRef spec6 0) (((cfg6.win 0).blk t).view.emb (ix2 (⟨(j 0).val, hj0⟩ : Fin 10000) l))
      = V c (Pipeline.arrRef spec6 0) (ix2 (⟨t.val * 10000 + (j 0).val, by omega⟩ : Fin 100000) l)
    refine congrArg _ (funext fun a => Fin.ext ?_)
    match a with
    | ⟨0, _⟩ => show win6_0.index t (0 : Fin 2) * 10000 + 1 * (j 0).val = t.val * 10000 + (j 0).val; omega
    | ⟨1, _⟩ => show win6_0.index t (1 : Fin 2) * 64 + 1 * l.val = l.val; omega
  · show V c (Pipeline.arrRef spec6 3) (((cfg6.win 3).blk t).view.emb (ix2 l (⟨(j 1).val, hj1⟩ : Fin 32)))
      = V c (Pipeline.arrRef spec6 3) (ix2 l (⟨(j 1).val, hj1⟩ : Fin 32))
    refine congrArg _ (funext fun a => Fin.ext ?_)
    match a with
    | ⟨0, _⟩ => show win6_3.index t (0 : Fin 2) * 64 + 1 * l.val = l.val; omega
    | ⟨1, _⟩ => show win6_3.index t (1 : Fin 2) * 32 + 1 * (j 1).val = (j 1).val; omega
  · show V c (Pipeline.arrRef spec6 4) (((cfg6.win 4).blk t).view.emb (ix2 (0 : Fin 1) (⟨(j 1).val, hj1⟩ : Fin 32)))
      = V c (Pipeline.arrRef spec6 4) (ix2 (0 : Fin 1) (⟨(j 1).val, hj1⟩ : Fin 32))
    refine congrArg _ (funext fun a => Fin.ext ?_)
    match a with
    | ⟨0, _⟩ => show win6_4.index t (0 : Fin 2) * 1 + 1 * 0 = 0; omega
    | ⟨1, _⟩ => show win6_4.index t (1 : Fin 2) * 32 + 1 * (j 1).val = (j 1).val; omega

/-- An entry of the second output is in point `t`'s block iff each coordinate is in the block's range on its axis. -/
theorem mem_blk6_6 (t : Fin cfg6.N) (i : S100000x32.Idx) :
    i ∈ ((cfg6.win 6).blk t).view.set ↔ ∀ a : Fin 2, win6_6.index t a * S10000x32.size a ≤ (i a).val ∧ (i a).val < win6_6.index t a * S10000x32.size a + S10000x32.size a := by
  show i ∈ ((View.whole main_v62_1).slice (win6_6.rect t)).set ↔ _
  rw [View.set_slice_whole, Rect.mem_set_unit]
  exact Iff.rfl

/-- Row `r` of the second output is written by the point `r / 10000`. -/
theorem covered6_6 (i : S100000x32.Idx) :
    ∃ t : Fin cfg6.N, (cfg6.win 6).flush t = true ∧ i ∈ ((cfg6.win 6).blk t).view.set := by
  have hi0 : (i 0).val < 100000 := (i 0).isLt
  have hi1 : (i 1).val < 32 := (i 1).isLt
  obtain ⟨t, ht⟩ : ∃ t : Fin cfg6.N, t.val = (i 0).val / 10000 :=
    ⟨⟨(i 0).val / 10000, Nat.lt_of_lt_of_eq (by omega : (i 0).val / 10000 < 10) N_6.symm⟩, rfl⟩
  obtain ⟨-, -, -, -, -, -, -, -, -, -, e50, e51, e60, e61⟩ := idx_facts6 t
  refine ⟨t, flush6_6 t, ?_⟩
  rw [mem_blk6_6]
  intro a
  match a with
  | ⟨0, _⟩ => show win6_6.index t (0 : Fin 2) * 10000 ≤ (i 0).val ∧ (i 0).val < win6_6.index t (0 : Fin 2) * 10000 + 10000; omega
  | ⟨1, _⟩ => show win6_6.index t (1 : Fin 2) * 32 ≤ (i 1).val ∧ (i 1).val < win6_6.index t (1 : Fin 2) * 32 + 32; omega

/-- After the region its second output holds `x · W + b` of the arrays the region found (the second weight and bias). -/
theorem region6_neigh (c : Dev nD) :
    ((dat6 (F := Ideal) V c).arrAt 6 cfg6.N : S100000x32.Idx → EReal)
      = Cert.Spec.dense (V c (Pipeline.arrRef spec6 0)) (V c (Pipeline.arrRef spec6 3)) (fun j => V c (Pipeline.arrRef spec6 4) (ix2 0 (j 0))) :=
  (dat6 V c).arrAt_eq_of_cover 6 (G6_6 V c) (fun t _ => flushed6_6_eq V c t) covered6_6

end Cert.KernelIdeal.KDense
end
-- ==== Proof.KElem.lean ====
/-
  The element-wise regions of the kernel program, each read as one function of the arrays it finds on entry.

  Every such region walks its row-blocked arrays in ten blocks of 10000 rows; the one-row operands are whole at every
  point.  What a point writes back is therefore the block of one whole-array function of the entry contents, and the ten
  blocks cover the array: the array after the region is that function.

  * the bias-add region leaves `node + agg + ab`, summed in that order, the bias row added along every row;
  * the two normalise-and-clamp regions leave `max ((s - mean) * rsqrt (var + eps) * g + b) 0`, the four row vectors
    read along every row.
-/
import proofs.«115488_j17910013624557_2_alg».proof.Proof.Gen.KernelIdeal.Frame
import proofs.«115488_j17910013624557_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx
open Idealize.ShloMosaic.Pipeline (Dat)

namespace Cert.KernelIdeal.KElem

open Cert.KernelIdeal

variable (V : (c : Dev nD) → (b : Ref sig .tc) → Buf (Elt Ideal) ((c : Thread nD τ).loc b))

/-- Offsets `(0, 0)` as the constant zero function. -/
theorem hz : (![0, 0] : Fin 2 → Nat) = fun _ => 0 := funext fun a => by fin_cases a <;> rfl

/-! ## The bias-add region: `node + agg + ab`, the bias row broadcast over the rows -/

/-- The body's arithmetic at row `p`, column `q` of a block: the two blocks' entries added, then the bias at `q`. -/
theorem pay7_apply (x0 x1 : Vec Ideal S10000x32 .f32) (x2 : Vec Ideal S1x32 .f32) (p : Fin 10000) (q : Fin 32) :
    Gen.k7_pay1 x0 x1 x2 (ix2 p q) = x0 (ix2 p q) + x1 (ix2 p q) + x2 (ix2 (0 : Fin 1) q) := by
  unfold Gen.k7_pay1
  simp only [shapeCast_self]
  rw [addf_apply, addf_apply, broadcastTo_1b_ab_apply]

/-- The block index of every window at point `t`: the row blocks move with `t`, the bias block stays. -/
theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-! Where an entry of a block sits in its array: row `10000 t + p` for the row blocks, the same place for the bias. -/

theorem emb7_0 (t : Fin cfg7.N) (p : Fin 10000) (q : Fin 32) (r : Fin 100000) (hr : r.val = t.val * 10000 + p.val) :
    ((cfg7.win 0).blk t).view.emb (ix2 p q) = (ix2 r q : S100000x32.Idx) := by
  have e := idx_facts7 t
  funext a; apply Fin.ext
  match a with
  | ⟨0, _⟩ => show win7_0.index t (0 : Fin 2) * 10000 + 1 * p.val = r.val; omega
  | ⟨1, _⟩ => show win7_0.index t (1 : Fin 2) * 32 + 1 * q.val = q.val; omega

theorem emb7_1 (t : Fin cfg7.N) (p : Fin 10000) (q : Fin 32) (r : Fin 100000) (hr : r.val = t.val * 10000 + p.val) :
    ((cfg7.win 1).blk t).view.emb (ix2 p q) = (ix2 r q : S100000x32.Idx) := by
  have e := idx_facts7 t
  funext a; apply Fin.ext
  match a with
  | ⟨0, _⟩ => show win7_1.index t (0 : Fin 2) * 10000 + 1 * p.val = r.val; omega
  | ⟨1, _⟩ => show win7_1.index t (1 : Fin 2) * 32 + 1 * q.val = q.val; omega

theorem emb7_2 (t : Fin cfg7.N) (p : Fin 1) (q : Fin 32)  :
    ((cfg7.win 2).blk t).view.emb (ix2 p q) = (ix2 p q : S1x32.Idx) := by
  have e := idx_facts7 t
  funext a; apply Fin.ext
  match a with
  | ⟨0, _⟩ => show win7_2.index t (0 : Fin 2) * 1 + 1 * p.val = p.val; omega
  | ⟨1, _⟩ => show win7_2.index t (1 : Fin 2) * 32 + 1 * q.val = q.val; omega

theorem emb7_3 (t : Fin cfg7.N) (p : Fin 10000) (q : Fin 32) (r : Fin 100000) (hr : r.val = t.val * 10000 + p.val) :
    ((cfg7.win 3).blk t).view.emb (ix2 p q) = (ix2 r q : S100000x32.Idx) := by
  have e := idx_facts7 t
  funext a; apply Fin.ext
  match a with
  | ⟨0, _⟩ => show win7_3.index t (0 : Fin 2) * 10000 + 1 * p.val = r.val; omega
  | ⟨1, _⟩ => show win7_3.index t (1 : Fin 2) * 32 + 1 * q.val = q.val; omega

/-! An input block's entry is its array's entry there. -/

theorem iblk7_0_apply (c : Dev nD) (t : Fin cfg7.N) (p : Fin 10000) (q : Fin 32) (r : Fin 100000) (hr : r.val = t.val * 10000 + p.val) :
    Gen.iblk7 V c 0 t (ix2 p q) = V c (Pipeline.arrRef spec7 0) (ix2 r q : S100000x32.Idx) := by
  show V c (Pipeline.arrRef spec7 0) (((cfg7.win 0).blk t).view.emb (ix2 p q)) = _
  rw [emb7_0 t p q r hr]

theorem iblk7_1_apply (c : Dev nD) (t : Fin cfg7.N) (p : Fin 10000) (q : Fin 32) (r : Fin 100000) (hr : r.val = t.val * 10000 + p.val) :
    Gen.iblk7 V c 1 t (ix2 p q) = V c (Pipeline.arrRef spec7 1) (ix2 r q : S100000x32.Idx) := by
  show V c (Pipeline.arrRef spec7 1) (((cfg7.win 1).blk t).view.emb (ix2 p q)) = _
  rw [emb7_1 t p q r hr]

theorem iblk7_2_apply (c : Dev nD) (t : Fin cfg7.N) (p : Fin 1) (q : Fin 32)  :
    Gen.iblk7 V c 2 t (ix2 p q) = V c (Pipeline.arrRef spec7 2) (ix2 p q : S1x32.Idx) := by
  show V c (Pipeline.arrRef spec7 2) (((cfg7.win 2).blk t).view.emb (ix2 p q)) = _
  rw [emb7_2 t p q]

/-- The whole output array: the left-associated sum of the two input arrays and the bias row. -/
abbrev G7 (c : Dev nD) : S100000x32.Idx → EReal :=
  Cert.Spec.sumL (V c (Pipeline.arrRef spec7 0)) (V c (Pipeline.arrRef spec7 1)) (fun j => V c (Pipeline.arrRef spec7 2) (ix2 (0 : Fin 1) (j 0)))

/-- What point `t` writes back is block `t` of that array. -/
theorem flushed7_eq (c : Dev nD) (t : Fin cfg7.N) :
    (Gen.dat7 V c).flushed 3 t = ((cfg7.win 3).blk t).view.read (Elt Ideal) (G7 V c) := by
  show (cfg7.win 3).cut (grid7.coords t) ((Gen.dat7 V c).after 3 t) = _
  rw [Gen.after7_3]
  unfold Gen.out7_3
  rw [View.canon_unit_zero hz]
  simp only [View.ld_unit_zero (S := S10000x32) hz, View.ld_unit_zero (S := S1x32) hz]
  funext j
  obtain ⟨p, q, rfl⟩ : ∃ (p : Fin 10000) (q : Fin 32), j = ix2 p q := ⟨j 0, j 1, eq_ix2 j⟩
  have hN : cfg7.N = 10 := Gen.N_7
  have hr : t.val * 10000 + p.val < 100000 := by have := t.isLt; have := p.isLt; omega
  show Gen.k7_pay1 (Gen.iblk7 V c 0 t) (Gen.iblk7 V c 1 t) (Gen.iblk7 V c 2 t) (ix2 p q) = G7 V c (((cfg7.win 3).blk t).view.emb (ix2 p q))
  rw [emb7_3 t p q ⟨_, hr⟩ rfl]
  refine (pay7_apply _ _ _ p q).trans ?_
  rw [iblk7_0_apply V c t p q ⟨_, hr⟩ rfl, iblk7_1_apply V c t p q ⟨_, hr⟩ rfl, iblk7_2_apply V c t 0 q]
  rfl

/-- An index of the array is in point `t`'s block iff each coordinate is in the block's range on its axis. -/
theorem mem_blk7 (t : Fin cfg7.N) (i : S100000x32.Idx) :
    i ∈ ((cfg7.win 3).blk t).view.set ↔ ∀ a : Fin 2, win7_3.index t a * S10000x32.size a ≤ (i a).val ∧ (i a).val < win7_3.index t a * S10000x32.size a + S10000x32.size a := by
  show i ∈ ((View.whole main_v77).slice (win7_3.rect t)).set ↔ _
  rw [View.set_slice_whole, Rect.mem_set_unit]
  exact Iff.rfl

/-- Row `r` of the array lies in the block of point `r / 10000`: the ten blocks cover the array. -/
theorem cover7 (i : S100000x32.Idx) : ∃ t : Fin cfg7.N, (cfg7.win 3).flush t = true ∧ i ∈ ((cfg7.win 3).blk t).view.set := by
  have hi0 : (i 0).val < 100000 := (i 0).isLt
  have hi1 : (i 1).val < 32 := (i 1).isLt
  have hN : cfg7.N = 10 := Gen.N_7
  have ht : (i 0).val / 10000 < cfg7.N := by omega
  refine ⟨⟨(i 0).val / 10000, ht⟩, Gen.flush7_3 _, ?_⟩
  rw [mem_blk7]
  have e := idx_facts7 ⟨(i 0).val / 10000, ht⟩
  intro a
  match a with
  | ⟨0, _⟩ =>
    show win7_3.index ⟨(i 0).val / 10000, ht⟩ (0 : Fin 2) * 10000 ≤ (i 0).val ∧ (i 0).val < win7_3.index ⟨(i 0).val / 10000, ht⟩ (0 : Fin 2) * 10000 + 10000
    have e0 : win7_3.index ⟨(i 0).val / 10000, ht⟩ (0 : Fin 2) = (i 0).val / 10000 := by have := e; tauto
    rw [e0]; omega
  | ⟨1, _⟩ =>
    show win7_3.index ⟨(i 0).val / 10000, ht⟩ (1 : Fin 2) * 32 ≤ (i 1).val ∧ (i 1).val < win7_3.index ⟨(i 0).val / 10000, ht⟩ (1 : Fin 2) * 32 + 32
    have e1 : win7_3.index ⟨(i 0).val / 10000, ht⟩ (1 : Fin 2) = 0 := by have := e; tauto
    rw [e1]; omega

/-- THE ARRAY after the region: the left-associated sum `node + agg + ab` of the entry contents. -/
theorem region7_out (c : Dev nD) :
    (Gen.dat7 V c).arrAt 3 cfg7.N
      = Cert.Spec.sumL (V c (Pipeline.arrRef spec7 0)) (V c (Pipeline.arrRef spec7 1)) (fun j => V c (Pipeline.arrRef spec7 2) (ix2 (0 : Fin 1) (j 0))) :=
  (Gen.dat7 V c).arrAt_eq_of_cover 3 (G7 V c) (fun t _ => flushed7_eq V c t) cover7

/-! ## A normalise-and-clamp region (pipeline 2): `max ((s - mean) * rsqrt (var + eps) * g + b) 0` -/

/-- The body's arithmetic at row `p`, column `q` of a block, the four row vectors read at `q`. -/
theorem pay2_apply (v0 : Vec Ideal S1x64 .f32) (v5 : Vec Ideal S10000x64 .f32) (v7 v13 v17 : Vec Ideal S1x64 .f32) (p : Fin 10000) (q : Fin 64) :
    Gen.k2_pay1 v0 v5 v7 v13 v17 (ix2 p q)
      = max ((v5 (ix2 p q) - v7 (ix2 (0 : Fin 1) q)) * Ideal.rsqrt (v0 (ix2 (0 : Fin 1) q) + Ideal.ofBits .f32 0x3727C5AC#32)
          * v13 (ix2 (0 : Fin 1) q) + v17 (ix2 (0 : Fin 1) q)) 0 := by
  unfold Gen.k2_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  show max (_ * Ideal.rsqrt (v0 (ix2 (0 : Fin 1) q) + Ideal.ofBits .f32 0x3727C5AC#32) * _ + _) (Ideal.ofBits .f32 0x00000000#32) = _
  rw [Ideal.ofBits_zero_f32]

/-- The block index of every window at point `t`: the row blocks move with `t`, the row vectors stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-! Where an entry of a block sits in its array. -/

theorem emb2_0 (t : Fin cfg2.N) (p : Fin 10000) (q : Fin 64) (r : Fin 100000) (hr : r.val = t.val * 10000 + p.val) :
    ((cfg2.win 0).blk t).view.emb (ix2 p q) = (ix2 r q : S100000x64.Idx) := by
  have e := idx_facts2 t
  funext a; apply Fin.ext
  match a with
  | ⟨0, _⟩ => show win2_0.index t (0 : Fin 2) * 10000 + 1 * p.val = r.val; omega
  | ⟨1, _⟩ => show win2_0.index t (1 : Fin 2) * 64 + 1 * q.val = q.val; omega

theorem emb2_1 (t : Fin cfg2.N) (p : Fin 1) (q : Fin 64)  :
    ((cfg2.win 1).blk t).view.emb (ix2 p q) = (ix2 p q : S1x64.Idx) := by
  have e := idx_facts2 t
  funext a; apply Fin.ext
  match a with
  | ⟨0, _⟩ => show win2_1.index t (0 : Fin 2) * 1 + 1 * p.val = p.val; omega
  | ⟨1, _⟩ => show win2_1.index t (1 : Fin 2) * 64 + 1 * q.val = q.val; omega

theorem emb2_2 (t : Fin cfg2.N) (p : Fin 1) (q : Fin 64)  :
    ((cfg2.win 2).blk t).view.emb (ix2 p q) = (ix2 p q : S1x64.Idx) := by
  have e := idx_facts2 t
  funext a; apply Fin.ext
  match a with
  | ⟨0, _⟩ => show win2_2.index t (0 : Fin 2) * 1 + 1 * p.val = p.val; omega
  | ⟨1, _⟩ => show win2_2.index t (1 : Fin 2) * 64 + 1 * q.val = q.val; omega

theorem emb2_3 (t : Fin cfg2.N) (p : Fin 1) (q : Fin 64)  :
    ((cfg2.win 3).blk t).view.emb (ix2 p q) = (ix2 p q : S1x64.Idx) := by
  have e := idx_facts2 t
  funext a; apply Fin.ext
  match a with
  | ⟨0, _⟩ => show win2_3.index t (0 : Fin 2) * 1 + 1 * p.val = p.val; omega
  | ⟨1, _⟩ => show win2_3.index t (1 : Fin 2) * 64 + 1 * q.val = q.val; omega

theorem emb2_4 (t : Fin cfg2.N) (p : Fin 1) (q : Fin 64)  :
    ((cfg2.win 4).blk t).view.emb (ix2 p q) = (ix2 p q : S1x64.Idx) := by
  have e := idx_facts2 t
  funext a; apply Fin.ext
  match a with
  | ⟨0, _⟩ => show win2_4.index t (0 : Fin 2) * 1 + 1 * p.val = p.val; omega
  | ⟨1, _⟩ => show win2_4.index t (1 : Fin 2) * 64 + 1 * q.val = q.val; omega

theorem emb2_5 (t : Fin cfg2.N) (p : Fin 10000) (q : Fin 64) (r : Fin 100000) (hr : r.val = t.val * 10000 + p.val) :
    ((cfg2.win 5).blk t).view.emb (ix2 p q) = (ix2 r q : S100000x64.Idx) := by
  have e := idx_facts2 t
  funext a; apply Fin.ext
  match a with
  | ⟨0, _⟩ => show win2_5.index t (0 : Fin 2) * 10000 + 1 * p.val = r.val; omega
  | ⟨1, _⟩ => show win2_5.index t (1 : Fin 2) * 64 + 1 * q.val = q.val; omega

/-! An input block's entry is its array's entry there. -/

theorem iblk2_0_apply (c : Dev nD) (t : Fin cfg2.N) (p : Fin 10000) (q : Fin 64) (r : Fin 100000) (hr : r.val = t.val * 10000 + p.val) :
    Gen.iblk2 V c 0 t (ix2 p q) = V c (Pipeline.arrRef spec2 0) (ix2 r q : S100000x64.Idx) := by
  show V c (Pipeline.arrRef spec2 0) (((cfg2.win 0).blk t).view.emb (ix2 p q)) = _
  rw [emb2_0 t p q r hr]

theorem iblk2_1_apply (c : Dev nD) (t : Fin cfg2.N) (p : Fin 1) (q : Fin 64)  :
    Gen.iblk2 V c 1 t (ix2 p q) = V c (Pipeline.arrRef spec2 1) (ix2 p q : S1x64.Idx) := by
  show V c (Pipeline.arrRef spec2 1) (((cfg2.win 1).blk t).view.emb (ix2 p q)) = _
  rw [emb2_1 t p q]

theorem iblk2_2_apply (c : Dev nD) (t : Fin cfg2.N) (p : Fin 1) (q : Fin 64)  :
    Gen.iblk2 V c 2 t (ix2 p q) = V c (Pipeline.arrRef spec2 2) (ix2 p q : S1x64.Idx) := by
  show V c (Pipeline.arrRef spec2 2) (((cfg2.win 2).blk t).view.emb (ix2 p q)) = _
  rw [emb2_2 t p q]

theorem iblk2_3_apply (c : Dev nD) (t : Fin cfg2.N) (p : Fin 1) (q : Fin 64)  :
    Gen.iblk2 V c 3 t (ix2 p q) = V c (Pipeline.arrRef spec2 3) (ix2 p q : S1x64.Idx) := by
  show V c (Pipeline.arrRef spec2 3) (((cfg2.win 3).blk t).view.emb (ix2 p q)) = _
  rw [emb2_3 t p q]

theorem iblk2_4_apply (c : Dev nD) (t : Fin cfg2.N) (p : Fin 1) (q : Fin 64)  :
    Gen.iblk2 V c 4 t (ix2 p q) = V c (Pipeline.arrRef spec2 4) (ix2 p q : S1x64.Idx) := by
  show V c (Pipeline.arrRef spec2 4) (((cfg2.win 4).blk t).view.emb (ix2 p q)) = _
  rw [emb2_4 t p q]

/-- The whole output array: the entry array normalised by the mean and variance rows, scaled, shifted, clamped at zero. -/
abbrev G2 (c : Dev nD) : S100000x64.Idx → EReal :=
  Cert.Spec.normRelu (Ideal.ofBits .f32 0x3727C5AC#32)
    (fun j => V c (Pipeline.arrRef spec2 1) (ix2 (0 : Fin 1) (j 0))) (fun j => V c (Pipeline.arrRef spec2 2) (ix2 (0 : Fin 1) (j 0)))
    (fun j => V c (Pipeline.arrRef spec2 3) (ix2 (0 : Fin 1) (j 0))) (fun j => V c (Pipeline.arrRef spec2 4) (ix2 (0 : Fin 1) (j 0)))
    (V c (Pipeline.arrRef spec2 0))

/-- What point `t` writes back is block `t` of that array. -/
theorem flushed2_eq (c : Dev nD) (t : Fin cfg2.N) :
    (Gen.dat2 V c).flushed 5 t = ((cfg2.win 5).blk t).view.read (Elt Ideal) (G2 V c) := by
  show (cfg2.win 5).cut (grid2.coords t) ((Gen.dat2 V c).after 5 t) = _
  rw [Gen.after2_5]
  unfold Gen.out2_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  have hN : cfg2.N = 10 := Gen.N_2
  have hr : t.val * 10000 + p.val < 100000 := by have := t.isLt; have := p.isLt; omega
  show Gen.k2_pay1 (Gen.iblk2 V c 2 t) (Gen.iblk2 V c 0 t) (Gen.iblk2 V c 1 t) (Gen.iblk2 V c 3 t) (Gen.iblk2 V c 4 t) (ix2 p q)
    = G2 V c (((cfg2.win 5).blk t).view.emb (ix2 p q))
  rw [emb2_5 t p q ⟨_, hr⟩ rfl]
  refine (pay2_apply _ _ _ _ _ p q).trans ?_
  rw [iblk2_0_apply V c t p q ⟨_, hr⟩ rfl, iblk2_1_apply V c t 0 q, iblk2_2_apply V c t 0 q, iblk2_3_apply V c t 0 q, iblk2_4_apply V c t 0 q]
  rfl

/-- An index of the array is in point `t`'s block iff each coordinate is in the block's range on its axis. -/
theorem mem_blk2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v28).slice (win2_5.rect t)).set ↔ _
  rw [View.set_slice_whole, Rect.mem_set_unit]
  exact Iff.rfl

/-- Row `r` of the array lies in the block of point `r / 10000`: the ten blocks cover the array. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := Gen.N_2
  have ht : (i 0).val / 10000 < cfg2.N := by omega
  refine ⟨⟨(i 0).val / 10000, ht⟩, Gen.flush2_5 _, ?_⟩
  rw [mem_blk2]
  have e := idx_facts2 ⟨(i 0).val / 10000, ht⟩
  intro a
  match a with
  | ⟨0, _⟩ =>
    show win2_5.index ⟨(i 0).val / 10000, ht⟩ (0 : Fin 2) * 10000 ≤ (i 0).val ∧ (i 0).val < win2_5.index ⟨(i 0).val / 10000, ht⟩ (0 : Fin 2) * 10000 + 10000
    have e0 : win2_5.index ⟨(i 0).val / 10000, ht⟩ (0 : Fin 2) = (i 0).val / 10000 := by have := e; tauto
    rw [e0]; omega
  | ⟨1, _⟩ =>
    show win2_5.index ⟨(i 0).val / 10000, ht⟩ (1 : Fin 2) * 64 ≤ (i 1).val ∧ (i 1).val < win2_5.index ⟨(i 0).val / 10000, ht⟩ (1 : Fin 2) * 64 + 64
    have e1 : win2_5.index ⟨(i 0).val / 10000, ht⟩ (1 : Fin 2) = 0 := by have := e; tauto
    rw [e1]; omega

/-- THE ARRAY after the region: the entry array normalised, scaled, shifted and clamped at zero. -/
theorem region2_out (c : Dev nD) :
    (Gen.dat2 V c).arrAt 5 cfg2.N
      = Cert.Spec.normRelu (n := 100000) (h := 64) (Ideal.ofBits .f32 0x3727C5AC#32)
          (fun j => V c (Pipeline.arrRef spec2 1) (ix2 (0 : Fin 1) (j 0))) (fun j => V c (Pipeline.arrRef spec2 2) (ix2 (0 : Fin 1) (j 0)))
          (fun j => V c (Pipeline.arrRef spec2 3) (ix2 (0 : Fin 1) (j 0))) (fun j => V c (Pipeline.arrRef spec2 4) (ix2 (0 : Fin 1) (j 0)))
          (V c (Pipeline.arrRef spec2 0)) :=
  (Gen.dat2 V c).arrAt_eq_of_cover 5 (G2 V c) (fun t _ => flushed2_eq V c t) cover2

/-! ## A normalise-and-clamp region (pipeline 5): `max ((s - mean) * rsqrt (var + eps) * g + b) 0` -/

/-- The body's arithmetic at row `p`, column `q` of a block, the four row vectors read at `q`. -/
theorem pay5_apply (v0 : Vec Ideal S1x64 .f32) (v5 : Vec Ideal S10000x64 .f32) (v7 v13 v17 : Vec Ideal S1x64 .f32) (p : Fin 10000) (q : Fin 64) :
    Gen.k5_pay1 v0 v5 v7 v13 v17 (ix2 p q)
      = max ((v5 (ix2 p q) - v7 (ix2 (0 : Fin 1) q)) * Ideal.rsqrt (v0 (ix2 (0 : Fin 1) q) + Ideal.ofBits .f32 0x3727C5AC#32)
          * v13 (ix2 (0 : Fin 1) q) + v17 (ix2 (0 : Fin 1) q)) 0 := by
  unfold Gen.k5_pay1
  simp only [shapeCast_self]
  rw [maximumf_apply, addf_apply, mulf_apply, mulf_apply, subf_apply, broadcastTo_1b_ab_apply, broadcastTo_1b_ab_apply,
    broadcastTo_1b_ab_apply, broadcastTo_1b_ab_apply, broadcast_apply]
  show max (_ * Ideal.rsqrt (v0 (ix2 (0 : Fin 1) q) + Ideal.ofBits .f32 0x3727C5AC#32) * _ + _) (Ideal.ofBits .f32 0x00000000#32) = _
  rw [Ideal.ofBits_zero_f32]

/-- The block index of every window at point `t`: the row blocks move with `t`, the row vectors stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-! Where an entry of a block sits in its array. -/

theorem emb5_0 (t : Fin cfg5.N) (p : Fin 10000) (q : Fin 64) (r : Fin 100000) (hr : r.val = t.val * 10000 + p.val) :
    ((cfg5.win 0).blk t).view.emb (ix2 p q) = (ix2 r q : S100000x64.Idx) := by
  have e := idx_facts5 t
  funext a; apply Fin.ext
  match a with
  | ⟨0, _⟩ => show win5_0.index t (0 : Fin 2) * 10000 + 1 * p.val = r.val; omega
  | ⟨1, _⟩ => show win5_0.index t (1 : Fin 2) * 64 + 1 * q.val = q.val; omega

theorem emb5_1 (t : Fin cfg5.N) (p : Fin 1) (q : Fin 64)  :
    ((cfg5.win 1).blk t).view.emb (ix2 p q) = (ix2 p q : S1x64.Idx) := by
  have e := idx_facts5 t
  funext a; apply Fin.ext
  match a with
  | ⟨0, _⟩ => show win5_1.index t (0 : Fin 2) * 1 + 1 * p.val = p.val; omega
  | ⟨1, _⟩ => show win5_1.index t (1 : Fin 2) * 64 + 1 * q.val = q.val; omega

theorem emb5_2 (t : Fin cfg5.N) (p : Fin 1) (q : Fin 64)  :
    ((cfg5.win 2).blk t).view.emb (ix2 p q) = (ix2 p q : S1x64.Idx) := by
  have e := idx_facts5 t
  funext a; apply Fin.ext
  match a with
  | ⟨0, _⟩ => show win5_2.index t (0 : Fin 2) * 1 + 1 * p.val = p.val; omega
  | ⟨1, _⟩ => show win5_2.index t (1 : Fin 2) * 64 + 1 * q.val = q.val; omega

theorem emb5_3 (t : Fin cfg5.N) (p : Fin 1) (q : Fin 64)  :
    ((cfg5.win 3).blk t).view.emb (ix2 p q) = (ix2 p q : S1x64.Idx) := by
  have e := idx_facts5 t
  funext a; apply Fin.ext
  match a with
  | ⟨0, _⟩ => show win5_3.index t (0 : Fin 2) * 1 + 1 * p.val = p.val; omega
  | ⟨1, _⟩ => show win5_3.index t (1 : Fin 2) * 64 + 1 * q.val = q.val; omega

theorem emb5_4 (t : Fin cfg5.N) (p : Fin 1) (q : Fin 64)  :
    ((cfg5.win 4).blk t).view.emb (ix2 p q) = (ix2 p q : S1x64.Idx) := by
  have e := idx_facts5 t
  funext a; apply Fin.ext
  match a with
  | ⟨0, _⟩ => show win5_4.index t (0 : Fin 2) * 1 + 1 * p.val = p.val; omega
  | ⟨1, _⟩ => show win5_4.index t (1 : Fin 2) * 64 + 1 * q.val = q.val; omega

theorem emb5_5 (t : Fin cfg5.N) (p : Fin 10000) (q : Fin 64) (r : Fin 100000) (hr : r.val = t.val * 10000 + p.val) :
    ((cfg5.win 5).blk t).view.emb (ix2 p q) = (ix2 r q : S100000x64.Idx) := by
  have e := idx_facts5 t
  funext a; apply Fin.ext
  match a with
  | ⟨0, _⟩ => show win5_5.index t (0 : Fin 2) * 10000 + 1 * p.val = r.val; omega
  | ⟨1, _⟩ => show win5_5.index t (1 : Fin 2) * 64 + 1 * q.val = q.val; omega

/-! An input block's entry is its array's entry there. -/

theorem iblk5_0_apply (c : Dev nD) (t : Fin cfg5.N) (p : Fin 10000) (q : Fin 64) (r : Fin 100000) (hr : r.val = t.val * 10000 + p.val) :
    Gen.iblk5 V c 0 t (ix2 p q) = V c (Pipeline.arrRef spec5 0) (ix2 r q : S100000x64.Idx) := by
  show V c (Pipeline.arrRef spec5 0) (((cfg5.win 0).blk t).view.emb (ix2 p q)) = _
  rw [emb5_0 t p q r hr]

theorem iblk5_1_apply (c : Dev nD) (t : Fin cfg5.N) (p : Fin 1) (q : Fin 64)  :
    Gen.iblk5 V c 1 t (ix2 p q) = V c (Pipeline.arrRef spec5 1) (ix2 p q : S1x64.Idx) := by
  show V c (Pipeline.arrRef spec5 1) (((cfg5.win 1).blk t).view.emb (ix2 p q)) = _
  rw [emb5_1 t p q]

theorem iblk5_2_apply (c : Dev nD) (t : Fin cfg5.N) (p : Fin 1) (q : Fin 64)  :
    Gen.iblk5 V c 2 t (ix2 p q) = V c (Pipeline.arrRef spec5 2) (ix2 p q : S1x64.Idx) := by
  show V c (Pipeline.arrRef spec5 2) (((cfg5.win 2).blk t).view.emb (ix2 p q)) = _
  rw [emb5_2 t p q]

theorem iblk5_3_apply (c : Dev nD) (t : Fin cfg5.N) (p : Fin 1) (q : Fin 64)  :
    Gen.iblk5 V c 3 t (ix2 p q) = V c (Pipeline.arrRef spec5 3) (ix2 p q : S1x64.Idx) := by
  show V c (Pipeline.arrRef spec5 3) (((cfg5.win 3).blk t).view.emb (ix2 p q)) = _
  rw [emb5_3 t p q]

theorem iblk5_4_apply (c : Dev nD) (t : Fin cfg5.N) (p : Fin 1) (q : Fin 64)  :
    Gen.iblk5 V c 4 t (ix2 p q) = V c (Pipeline.arrRef spec5 4) (ix2 p q : S1x64.Idx) := by
  show V c (Pipeline.arrRef spec5 4) (((cfg5.win 4).blk t).view.emb (ix2 p q)) = _
  rw [emb5_4 t p q]

/-- The whole output array: the entry array normalised by the mean and variance rows, scaled, shifted, clamped at zero. -/
abbrev G5 (c : Dev nD) : S100000x64.Idx → EReal :=
  Cert.Spec.normRelu (Ideal.ofBits .f32 0x3727C5AC#32)
    (fun j => V c (Pipeline.arrRef spec5 1) (ix2 (0 : Fin 1) (j 0))) (fun j => V c (Pipeline.arrRef spec5 2) (ix2 (0 : Fin 1) (j 0)))
    (fun j => V c (Pipeline.arrRef spec5 3) (ix2 (0 : Fin 1) (j 0))) (fun j => V c (Pipeline.arrRef spec5 4) (ix2 (0 : Fin 1) (j 0)))
    (V c (Pipeline.arrRef spec5 0))

/-- What point `t` writes back is block `t` of that array. -/
theorem flushed5_eq (c : Dev nD) (t : Fin cfg5.N) :
    (Gen.dat5 V c).flushed 5 t = ((cfg5.win 5).blk t).view.read (Elt Ideal) (G5 V c) := by
  show (cfg5.win 5).cut (grid5.coords t) ((Gen.dat5 V c).after 5 t) = _
  rw [Gen.after5_5]
  unfold Gen.out5_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  have hN : cfg5.N = 10 := Gen.N_5
  have hr : t.val * 10000 + p.val < 100000 := by have := t.isLt; have := p.isLt; omega
  show Gen.k5_pay1 (Gen.iblk5 V c 2 t) (Gen.iblk5 V c 0 t) (Gen.iblk5 V c 1 t) (Gen.iblk5 V c 3 t) (Gen.iblk5 V c 4 t) (ix2 p q)
    = G5 V c (((cfg5.win 5).blk t).view.emb (ix2 p q))
  rw [emb5_5 t p q ⟨_, hr⟩ rfl]
  refine (pay5_apply _ _ _ _ _ p q).trans ?_
  rw [iblk5_0_apply V c t p q ⟨_, hr⟩ rfl, iblk5_1_apply V c t 0 q, iblk5_2_apply V c t 0 q, iblk5_3_apply V c t 0 q, iblk5_4_apply V c t 0 q]
  rfl

/-- An index of the array is in point `t`'s block iff each coordinate is in the block's range on its axis. -/
theorem mem_blk5 (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v58).slice (win5_5.rect t)).set ↔ _
  rw [View.set_slice_whole, Rect.mem_set_unit]
  exact Iff.rfl

/-- Row `r` of the array lies in the block of point `r / 10000`: the ten blocks cover the array. -/
theorem cover5 (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  have hN : cfg5.N = 10 := Gen.N_5
  have ht : (i 0).val / 10000 < cfg5.N := by omega
  refine ⟨⟨(i 0).val / 10000, ht⟩, Gen.flush5_5 _, ?_⟩
  rw [mem_blk5]
  have e := idx_facts5 ⟨(i 0).val / 10000, ht⟩
  intro a
  match a with
  | ⟨0, _⟩ =>
    show win5_5.index ⟨(i 0).val / 10000, ht⟩ (0 : Fin 2) * 10000 ≤ (i 0).val ∧ (i 0).val < win5_5.index ⟨(i 0).val / 10000, ht⟩ (0 : Fin 2) * 10000 + 10000
    have e0 : win5_5.index ⟨(i 0).val / 10000, ht⟩ (0 : Fin 2) = (i 0).val / 10000 := by have := e; tauto
    rw [e0]; omega
  | ⟨1, _⟩ =>
    show win5_5.index ⟨(i 0).val / 10000, ht⟩ (1 : Fin 2) * 64 ≤ (i 1).val ∧ (i 1).val < win5_5.index ⟨(i 0).val / 10000, ht⟩ (1 : Fin 2) * 64 + 64
    have e1 : win5_5.index ⟨(i 0).val / 10000, ht⟩ (1 : Fin 2) = 0 := by have := e; tauto
    rw [e1]; omega

/-- THE ARRAY after the region: the entry array normalised, scaled, shifted and clamped at zero. -/
theorem region5_out (c : Dev nD) :
    (Gen.dat5 V c).arrAt 5 cfg5.N
      = Cert.Spec.normRelu (n := 100000) (h := 64) (Ideal.ofBits .f32 0x3727C5AC#32)
          (fun j => V c (Pipeline.arrRef spec5 1) (ix2 (0 : Fin 1) (j 0))) (fun j => V c (Pipeline.arrRef spec5 2) (ix2 (0 : Fin 1) (j 0)))
          (fun j => V c (Pipeline.arrRef spec5 3) (ix2 (0 : Fin 1) (j 0))) (fun j => V c (Pipeline.arrRef spec5 4) (ix2 (0 : Fin 1) (j 0)))
          (V c (Pipeline.arrRef spec5 0)) :=
  (Gen.dat5 V c).arrAt_eq_of_cover 5 (G5 V c) (fun t _ => flushed5_eq V c t) cover5

end Cert.KernelIdeal.KElem

end
-- ==== Proof.SpecMath.lean ====
/-
  The two arrangements of the network agree when every input entry is a real number.

  Three facts carry the proof.
  * Addition of extended reals is associative, so the two associations of the pre-normalisation sum agree.
  * Adding the zero row changes nothing, so a product with the zero bias is the bare product.
  * For a column of real numbers, the mean of the squares less the square of the mean equals the mean of the
    squared deviations, and is therefore non-negative; the clamp at zero is then the identity.
  The third needs every entry of the pre-normalisation sum to be real, which is why realness is carried through
  products, sums, the aggregation (by hypothesis) and the normalisation (where the variance is a non-negative
  real and the added constant is a positive real, so the reciprocal square root is a real).
-/
import proofs.«115488_j17910013624557_2_alg».proof.Proof.Spec

noncomputable section

namespace Cert.Spec

open Idealize.ShloMosaic Idealize.ShloMosaic.ValueIdx
open scoped BigOperators

variable {n k h : Nat}

/-! ### Real numbers inside the extended reals -/

/-- An extended real that is a real number. -/
def IsReal (a : EReal) : Prop := ∃ r : ℝ, a = (r : EReal)

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion of a maximum of reals is the maximum of the coercions. -/
theorem coe_max' (a b : ℝ) : max (a : EReal) (b : EReal) = ((max a b : ℝ) : EReal) :=
  (EReal.coe_strictMono.monotone.map_max).symm

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  obtain ⟨r, rfl⟩ := ha; obtain ⟨s, rfl⟩ := hb; exact ⟨_, coe_max' r s⟩

theorem IsReal.zero : IsReal 0 := ⟨0, rfl⟩

theorem IsReal.sum {ι : Type*} (s : Finset ι) {f : ι → EReal} (hf : ∀ i ∈ s, IsReal (f i)) :
    IsReal (∑ i ∈ s, f i) := by
  classical
  revert hf
  refine Finset.induction_on s (fun _ => by simpa using IsReal.zero) ?_
  intro a s ha ih hf
  rw [Finset.sum_insert ha]
  exact (hf a (Finset.mem_insert_self a s)).add (ih fun i hi => hf i (Finset.mem_insert_of_mem hi))

/-- Division by a nonzero real keeps a real a real. -/
theorem IsReal.div {a : EReal} (ha : IsReal a) {y : ℝ} (hy : y ≠ 0) : IsReal (Ideal.div a (y : EReal)) := by
  rw [Ideal.div_coe hy]; exact ha.mul ⟨_, rfl⟩

/-- The reciprocal square root of a positive real is a real. -/
theorem IsReal.rsqrt_pos {v : ℝ} (hv : 0 < v) : IsReal (Ideal.rsqrt (v : EReal)) := by
  rw [Ideal.rsqrt_coe, if_neg (not_lt.mpr hv.le), if_neg hv.ne']; exact ⟨_, rfl⟩

/-- A real-valued array is the coercion of an array of reals. -/
theorem AllReal.exists_eq {S : Shape} {f : S.Idx → EReal} (hf : AllReal f) :
    ∃ φ : S.Idx → ℝ, f = fun i => (φ i : EReal) := by
  choose φ hφ using hf; exact ⟨φ, funext hφ⟩

/-! ### The definitions at an index given by its coordinates -/

theorem colsum_ix1 (s : Mat n h) (c : Fin h) : colsum s (ix1 c) = ∑ r : Fin n, s (ix2 r c) := rfl

theorem mean_ix1 (N : EReal) (s : Mat n h) (c : Fin h) :
    mean N s (ix1 c) = Ideal.div (∑ r : Fin n, s (ix2 r c)) N := rfl

theorem varMoments_ix1 (N : EReal) (s : Mat n h) (c : Fin h) :
    varMoments N s (ix1 c)
      = max (Ideal.div (∑ r : Fin n, s (ix2 r c) * s (ix2 r c)) N - mean N s (ix1 c) * mean N s (ix1 c)) 0 := rfl

theorem varCentered_ix1 (N : EReal) (s : Mat n h) (c : Fin h) :
    varCentered N s (ix1 c)
      = Ideal.div (∑ r : Fin n, (s (ix2 r c) - mean N s (ix1 c)) * (s (ix2 r c) - mean N s (ix1 c))) N := rfl

/-! ### The two laws that need no finiteness -/

/-- Addition is associative: the two associations of the three summands agree. -/
theorem sumL_eq_sumR (node agg : Mat n h) (ab : Row h) : sumL node agg ab = sumR node agg ab := by
  funext i; exact add_assoc _ _ _

/-- Adding the zero row is adding nothing. -/
theorem dense_zrow (x : Mat n k) (W : Mat k h) : dense x W zrow = mm x W := by
  funext i; exact add_zero _

/-! ### Realness is carried through every step -/

theorem allReal_mm {x : Mat n k} {W : Mat k h} (hx : AllReal x) (hW : AllReal W) : AllReal (mm x W) :=
  fun _ => IsReal.sum _ fun _ _ => IsReal.mul (hx _) (hW _)

theorem allReal_dense {x : Mat n k} {W : Mat k h} {b : Row h} (hx : AllReal x) (hW : AllReal W) (hb : AllReal b) :
    AllReal (dense x W b) :=
  fun i => IsReal.add (allReal_mm hx hW i) (hb _)

theorem allReal_sumR {node agg : Mat n h} {ab : Row h} (h1 : AllReal node) (h2 : AllReal agg) (h3 : AllReal ab) :
    AllReal (sumR node agg ab) :=
  fun i => IsReal.add (h1 i) (IsReal.add (h2 i) (h3 _))

theorem allReal_colsum {s : Mat n h} (hs : AllReal s) : AllReal (colsum s) :=
  fun _ => IsReal.sum _ fun _ _ => hs _

theorem allReal_mean {N : EReal} (hn : 0 < n) (hN : N = ((n : ℝ) : EReal)) {s : Mat n h} (hs : AllReal s) :
    AllReal (mean N s) := by
  intro j; subst hN
  exact IsReal.div (allReal_colsum hs j) (Nat.cast_ne_zero.mpr hn.ne')

/-! ### The variance identity -/

/-- Over the reals: the mean of the squares less the square of the mean is the mean of the squared deviations,
    hence non-negative, and clamping it at zero changes nothing. -/
theorem real_var (hn : 0 < n) (σ : Fin n → ℝ) :
    max ((∑ r, σ r * σ r) * (1 / (n : ℝ)) - (∑ r, σ r) * (1 / (n : ℝ)) * ((∑ r, σ r) * (1 / (n : ℝ)))) 0
      = (∑ r, (σ r - (∑ r, σ r) * (1 / (n : ℝ))) * (σ r - (∑ r, σ r) * (1 / (n : ℝ)))) * (1 / (n : ℝ)) := by
  have hn' : (n : ℝ) ≠ 0 := Nat.cast_ne_zero.mpr hn.ne'
  have hpos : (0 : ℝ) ≤ 1 / (n : ℝ) := by positivity
  generalize hμ : (∑ r, σ r) * (1 / (n : ℝ)) = μ
  have hS : ∑ r, σ r = n * μ := by rw [← hμ]; field_simp
  have hexp : ∑ r, (σ r - μ) * (σ r - μ) = (∑ r, σ r * σ r) - 2 * μ * (∑ r, σ r) + n * (μ * μ) := by
    have : ∀ r, (σ r - μ) * (σ r - μ) = σ r * σ r - 2 * μ * σ r + μ * μ := fun r => by ring
    simp only [this, Finset.sum_add_distrib, Finset.sum_sub_distrib, ← Finset.mul_sum, Finset.sum_const,
      Finset.card_univ, Fintype.card_fin, nsmul_eq_mul]
    ring
  have hid : (∑ r, σ r * σ r) * (1 / (n : ℝ)) - μ * μ = (∑ r, (σ r - μ) * (σ r - μ)) * (1 / (n : ℝ)) := by
    rw [hexp, hS]; field_simp; ring
  rw [hid]
  exact max_eq_left (mul_nonneg (Finset.sum_nonneg fun _ _ => mul_self_nonneg _) hpos)

/-- The mean of a real column, as a real. -/
theorem mean_coe (hn : 0 < n) (σ : (⟨2, ![n, h]⟩ : Shape).Idx → ℝ) (c : Fin h) :
    mean ((n : ℝ) : EReal) (fun i => (σ i : EReal)) (ix1 c)
      = (((∑ r : Fin n, σ (ix2 r c)) * (1 / (n : ℝ)) : ℝ) : EReal) := by
  have hn' : (n : ℝ) ≠ 0 := Nat.cast_ne_zero.mpr hn.ne'
  rw [mean_ix1, Ideal.div_coe hn', EReal.coe_mul, coe_sum]

/-- The centred variance of a real column, as a real. -/
theorem varCentered_coe (hn : 0 < n) (σ : (⟨2, ![n, h]⟩ : Shape).Idx → ℝ) (c : Fin h) :
    varCentered ((n : ℝ) : EReal) (fun i => (σ i : EReal)) (ix1 c)
      = (((∑ r : Fin n, (σ (ix2 r c) - (∑ r : Fin n, σ (ix2 r c)) * (1 / (n : ℝ)))
            * (σ (ix2 r c) - (∑ r : Fin n, σ (ix2 r c)) * (1 / (n : ℝ)))) * (1 / (n : ℝ)) : ℝ) : EReal) := by
  have hn' : (n : ℝ) ≠ 0 := Nat.cast_ne_zero.mpr hn.ne'
  simp only [varCentered_ix1, mean_coe hn, Ideal.div_coe hn', EReal.coe_mul, EReal.coe_sub, coe_sum]

/-- The moment variance of a real column, as a real. -/
theorem varMoments_coe (hn : 0 < n) (σ : (⟨2, ![n, h]⟩ : Shape).Idx → ℝ) (c : Fin h) :
    varMoments ((n : ℝ) : EReal) (fun i => (σ i : EReal)) (ix1 c)
      = ((max ((∑ r : Fin n, σ (ix2 r c) * σ (ix2 r c)) * (1 / (n : ℝ))
            - (∑ r : Fin n, σ (ix2 r c)) * (1 / (n : ℝ)) * ((∑ r : Fin n, σ (ix2 r c)) * (1 / (n : ℝ)))) 0 : ℝ) : EReal) := by
  have hn' : (n : ℝ) ≠ 0 := Nat.cast_ne_zero.mpr hn.ne'
  simp only [varMoments_ix1, mean_coe hn, Ideal.div_coe hn', ← coe_max', EReal.coe_zero, EReal.coe_mul,
    EReal.coe_sub, coe_sum]

/-- THE KEY LEMMA: on a real-valued array whose row count is the divisor, the two variances agree. -/
theorem varMoments_eq_varCentered (hn : 0 < n) {N : EReal} (hN : N = ((n : ℝ) : EReal)) {s : Mat n h}
    (hs : AllReal s) : varMoments N s = varCentered N s := by
  obtain ⟨σ, rfl⟩ := hs.exists_eq
  subst hN
  funext j
  obtain ⟨c, rfl⟩ : ∃ c, j = ix1 c := ⟨j 0, eq_ix1 j⟩
  rw [varMoments_coe hn, varCentered_coe hn]
  exact congrArg _ (real_var hn fun r => σ (ix2 r c))

/-- The centred variance of a real-valued array is a non-negative real. -/
theorem varCentered_nonneg_real (hn : 0 < n) {N : EReal} (hN : N = ((n : ℝ) : EReal)) {s : Mat n h}
    (hs : AllReal s) (j : (⟨1, ![h]⟩ : Shape).Idx) : ∃ v : ℝ, 0 ≤ v ∧ varCentered N s j = (v : EReal) := by
  obtain ⟨σ, rfl⟩ := hs.exists_eq
  subst hN
  obtain ⟨c, rfl⟩ : ∃ c, j = ix1 c := ⟨j 0, eq_ix1 j⟩
  refine ⟨_, ?_, varCentered_coe hn σ c⟩
  exact mul_nonneg (Finset.sum_nonneg fun _ _ => mul_self_nonneg _) (by positivity)

/-- Normalising a real-valued array by real parameters, a non-negative real variance and a positive real
    constant gives a real-valued array. -/
theorem allReal_normRelu {eps : EReal} (heps : ∃ ε : ℝ, 0 < ε ∧ eps = (ε : EReal)) {mu var g b : Row h}
    {s : Mat n h} (hmu : AllReal mu) (hvar : ∀ j, ∃ v : ℝ, 0 ≤ v ∧ var j = (v : EReal)) (hg : AllReal g)
    (hb : AllReal b) (hs : AllReal s) : AllReal (normRelu eps mu var g b s) := by
  intro i
  obtain ⟨ε, hε, rfl⟩ := heps
  obtain ⟨v, hv, hvj⟩ := hvar (ix1 (i 1))
  have hr : IsReal (Ideal.rsqrt (var (ix1 (i 1)) + (ε : EReal))) := by
    rw [hvj, ← EReal.coe_add]; exact IsReal.rsqrt_pos (by linarith)
  exact IsReal.max (IsReal.add (IsReal.mul (IsReal.mul (IsReal.sub (hs i) (hmu _)) hr) (hg _)) (hb _)) IsReal.zero

/-! ### A layer in either arrangement -/

/-- The pre-normalisation sum of a layer with biases is real-valued when its inputs are. -/
theorem allReal_pre {SP : Mat n h → Mat n h} (hSP : ∀ f : Mat n h, AllReal f → AllReal (SP f))
    {x : Mat n k} {Wn : Mat k h} {bn : Row h} {Wg : Mat k h} {bg ab : Row h}
    (hx : AllReal x) (hWn : AllReal Wn) (hbn : AllReal bn) (hWg : AllReal Wg) (hbg : AllReal bg) (hab : AllReal ab) :
    AllReal (sumR (dense x Wn bn) (SP (dense x Wg bg)) ab) :=
  allReal_sumR (allReal_dense hx hWn hbn) (hSP _ (allReal_dense hx hWg hbg)) hab

/-- The zero row is real-valued. -/
theorem allReal_zrow : AllReal (zrow : Row h) := fun _ => IsReal.zero

/-- With a real-valued pre-normalisation sum, normalising by the moment variance or by the centred variance is
    the same. -/
theorem norm_moments_eq_centered (hn : 0 < n) {N : EReal} (hN : N = ((n : ℝ) : EReal)) (eps : EReal)
    (g b : Row h) {s : Mat n h} (hs : AllReal s) :
    normRelu eps (mean N s) (varMoments N s) g b s = normRelu eps (mean N s) (varCentered N s) g b s := by
  rw [varMoments_eq_varCentered hn hN hs]

/-- The normalised output is real-valued when the pre-normalisation sum and the scale and shift are. -/
theorem allReal_norm (hn : 0 < n) {N eps : EReal} (hN : N = ((n : ℝ) : EReal))
    (heps : ∃ ε : ℝ, 0 < ε ∧ eps = (ε : EReal)) {g b : Row h} {s : Mat n h} (hs : AllReal s)
    (hg : AllReal g) (hb : AllReal b) : AllReal (normRelu eps (mean N s) (varCentered N s) g b s) :=
  allReal_normRelu heps (allReal_mean hn hN hs) (varCentered_nonneg_real hn hN hs) hg hb hs

/-- A normalised layer with biases: the two arrangements agree on real inputs. -/
theorem layerK_eq_layerR (hn : 0 < n) {SP : Mat n h → Mat n h} (hSP : ∀ f : Mat n h, AllReal f → AllReal (SP f))
    {N : EReal} (hN : N = ((n : ℝ) : EReal)) (eps : EReal)
    {x : Mat n k} {Wn : Mat k h} {bn : Row h} {Wg : Mat k h} {bg ab : Row h} (g b : Row h)
    (hx : AllReal x) (hWn : AllReal Wn) (hbn : AllReal bn) (hWg : AllReal Wg) (hbg : AllReal bg) (hab : AllReal ab) :
    layerK SP N eps x Wn bn Wg bg ab g b = layerR SP N eps x Wn bn Wg bg ab g b := by
  show normRelu eps (mean N (sumL (dense x Wn bn) (SP (dense x Wg bg)) ab))
      (varMoments N (sumL (dense x Wn bn) (SP (dense x Wg bg)) ab)) g b (sumL (dense x Wn bn) (SP (dense x Wg bg)) ab)
    = normRelu eps (mean N (sumR (dense x Wn bn) (SP (dense x Wg bg)) ab))
      (varCentered N (sumR (dense x Wn bn) (SP (dense x Wg bg)) ab)) g b (sumR (dense x Wn bn) (SP (dense x Wg bg)) ab)
  rw [sumL_eq_sumR]
  exact norm_moments_eq_centered hn hN eps g b (allReal_pre hSP hx hWn hbn hWg hbg hab)

/-- A normalised layer with biases gives a real-valued array on real inputs. -/
theorem allReal_layerR (hn : 0 < n) {SP : Mat n h → Mat n h} (hSP : ∀ f : Mat n h, AllReal f → AllReal (SP f))
    {N eps : EReal} (hN : N = ((n : ℝ) : EReal)) (heps : ∃ ε : ℝ, 0 < ε ∧ eps = (ε : EReal))
    {x : Mat n k} {Wn : Mat k h} {bn : Row h} {Wg : Mat k h} {bg ab g b : Row h}
    (hx : AllReal x) (hWn : AllReal Wn) (hbn : AllReal bn) (hWg : AllReal Wg) (hbg : AllReal bg) (hab : AllReal ab)
    (hg : AllReal g) (hb : AllReal b) : AllReal (layerR SP N eps x Wn bn Wg bg ab g b) :=
  allReal_norm hn hN heps (allReal_pre hSP hx hWn hbn hWg hbg hab) hg hb

/-- A normalised layer whose two biases are the zero row in the first arrangement and absent in the second:
    the two arrangements agree on real inputs. -/
theorem layerK_zrow_eq_layerR0 (hn : 0 < n) {SP : Mat n h → Mat n h}
    (hSP : ∀ f : Mat n h, AllReal f → AllReal (SP f)) {N : EReal} (hN : N = ((n : ℝ) : EReal)) (eps : EReal)
    {x : Mat n k} {Wn Wg : Mat k h} {ab : Row h} (g b : Row h)
    (hx : AllReal x) (hWn : AllReal Wn) (hWg : AllReal Wg) (hab : AllReal ab) :
    layerK SP N eps x Wn zrow Wg zrow ab g b = layerR0 SP N eps x Wn Wg ab g b := by
  rw [layerK_eq_layerR hn hSP hN eps g b hx hWn allReal_zrow hWg allReal_zrow hab]
  show normRelu eps (mean N (sumR (dense x Wn zrow) (SP (dense x Wg zrow)) ab))
      (varCentered N (sumR (dense x Wn zrow) (SP (dense x Wg zrow)) ab)) g b
      (sumR (dense x Wn zrow) (SP (dense x Wg zrow)) ab)
    = normRelu eps (mean N (sumR (mm x Wn) (SP (mm x Wg)) ab))
      (varCentered N (sumR (mm x Wn) (SP (mm x Wg)) ab)) g b (sumR (mm x Wn) (SP (mm x Wg)) ab)
  rw [dense_zrow, dense_zrow]

/-- The last, un-normalised layer: the two arrangements agree with no hypothesis at all. -/
theorem last_eq {e : Nat} (SPL : Mat n e → Mat n e) (x : Mat n h) (WnL WgL : Mat h e) (abL : Row e) :
    sumL (dense x WnL zrow) (SPL (dense x WgL zrow)) abL = sumR (mm x WnL) (SPL (mm x WgL)) abL := by
  rw [sumL_eq_sumR, dense_zrow, dense_zrow]

/-! ### The whole network -/

/-- The two arrangements of the network agree when the first layer's inputs and the second layer's weights and
    post-aggregation bias are real-valued (the hypotheses the argument uses). -/
theorem outK_eq_outR_of {n d h e q : Nat} (hn : 0 < n)
    (SP : Mat n h → Mat n h) (SPL : Mat n e → Mat n e) (GA : Mat n e → Mat q e)
    (hSP : ∀ f : Mat n h, AllReal f → AllReal (SP f))
    (N eps : EReal) (hN : N = ((n : ℝ) : EReal)) (heps : ∃ ε : ℝ, 0 < ε ∧ eps = (ε : EReal))
    (x : Mat n d) (Wn0 : Mat d h) (bn0 : Row h) (Wg0 : Mat d h) (bg0 ab0 g0 b0 : Row h)
    (Wn1 Wg1 : Mat h h) (ab1 g1 b1 : Row h) (WnL WgL : Mat h e) (abL : Row e)
    (hx : AllReal x) (hWn0 : AllReal Wn0) (hbn0 : AllReal bn0) (hWg0 : AllReal Wg0) (hbg0 : AllReal bg0)
    (hab0 : AllReal ab0) (hg0 : AllReal g0) (hb0 : AllReal b0)
    (hWn1 : AllReal Wn1) (hWg1 : AllReal Wg1) (hab1 : AllReal ab1) :
    outK SP SPL GA N eps x Wn0 bn0 Wg0 bg0 ab0 g0 b0 Wn1 Wg1 ab1 g1 b1 WnL WgL abL
      = outR SP SPL GA N eps x Wn0 bn0 Wg0 bg0 ab0 g0 b0 Wn1 Wg1 ab1 g1 b1 WnL WgL abL := by
  have h1 : layerK SP N eps x Wn0 bn0 Wg0 bg0 ab0 g0 b0 = layerR SP N eps x Wn0 bn0 Wg0 bg0 ab0 g0 b0 :=
    layerK_eq_layerR hn hSP hN eps g0 b0 hx hWn0 hbn0 hWg0 hbg0 hab0
  have hx1 : AllReal (layerR SP N eps x Wn0 bn0 Wg0 bg0 ab0 g0 b0) :=
    allReal_layerR hn hSP hN heps hx hWn0 hbn0 hWg0 hbg0 hab0 hg0 hb0
  have h2 : layerK SP N eps (layerR SP N eps x Wn0 bn0 Wg0 bg0 ab0 g0 b0) Wn1 zrow Wg1 zrow ab1 g1 b1
      = layerR0 SP N eps (layerR SP N eps x Wn0 bn0 Wg0 bg0 ab0 g0 b0) Wn1 Wg1 ab1 g1 b1 :=
    layerK_zrow_eq_layerR0 hn hSP hN eps g1 b1 hx1 hWn1 hWg1 hab1
  show GA (sumL (dense (layerK SP N eps (layerK SP N eps x Wn0 bn0 Wg0 bg0 ab0 g0 b0) Wn1 zrow Wg1 zrow ab1 g1 b1)
          WnL zrow)
        (SPL (dense (layerK SP N eps (layerK SP N eps x Wn0 bn0 Wg0 bg0 ab0 g0 b0) Wn1 zrow Wg1 zrow ab1 g1 b1)
          WgL zrow)) abL)
    = GA (sumR (mm (layerR0 SP N eps (layerR SP N eps x Wn0 bn0 Wg0 bg0 ab0 g0 b0) Wn1 Wg1 ab1 g1 b1) WnL)
        (SPL (mm (layerR0 SP N eps (layerR SP N eps x Wn0 bn0 Wg0 bg0 ab0 g0 b0) Wn1 Wg1 ab1 g1 b1) WgL)) abL)
  rw [h1, h2, last_eq]

/-- The two arrangements of the network agree when every input array is real-valued. -/
theorem outK_eq_outR {n d h e q : Nat} (hn : 0 < n)
    (SP : Mat n h → Mat n h) (SPL : Mat n e → Mat n e) (GA : Mat n e → Mat q e)
    (hSP : ∀ f : Mat n h, AllReal f → AllReal (SP f))
    (N eps : EReal) (hN : N = ((n : ℝ) : EReal)) (heps : ∃ ε : ℝ, 0 < ε ∧ eps = (ε : EReal))
    (x : Mat n d) (Wn0 : Mat d h) (bn0 : Row h) (Wg0 : Mat d h) (bg0 ab0 g0 b0 : Row h)
    (Wn1 Wg1 : Mat h h) (ab1 g1 b1 : Row h) (WnL WgL : Mat h e) (abL : Row e)
    (hx : AllReal x) (hWn0 : AllReal Wn0) (hbn0 : AllReal bn0) (hWg0 : AllReal Wg0) (hbg0 : AllReal bg0)
    (hab0 : AllReal ab0) (hg0 : AllReal g0) (hb0 : AllReal b0)
    (hWn1 : AllReal Wn1) (hWg1 : AllReal Wg1) (hab1 : AllReal ab1) (_hg1 : AllReal g1) (_hb1 : AllReal b1)
    (_hWnL : AllReal WnL) (_hWgL : AllReal WgL) (_habL : AllReal abL) :
    outK SP SPL GA N eps x Wn0 bn0 Wg0 bg0 ab0 g0 b0 Wn1 Wg1 ab1 g1 b1 WnL WgL abL
      = outR SP SPL GA N eps x Wn0 bn0 Wg0 bg0 ab0 g0 b0 Wn1 Wg1 ab1 g1 b1 WnL WgL abL :=
  outK_eq_outR_of hn SP SPL GA hSP N eps hN heps x Wn0 bn0 Wg0 bg0 ab0 g0 b0 Wn1 Wg1 ab1 g1 b1 WnL WgL abL
    hx hWn0 hbn0 hWg0 hbg0 hab0 hg0 hb0 hWn1 hWg1 hab1

/-! ### A sum over all rows, block by block -/

/-- A sum over `a · b` consecutive indices is the sum over `a` blocks of the sums over each block's `b` indices. -/
theorem sum_blocks_mul {M : Type*} [AddCommMonoid M] (a b : Nat) (f : Fin (a * b) → M) :
    ∑ i : Fin (a * b), f i
      = ∑ t : Fin a, ∑ r : Fin b, f ⟨t.val * b + r.val, by
          calc t.val * b + r.val < t.val * b + b := Nat.add_lt_add_left r.isLt _
            _ = (t.val + 1) * b := by ring
            _ ≤ a * b := Nat.mul_le_mul_right b t.isLt⟩ := by
  rw [← Equiv.sum_comp (finProdFinEquiv (m := a) (n := b)) f, Fintype.sum_prod_type]
  refine Finset.sum_congr rfl fun t _ => Finset.sum_congr rfl fun r _ => congrArg f (Fin.ext ?_)
  show r.val + b * t.val = t.val * b + r.val
  ring

/-- The sum over the 100000 rows is the sum over 10 blocks of 10000 rows. -/
theorem sum_blocks (f : Fin 100000 → EReal) :
    ∑ i : Fin 100000, f i = ∑ t : Fin 10, ∑ r : Fin 10000, f ⟨t.val * 10000 + r.val, by omega⟩ :=
  sum_blocks_mul 10 10000 f

end Cert.Spec

end
-- ==== Proof.KReduce.lean ====
/-
  The two reduction regions of the kernel program, each read as functions of the arrays it finds.

  A reduction region walks ten blocks of 10000 rows.  At block `t` its body loads rows `10000 t … 10000 t + 9999` of the
  two feature matrices `node` and `agg` and the whole of a bias row `ab`, stores `s_block = (node_block + agg_block) + ab`
  into the matching block of its first output, and keeps two running rows: at the first block they are reset to zero,
  and at every block the column sums of `s_block` and of `s_block²` are added onto them.  The running rows are written
  back once, after the last block.  By induction on the block, after block `n` the running rows hold the column sums over
  the first `n + 1` blocks; the ten blocks tile the 100000 rows; so after the region the three outputs are `s`, the column
  sums of `s` and the column sums of `s²`, entry by entry.
-/
import proofs.«115488_j17910013624557_2_alg».proof.Proof.Gen.KernelIdeal.Frame
import proofs.«115488_j17910013624557_2_alg».proof.Proof.Spec
import proofs.«115488_j17910013624557_2_alg».proof.Proof.SpecMath
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.KReduce

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The zero offsets of a whole-buffer access. -/
theorem hz : (![0, 0] : Fin 2 → Nat) = fun _ => 0 := funext fun a => by fin_cases a <;> rfl

/-! ## Sums over the rows, block by block -/

/-- The sum of `f` over the rows of block `t` (zero past the last block). -/
def blockSum (f : Fin 100000 → EReal) (t : ℕ) : EReal :=
  if h : t < 10 then ∑ p : Fin 10000, f ⟨t * 10000 + p.val, by omega⟩ else 0

/-- The ten block sums add up to the sum over all rows. -/
theorem sum_blockSum (f : Fin 100000 → EReal) : ∑ t ∈ Finset.range 10, blockSum f t = ∑ i : Fin 100000, f i := by
  rw [Cert.Spec.sum_blocks, ← Fin.sum_univ_eq_sum_range (fun t => blockSum f t) 10]
  exact Finset.sum_congr rfl fun t _ => dif_pos t.isLt

/-- One more block: a running sum of the first `n + 1` blocks plus the sum over block `n + 1`. -/
theorem blockSum_step (f : Fin 100000 → EReal) (n : ℕ) (hn : n + 1 < 10) (acc : EReal) (g : Fin 10000 → EReal)
    (hacc : acc = ∑ t ∈ Finset.range (n + 1), blockSum f t)
    (hg : ∀ p : Fin 10000, g p = f ⟨(n + 1) * 10000 + p.val, by omega⟩) :
    acc + ∑ p : Fin 10000, g p = ∑ t ∈ Finset.range (n + 1 + 1), blockSum f t := by
  rw [Finset.sum_range_succ _ (n + 1), hacc]
  refine congrArg (_ + ·) ?_
  unfold blockSum
  rw [dif_pos hn]
  exact Finset.sum_congr rfl fun p _ => hg p

/-- The first block alone. -/
theorem blockSum_first (f : Fin 100000 → EReal) (g : Fin 10000 → EReal)
    (hg : ∀ p : Fin 10000, g p = f ⟨0 * 10000 + p.val, by omega⟩) :
    (0 : EReal) + ∑ p : Fin 10000, g p = ∑ t ∈ Finset.range (0 + 1), blockSum f t := by
  rw [zero_add, Finset.sum_range_one]
  unfold blockSum
  rw [dif_pos (by omega : 0 < 10)]
  exact Finset.sum_congr rfl fun p _ => hg p

/-! # Reduction region one -/

section Pieces1
variable {F : FTy → Type} [FloatOps F]

/-- At the first point the body leaves in the block of `s` its one stored value. -/
theorem out1A3 (c : Dev nD) (i : grid1.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond1_0 i) (x0 x1 : Vec F S10000x64 .f32) (x2 : Vec F S1x64 .f32) :
    out1_A_3 c i a1 h1 a2 h2 a3 h3 a4 h4 a5 h5 a6 h6 hc x0 x1 x2 = k1_pay3 x0 x1 x2 := by
  unfold out1_A_3
  rw [View.read_writes_eq_canon _ _ _ (cover1_A_3 c i a1 h1 a2 h2 a3 h3 a4 h4 a5 h5 a6 h6 hc x0 x1 x2)]
  unfold kernelRun1_A
  dsimp only
  rw [View.canon_unit_zero hz]
  simp only [View.readAt_eq_ld, h1.read_unread, h2.read_unread, h3.read_unread, View.ld_unit_zero (S := S10000x64) hz, View.ld_unit_zero (S := S1x64) hz]

/-- At the first point the running column sum is reset to the zero row, read back, and the block's column sums added. -/
theorem out1A4 (c : Dev nD) (i : grid1.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond1_0 i) (x0 x1 : Vec F S10000x64 .f32) (x2 : Vec F S1x64 .f32) :
    out1_A_4 c i a1 h1 a2 h2 a3 h3 a4 h4 a5 h5 a6 h6 hc x0 x1 x2 = k1_pay4 x0 x1 x2 k1_pay1 := by
  unfold out1_A_4
  rw [View.read_writes_eq_canon _ _ _ (cover1_A_4 c i a1 h1 a2 h2 a3 h3 a4 h4 a5 h5 a6 h6 hc x0 x1 x2)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S10000x64) hz, View.ld_unit_zero (S := S1x64) hz]

/-- At the first point the running column sum of squares likewise. -/
theorem out1A5 (c : Dev nD) (i : grid1.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond1_0 i) (x0 x1 : Vec F S10000x64 .f32) (x2 : Vec F S1x64 .f32) :
    out1_A_5 c i a1 h1 a2 h2 a3 h3 a4 h4 a5 h5 a6 h6 hc x0 x1 x2 = k1_pay5 x0 x1 x2 k1_pay2 := by
  unfold out1_A_5
  rw [View.read_writes_eq_canon _ _ _ (cover1_A_5 c i a1 h1 a2 h2 a3 h3 a4 h4 a5 h5 a6 h6 hc x0 x1 x2)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S10000x64) hz, View.ld_unit_zero (S := S1x64) hz]

/-- At a later point the body leaves in the block of `s` its one stored value. -/
theorem out1B3 (c : Dev nD) (i : grid1.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond1_0 i) (x0 x1 : Vec F S10000x64 .f32) (x2 xo4 xo5 : Vec F S1x64 .f32) :
    out1_B_3 c i a1 h1 a2 h2 a3 h3 a4 h4 a5 h5 a6 h6 hc x0 x1 x2 xo4 xo5 = k1_pay3 x0 x1 x2 := by
  unfold out1_B_3
  rw [View.read_writes_eq_canon _ _ _ (cover1_B_3 c i a1 h1 a2 h2 a3 h3 a4 h4 a5 h5 a6 h6 hc x0 x1 x2 xo4 xo5)]
  unfold kernelRun1_B
  dsimp only
  rw [View.canon_unit_zero hz]
  simp only [View.readAt_eq_ld, h1.read_unread, h2.read_unread, h3.read_unread, h5.read_unread, h6.read_unread, View.ld_unit_zero (S := S10000x64) hz, View.ld_unit_zero (S := S1x64) hz]

/-- At a later point the block's column sums are added onto what the running column sum held. -/
theorem out1B4 (c : Dev nD) (i : grid1.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond1_0 i) (x0 x1 : Vec F S10000x64 .f32) (x2 xo4 xo5 : Vec F S1x64 .f32) :
    out1_B_4 c i a1 h1 a2 h2 a3 h3 a4 h4 a5 h5 a6 h6 hc x0 x1 x2 xo4 xo5 = k1_pay4 x0 x1 x2 xo4 := by
  unfold out1_B_4
  rw [View.read_writes_eq_canon _ _ _ (cover1_B_4 c i a1 h1 a2 h2 a3 h3 a4 h4 a5 h5 a6 h6 hc x0 x1 x2 xo4 xo5)]
  unfold kernelRun1_B
  dsimp only
  rw [View.canon_unit_zero hz]
  simp only [View.readAt_eq_ld, h1.read_unread, h2.read_unread, h3.read_unread, h5.read_unread, h6.read_unread, View.ld_unit_zero (S := S10000x64) hz, View.ld_unit_zero (S := S1x64) hz]

/-- At a later point the block's column sums of squares are added onto what the running sum of squares held. -/
theorem out1B5 (c : Dev nD) (i : grid1.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond1_0 i) (x0 x1 : Vec F S10000x64 .f32) (x2 xo4 xo5 : Vec F S1x64 .f32) :
    out1_B_5 c i a1 h1 a2 h2 a3 h3 a4 h4 a5 h5 a6 h6 hc x0 x1 x2 xo4 xo5 = k1_pay5 x0 x1 x2 xo5 := by
  unfold out1_B_5
  rw [View.read_writes_eq_canon _ _ _ (cover1_B_5 c i a1 h1 a2 h2 a3 h3 a4 h4 a5 h5 a6 h6 hc x0 x1 x2 xo4 xo5)]
  unfold kernelRun1_B
  dsimp only
  rw [View.canon_unit_zero hz]
  simp only [View.readAt_eq_ld, h1.read_unread, h2.read_unread, h3.read_unread, h5.read_unread, h6.read_unread, View.ld_unit_zero (S := S10000x64) hz, View.ld_unit_zero (S := S1x64) hz]

end Pieces1

/-! ## The body's values at an entry, over extended reals -/

/-- A sum over the rows of a `[10000, 64]` block, column `q`. -/
theorem colsum_block1 (src : FVec Ideal S10000x64 .f32) (h : S10000x64.Reduces [0] S64) (hφ : FKind.Formats .f32)
    (hacc : (0x00000000#32 : BitVec 32) = 0x00000000#32) (q : Fin 64) :
    multiReduction (F := Ideal) .add [0] S64 src 0x00000000#32 h hφ hacc (ix1 q) = ∑ p : Fin 10000, src (ix2 p q) := by
  refine (Ideal.multiReduction_add_single src 0x00000000#32 h hφ hacc (ix1 q)).trans ?_
  exact Finset.sum_congr rfl fun p _ => congrArg src (funext fun a => by match a with | ⟨0, _⟩ => rfl | ⟨1, _⟩ => rfl)

/-- The stored block of `s` at `(p, q)`: `node + agg` there, plus the bias row at `q`. -/
theorem pay1_3_apply (x0 x1 : Vec Ideal S10000x64 .f32) (x2 : Vec Ideal S1x64 .f32) (p : Fin 10000) (q : Fin 64) :
    (k1_pay3 (F := Ideal) x0 x1 x2 (ix2 p q) : EReal) = (x0 (ix2 p q) : EReal) + (x1 (ix2 p q) : EReal) + (x2 (ix2 0 q) : EReal) := by
  unfold k1_pay3
  try dsimp only
  simp only [shapeCast_self]
  rw [addf_apply, addf_apply]
  rw [broadcastTo_apply x2 _ (ix2 p q) (ix2 0 q) (fun a => by match a with | ⟨0, _⟩ => rfl | ⟨1, _⟩ => rfl)]

/-- The running column sum after a point, at column `q`: what it held plus the block's column sum. -/
theorem pay1_4_apply (x0 x1 : Vec Ideal S10000x64 .f32) (x2 acc : Vec Ideal S1x64 .f32) (q : Fin 64) :
    (k1_pay4 (F := Ideal) x0 x1 x2 acc (ix2 0 q) : EReal)
      = (acc (ix2 0 q) : EReal) + ∑ p : Fin 10000, (k1_pay3 (F := Ideal) x0 x1 x2 (ix2 p q) : EReal) := by
  unfold k1_pay4
  try dsimp only
  rw [addf_apply, shapeCast_self, shapeCast_a_1a_apply, colsum_block1]

/-- The running column sum of squares after a point, at column `q`. -/
theorem pay1_5_apply (x0 x1 : Vec Ideal S10000x64 .f32) (x2 acc : Vec Ideal S1x64 .f32) (q : Fin 64) :
    (k1_pay5 (F := Ideal) x0 x1 x2 acc (ix2 0 q) : EReal)
      = (acc (ix2 0 q) : EReal) + ∑ p : Fin 10000, (k1_pay3 (F := Ideal) x0 x1 x2 (ix2 p q) : EReal) * (k1_pay3 (F := Ideal) x0 x1 x2 (ix2 p q) : EReal) := by
  unfold k1_pay5
  try dsimp only
  rw [addf_apply, shapeCast_self, shapeCast_a_1a_apply, colsum_block1]
  rfl

/-- The row the running sums are reset to is zero. -/
theorem pay1_1_apply (j : S1x64.Idx) : (k1_pay1 (F := Ideal) j : EReal) = 0 := by
  show Ideal.ofBits .f32 0x00000000#32 = 0
  exact Ideal.ofBits_zero_f32

theorem pay1_2_apply (j : S1x64.Idx) : (k1_pay2 (F := Ideal) j : EReal) = 0 := by
  show Ideal.ofBits .f32 0x00000000#32 = 0
  exact Ideal.ofBits_zero_f32

/-- A stored entry of `s`, when the loaded blocks are rows of `A0`, `A1` and the loaded bias is `A2`. -/
theorem pay1_3_rows (A0 A1 : Cert.Spec.Mat 100000 64) (A2 : S1x64.Idx → EReal)
    (x0 x1 : Vec Ideal S10000x64 .f32) (x2 : Vec Ideal S1x64 .f32) (p : Fin 10000) (q : Fin 64) (r : Fin 100000)
    (h0 : (x0 (ix2 p q) : EReal) = A0 (ix2 r q)) (h1 : (x1 (ix2 p q) : EReal) = A1 (ix2 r q))
    (h2 : (x2 (ix2 0 q) : EReal) = A2 (ix2 0 q)) :
    (k1_pay3 (F := Ideal) x0 x1 x2 (ix2 p q) : EReal) = Cert.Spec.sumL A0 A1 (fun j => A2 (ix2 0 (j 0))) (ix2 r q) := by
  rw [pay1_3_apply, h0, h1, h2]
  rfl

section Region1
variable (V : (c : Dev nD) → (b : Ref sig .tc) → Buf (Elt Ideal) ((c : Thread nD τ).loc b))

/-- The block index of every window of the region at every grid point: the row blocks move with the point, the
    bias row and the two running sums stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The pre-normalisation sum `s` as one function of the arrays the region finds. -/
abbrev S1 (c : Dev nD) : S100000x64.Idx → EReal :=
  Cert.Spec.sumL (V c (Pipeline.arrRef spec1 0)) (V c (Pipeline.arrRef spec1 1)) (fun j => V c (Pipeline.arrRef spec1 2) (ix2 0 (j 0)))

/-- The stored block at point `t` is rows `10000 t …` of `s`. -/
theorem blk_s1 (c : Dev nD) (t : Fin cfg1.N) (p : Fin 10000) (q : Fin 64) (r : Fin 100000) (hr : r.val = t.val * 10000 + p.val) :
    (k1_pay3 (F := Ideal) (iblk1 V c 0 t) (iblk1 V c 1 t) (iblk1 V c 2 t) (ix2 p q) : EReal) = S1 V c (ix2 r q) := by
  obtain ⟨e00, e01, e10, e11, e20, e21, e30, e31, e40, e41, e50, e51⟩ := idx_facts1 t
  refine pay1_3_rows (V c (Pipeline.arrRef spec1 0)) (V c (Pipeline.arrRef spec1 1)) (V c (Pipeline.arrRef spec1 2))
    (iblk1 V c 0 t) (iblk1 V c 1 t) (iblk1 V c 2 t) p q r ?_ ?_ ?_
  · show V c (Pipeline.arrRef spec1 0) (((cfg1.win 0).blk t).view.emb (ix2 p q)) = V c (Pipeline.arrRef spec1 0) (ix2 r q)
    refine congrArg _ (funext fun a => Fin.ext ?_)
    match a with
    | ⟨0, _⟩ => show win1_0.index t (0 : Fin 2) * 10000 + 1 * p.val = r.val; omega
    | ⟨1, _⟩ => show win1_0.index t (1 : Fin 2) * 64 + 1 * q.val = q.val; omega
  · show V c (Pipeline.arrRef spec1 1) (((cfg1.win 1).blk t).view.emb (ix2 p q)) = V c (Pipeline.arrRef spec1 1) (ix2 r q)
    refine congrArg _ (funext fun a => Fin.ext ?_)
    match a with
    | ⟨0, _⟩ => show win1_1.index t (0 : Fin 2) * 10000 + 1 * p.val = r.val; omega
    | ⟨1, _⟩ => show win1_1.index t (1 : Fin 2) * 64 + 1 * q.val = q.val; omega
  · show V c (Pipeline.arrRef spec1 2) (((cfg1.win 2).blk t).view.emb (ix2 (0 : Fin 1) q)) = V c (Pipeline.arrRef spec1 2) (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega

/-- The three outputs' buffers after the first point, as the body's values of the point's blocks. -/
theorem outsAt1_first (c : Dev nD) (t : Fin cfg1.N) (h0 : t.val % 10 = 0) :
    outsAt1 V c t.val t.isLt
      = (k1_pay3 (F := Ideal) (iblk1 V c 0 t) (iblk1 V c 1 t) (iblk1 V c 2 t), k1_pay4 (F := Ideal) (iblk1 V c 0 t) (iblk1 V c 1 t) (iblk1 V c 2 t) (k1_pay1 (F := Ideal)), k1_pay5 (F := Ideal) (iblk1 V c 0 t) (iblk1 V c 1 t) (iblk1 V c 2 t) (k1_pay2 (F := Ideal))) := by
  rw [outsAt1_A V c t h0,
    out1A3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t),
    out1A4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t),
    out1A5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)]

/-- The three outputs' buffers after a later point, as the body's values of the point's blocks and of what the point
    before left in the two running sums. -/
theorem outsAt1_later (c : Dev nD) (t : Fin cfg1.N) (h0 : ¬t.val % 10 = 0) :
    outsAt1 V c t.val t.isLt
      = (k1_pay3 (F := Ideal) (iblk1 V c 0 t) (iblk1 V c 1 t) (iblk1 V c 2 t), k1_pay4 (F := Ideal) (iblk1 V c 0 t) (iblk1 V c 1 t) (iblk1 V c 2 t) (outsAt1 V c (t.val - 1) (Nat.lt_of_le_of_lt (Nat.sub_le _ _) t.isLt)).2.1, k1_pay5 (F := Ideal) (iblk1 V c 0 t) (iblk1 V c 1 t) (iblk1 V c 2 t) (outsAt1 V c (t.val - 1) (Nat.lt_of_le_of_lt (Nat.sub_le _ _) t.isLt)).2.2) := by
  rw [outsAt1_B V c t h0,
    out1B3 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
    out1B4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
    out1B5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2]

/-- What the three outputs' buffers hold after point `n`: the block of `s`, and the column sums of `s` and of its squares
    over the first `n + 1` blocks. By induction on the point. -/
theorem outsAt1_eq (c : Dev nD) : ∀ (n : ℕ) (h : n < cfg1.N),
    (outsAt1 V c n h).1 = k1_pay3 (F := Ideal) (iblk1 V c 0 ⟨n, h⟩) (iblk1 V c 1 ⟨n, h⟩) (iblk1 V c 2 ⟨n, h⟩)
    ∧ (∀ q : Fin 64, ((outsAt1 V c n h).2.1 (ix2 0 q) : EReal)
        = ∑ t ∈ Finset.range (n + 1), blockSum (fun i => S1 V c (ix2 i q)) t)
    ∧ (∀ q : Fin 64, ((outsAt1 V c n h).2.2 (ix2 0 q) : EReal)
        = ∑ t ∈ Finset.range (n + 1), blockSum (fun i => S1 V c (ix2 i q) * S1 V c (ix2 i q)) t)
  | 0, h => by
    rw [outsAt1_first V c ⟨0, h⟩ rfl]
    refine ⟨rfl, fun q => ?_, fun q => ?_⟩
    · show (k1_pay4 (F := Ideal) (iblk1 V c 0 ⟨0, h⟩) (iblk1 V c 1 ⟨0, h⟩) (iblk1 V c 2 ⟨0, h⟩) (k1_pay1 (F := Ideal)) (ix2 0 q) : EReal) = _
      rw [pay1_4_apply, pay1_1_apply]
      exact blockSum_first _ _ fun p => blk_s1 V c ⟨0, h⟩ p q ⟨0 * 10000 + p.val, by omega⟩ rfl
    · show (k1_pay5 (F := Ideal) (iblk1 V c 0 ⟨0, h⟩) (iblk1 V c 1 ⟨0, h⟩) (iblk1 V c 2 ⟨0, h⟩) (k1_pay2 (F := Ideal)) (ix2 0 q) : EReal) = _
      rw [pay1_5_apply, pay1_2_apply]
      exact blockSum_first _ _ fun p => by rw [blk_s1 V c ⟨0, h⟩ p q ⟨0 * 10000 + p.val, by omega⟩ rfl]
  | n + 1, h => by
    have hN : cfg1.N = 10 := N_1
    have hB : ¬(⟨n + 1, h⟩ : Fin cfg1.N).val % 10 = 0 := by dsimp only; omega
    obtain ⟨-, ih4, ih5⟩ := outsAt1_eq c n (Nat.lt_of_succ_lt h)
    rw [outsAt1_later V c ⟨n + 1, h⟩ hB]
    refine ⟨rfl, fun q => ?_, fun q => ?_⟩
    · show (k1_pay4 (F := Ideal) (iblk1 V c 0 ⟨n + 1, h⟩) (iblk1 V c 1 ⟨n + 1, h⟩) (iblk1 V c 2 ⟨n + 1, h⟩) (outsAt1 V c n (Nat.lt_of_succ_lt h)).2.1 (ix2 0 q) : EReal) = _
      rw [pay1_4_apply]
      exact blockSum_step _ n (by omega) _ _ (ih4 q) fun p => blk_s1 V c ⟨n + 1, h⟩ p q ⟨(n + 1) * 10000 + p.val, by omega⟩ rfl
    · show (k1_pay5 (F := Ideal) (iblk1 V c 0 ⟨n + 1, h⟩) (iblk1 V c 1 ⟨n + 1, h⟩) (iblk1 V c 2 ⟨n + 1, h⟩) (outsAt1 V c n (Nat.lt_of_succ_lt h)).2.2 (ix2 0 q) : EReal) = _
      rw [pay1_5_apply]
      exact blockSum_step _ n (by omega) _ _ (ih5 q) fun p => by rw [blk_s1 V c ⟨n + 1, h⟩ p q ⟨(n + 1) * 10000 + p.val, by omega⟩ rfl]

end Region1

section Final1
variable (V : (c : Dev nD) → (b : Ref sig .tc) → Buf (Elt Ideal) ((c : Thread nD τ).loc b))

/-- What point `t` writes back to the array of `s` is block `t` of `s`. -/
theorem flushed1_3_eq (c : Dev nD) (t : Fin cfg1.N) :
    (dat1 V c).flushed 3 t = ((cfg1.win 3).blk t).view.read (Elt Ideal) (S1 V c) := by
  show (cfg1.win 3).cut (grid1.coords t) ((dat1 V c).after 3 t) = _
  rw [after1_3, (outsAt1_eq V c t.val t.isLt).1]
  funext j
  have hj0 : (j 0).val < 10000 := (j 0).isLt
  have hj1 : (j 1).val < 64 := (j 1).isLt
  have ht : t.val < 10 := lt_of_lt_of_eq t.isLt N_1
  obtain ⟨e00, e01, e10, e11, e20, e21, e30, e31, e40, e41, e50, e51⟩ := idx_facts1 t
  have hx : (win1 3).xinj (grid1.coords t) j = ix2 (⟨(j 0).val, hj0⟩ : Fin 10000) (⟨(j 1).val, hj1⟩ : Fin 64) :=
    funext fun a => by match a with | ⟨0, _⟩ => rfl | ⟨1, _⟩ => rfl
  have he : ((cfg1.win 3).blk t).view.emb j = ix2 (⟨t.val * 10000 + (j 0).val, by omega⟩ : Fin 100000) (⟨(j 1).val, hj1⟩ : Fin 64) := by
    funext a; apply Fin.ext
    match a with
    | ⟨0, _⟩ => show win1_3.index t (0 : Fin 2) * 10000 + 1 * (j 0).val = t.val * 10000 + (j 0).val; omega
    | ⟨1, _⟩ => show win1_3.index t (1 : Fin 2) * 64 + 1 * (j 1).val = (j 1).val; omega
  show (k1_pay3 (F := Ideal) (iblk1 V c 0 t) (iblk1 V c 1 t) (iblk1 V c 2 t) ((win1 3).xinj (grid1.coords t) j) : EReal)
    = S1 V c (((cfg1.win 3).blk t).view.emb j)
  rw [hx, he]
  exact blk_s1 V c t ⟨(j 0).val, hj0⟩ ⟨(j 1).val, hj1⟩ ⟨t.val * 10000 + (j 0).val, by omega⟩ rfl

/-- An entry of the array of `s` is in point `t`'s block iff each coordinate is in the block's range on its axis. -/
theorem mem_blk1_3 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v17_0).slice (win1_3.rect t)).set ↔ _
  rw [View.set_slice_whole, Rect.mem_set_unit]
  exact Iff.rfl

/-- Row `r` of `s` is written by the point `r / 10000`. -/
theorem covered1_3 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 :=
    ⟨⟨(i 0).val / 10000, Nat.lt_of_lt_of_eq (by omega : (i 0).val / 10000 < 10) N_1.symm⟩, rfl⟩
  obtain ⟨-, -, -, -, -, -, e30, e31, -, -, -, -⟩ := idx_facts1 t
  refine ⟨t, flush1_3 t, ?_⟩
  rw [mem_blk1_3]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the region its first output holds `s = (node + agg) + ab` of the arrays the region found. -/
theorem region1_s (c : Dev nD) :
    ((dat1 (F := Ideal) V c).arrAt 3 cfg1.N : S100000x64.Idx → EReal)
      = Cert.Spec.sumL (V c (Pipeline.arrRef spec1 0)) (V c (Pipeline.arrRef spec1 1)) (fun j => V c (Pipeline.arrRef spec1 2) (ix2 0 (j 0))) :=
  (dat1 V c).arrAt_eq_of_cover 3 (S1 V c) (fun t _ => flushed1_3_eq V c t) covered1_3

/-- The column sums of `s`, as a `[1, 64]` array. -/
abbrev G1_4 (c : Dev nD) : S1x64.Idx → EReal := fun i => Cert.Spec.colsum (S1 V c) (ix1 (i 1))

/-- A block of a `[1, 64]` array read at an entry is the array at the entry's place in it. -/
theorem read_blk1_4 (G : S1x64.Idx → EReal) (t : Fin cfg1.N) (j : ((cfg1.win 4).xblock (grid1.coords t)).Idx) :
    ((cfg1.win 4).blk t).view.read (Elt Ideal) G j = G (((cfg1.win 4).blk t).view.emb j) := rfl

/-- The one write-back of the running sum, at the last point, writes the column sums of `s` over all rows. -/
theorem flushed1_4_eq (c : Dev nD) (t : Fin cfg1.N) (hf : (cfg1.win 4).flush t = true) :
    (dat1 V c).flushed 4 t = ((cfg1.win 4).blk t).view.read (Elt Ideal) (G1_4 V c) := by
  have ht : t.val < 10 := lt_of_lt_of_eq t.isLt N_1
  have h9 : t.val = 9 := by have := (flush1_4 t).mp hf; omega
  show (cfg1.win 4).cut (grid1.coords t) ((dat1 V c).after 4 t) = _
  rw [after1_4]
  funext j
  have hj0 : (j 0).val < 1 := (j 0).isLt
  have hj1 : (j 1).val < 64 := (j 1).isLt
  obtain ⟨e00, e01, e10, e11, e20, e21, e30, e31, e40, e41, e50, e51⟩ := idx_facts1 t
  have hx : (win1 4).xinj (grid1.coords t) j = ix2 (0 : Fin 1) (⟨(j 1).val, hj1⟩ : Fin 64) :=
    funext fun a => Fin.ext (by
      match a with
      | ⟨0, _⟩ => show (j 0).val = 0; omega
      | ⟨1, _⟩ => rfl)
  have he : ((cfg1.win 4).blk t).view.emb j = ix2 (0 : Fin 1) (⟨(j 1).val, hj1⟩ : Fin 64) := by
    funext a; apply Fin.ext
    match a with
    | ⟨0, _⟩ => show win1_4.index t (0 : Fin 2) * 1 + 1 * (j 0).val = 0; omega
    | ⟨1, _⟩ => show win1_4.index t (1 : Fin 2) * 64 + 1 * (j 1).val = (j 1).val; omega
  refine Eq.trans ?_ (read_blk1_4 (G1_4 V c) t j).symm
  show ((outsAt1 V c t.val t.isLt).2.1 ((win1 4).xinj (grid1.coords t) j) : EReal) = _
  rw [hx, he]
  refine ((outsAt1_eq V c t.val t.isLt).2.1 ⟨(j 1).val, hj1⟩).trans ?_
  rw [h9]
  show _ = Cert.Spec.colsum (S1 V c) (ix1 (⟨(j 1).val, hj1⟩ : Fin 64))
  rw [Cert.Spec.colsum_ix1]
  exact sum_blockSum (fun i => S1 V c (ix2 i (⟨(j 1).val, hj1⟩ : Fin 64)))

/-- An entry of the `[1, 64]` array is in point `t`'s block iff each coordinate is in the block's range on its axis. -/
theorem mem_blk1_4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole main_v17_1).slice (win1_4.rect t)).set ↔ _
  rw [View.set_slice_whole, Rect.mem_set_unit]
  exact Iff.rfl

/-- The last point's block is the whole `[1, 64]` array. -/
theorem covered1_4 (i : S1x64.Idx) :
    ∃ t : Fin cfg1.N, (cfg1.win 4).flush t = true ∧ i ∈ ((cfg1.win 4).blk t).view.set := by
  have hi0 : (i 0).val < 1 := (i 0).isLt
  have hi1 : (i 1).val < 64 := (i 1).isLt
  obtain ⟨t, ht⟩ : ∃ t : Fin cfg1.N, t.val = 9 :=
    ⟨⟨9, Nat.lt_of_lt_of_eq (by omega : 9 < 10) N_1.symm⟩, rfl⟩
  obtain ⟨-, -, -, -, -, -, -, -, e40, e41, e50, e51⟩ := idx_facts1 t
  refine ⟨t, (flush1_4 t).mpr (by omega), ?_⟩
  rw [mem_blk1_4]
  intro a
  match a with
  | ⟨0, _⟩ => show win1_4.index t (0 : Fin 2) * 1 ≤ (i 0).val ∧ (i 0).val < win1_4.index t (0 : Fin 2) * 1 + 1; omega
  | ⟨1, _⟩ => show win1_4.index t (1 : Fin 2) * 64 ≤ (i 1).val ∧ (i 1).val < win1_4.index t (1 : Fin 2) * 64 + 64; omega

/-- After the region its second output holds the column sums of `s` over all 100000 rows. -/
theorem region1_sum (c : Dev nD) :
    ((dat1 (F := Ideal) V c).arrAt 4 cfg1.N : S1x64.Idx → EReal)
      = fun i => Cert.Spec.colsum (Cert.Spec.sumL (V c (Pipeline.arrRef spec1 0)) (V c (Pipeline.arrRef spec1 1)) (fun j => V c (Pipeline.arrRef spec1 2) (ix2 0 (j 0)))) (ix1 (i 1)) :=
  (dat1 V c).arrAt_eq_of_cover 4 (G1_4 V c) (fun t hf => flushed1_4_eq V c t hf) covered1_4

/-- The column sums of the squares of `s`, as a `[1, 64]` array. -/
abbrev G1_5 (c : Dev nD) : S1x64.Idx → EReal := fun i => Cert.Spec.colsum (fun i => S1 V c i * S1 V c i) (ix1 (i 1))

/-- A block of a `[1, 64]` array read at an entry is the array at the entry's place in it. -/
theorem read_blk1_5 (G : S1x64.Idx → EReal) (t : Fin cfg1.N) (j : ((cfg1.win 5).xblock (grid1.coords t)).Idx) :
    ((cfg1.win 5).blk t).view.read (Elt Ideal) G j = G (((cfg1.win 5).blk t).view.emb j) := rfl

/-- The one write-back of the running sum, at the last point, writes the column sums of the squares of `s` over all rows. -/
theorem flushed1_5_eq (c : Dev nD) (t : Fin cfg1.N) (hf : (cfg1.win 5).flush t = true) :
    (dat1 V c).flushed 5 t = ((cfg1.win 5).blk t).view.read (Elt Ideal) (G1_5 V c) := by
  have ht : t.val < 10 := lt_of_lt_of_eq t.isLt N_1
  have h9 : t.val = 9 := by have := (flush1_5 t).mp hf; omega
  show (cfg1.win 5).cut (grid1.coords t) ((dat1 V c).after 5 t) = _
  rw [after1_5]
  funext j
  have hj0 : (j 0).val < 1 := (j 0).isLt
  have hj1 : (j 1).val < 64 := (j 1).isLt
  obtain ⟨e00, e01, e10, e11, e20, e21, e30, e31, e40, e41, e50, e51⟩ := idx_facts1 t
  have hx : (win1 5).xinj (grid1.coords t) j = ix2 (0 : Fin 1) (⟨(j 1).val, hj1⟩ : Fin 64) :=
    funext fun a => Fin.ext (by
      match a with
      | ⟨0, _⟩ => show (j 0).val = 0; omega
      | ⟨1, _⟩ => rfl)
  have he : ((cfg1.win 5).blk t).view.emb j = ix2 (0 : Fin 1) (⟨(j 1).val, hj1⟩ : Fin 64) := by
    funext a; apply Fin.ext
    match a with
    | ⟨0, _⟩ => show win1_5.index t (0 : Fin 2) * 1 + 1 * (j 0).val = 0; omega
    | ⟨1, _⟩ => show win1_5.index t (1 : Fin 2) * 64 + 1 * (j 1).val = (j 1).val; omega
  refine Eq.trans ?_ (read_blk1_5 (G1_5 V c) t j).symm
  show ((outsAt1 V c t.val t.isLt).2.2 ((win1 5).xinj (grid1.coords t) j) : EReal) = _
  rw [hx, he]
  refine ((outsAt1_eq V c t.val t.isLt).2.2 ⟨(j 1).val, hj1⟩).trans ?_
  rw [h9]
  show _ = Cert.Spec.colsum (fun i => S1 V c i * S1 V c i) (ix1 (⟨(j 1).val, hj1⟩ : Fin 64))
  rw [Cert.Spec.colsum_ix1]
  exact sum_blockSum (fun i => S1 V c (ix2 i (⟨(j 1).val, hj1⟩ : Fin 64)) * S1 V c (ix2 i (⟨(j 1).val, hj1⟩ : Fin 64)))

/-- An entry of the `[1, 64]` array is in point `t`'s block iff each coordinate is in the block's range on its axis. -/
theorem mem_blk1_5 (t : Fin cfg1.N) (i : S1x64.Idx) :
    i ∈ ((cfg1.win 5).blk t).view.set ↔ ∀ a : Fin 2, win1_5.index t a * S1x64.size a ≤ (i a).val ∧ (i a).val < win1_5.index t a * S1x64.size a + S1x64.size a := by
  show i ∈ ((View.whole main_v17_2).slice (win1_5.rect t)).set ↔ _
  rw [View.set_slice_whole, Rect.mem_set_unit]
  exact Iff.rfl

/-- The last point's block is the whole `[1, 64]` array. -/
theorem covered1_5 (i : S1x64.Idx) :
    ∃ t : Fin cfg1.N, (cfg1.win 5).flush t = true ∧ i ∈ ((cfg1.win 5).blk t).view.set := by
  have hi0 : (i 0).val < 1 := (i 0).isLt
  have hi1 : (i 1).val < 64 := (i 1).isLt
  obtain ⟨t, ht⟩ : ∃ t : Fin cfg1.N, t.val = 9 :=
    ⟨⟨9, Nat.lt_of_lt_of_eq (by omega : 9 < 10) N_1.symm⟩, rfl⟩
  obtain ⟨-, -, -, -, -, -, -, -, e40, e41, e50, e51⟩ := idx_facts1 t
  refine ⟨t, (flush1_5 t).mpr (by omega), ?_⟩
  rw [mem_blk1_5]
  intro a
  match a with
  | ⟨0, _⟩ => show win1_5.index t (0 : Fin 2) * 1 ≤ (i 0).val ∧ (i 0).val < win1_5.index t (0 : Fin 2) * 1 + 1; omega
  | ⟨1, _⟩ => show win1_5.index t (1 : Fin 2) * 64 ≤ (i 1).val ∧ (i 1).val < win1_5.index t (1 : Fin 2) * 64 + 64; omega

/-- After the region its third output holds the column sums of the squares of `s` over all 100000 rows. -/
theorem region1_sumsq (c : Dev nD) :
    ((dat1 (F := Ideal) V c).arrAt 5 cfg1.N : S1x64.Idx → EReal)
      = fun i => Cert.Spec.colsum (fun i => (Cert.Spec.sumL (V c (Pipeline.arrRef spec1 0)) (V c (Pipeline.arrRef spec1 1)) (fun j => V c (Pipeline.arrRef spec1 2) (ix2 0 (j 0)))) i * (Cert.Spec.sumL (V c (Pipeline.arrRef spec1 0)) (V c (Pipeline.arrRef spec1 1)) (fun j => V c (Pipeline.arrRef spec1 2) (ix2 0 (j 0)))) i) (ix1 (i 1)) :=
  (dat1 V c).arrAt_eq_of_cover 5 (G1_5 V c) (fun t hf => flushed1_5_eq V c t hf) covered1_5

end Final1

/-! # Reduction region two -/

section Pieces4
variable {F : FTy → Type} [FloatOps F]

/-- At the first point the body leaves in the block of `s` its one stored value. -/
theorem out4A3 (c : Dev nD) (i : grid4.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond4_0 i) (x0 x1 : Vec F S10000x64 .f32) (x2 : Vec F S1x64 .f32) :
    out4_A_3 c i a1 h1 a2 h2 a3 h3 a4 h4 a5 h5 a6 h6 hc x0 x1 x2 = k4_pay3 x0 x1 x2 := by
  unfold out4_A_3
  rw [View.read_writes_eq_canon _ _ _ (cover4_A_3 c i a1 h1 a2 h2 a3 h3 a4 h4 a5 h5 a6 h6 hc x0 x1 x2)]
  unfold kernelRun4_A
  dsimp only
  rw [View.canon_unit_zero hz]
  simp only [View.readAt_eq_ld, h1.read_unread, h2.read_unread, h3.read_unread, View.ld_unit_zero (S := S10000x64) hz, View.ld_unit_zero (S := S1x64) hz]

/-- At the first point the running column sum is reset to the zero row, read back, and the block's column sums added. -/
theorem out4A4 (c : Dev nD) (i : grid4.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond4_0 i) (x0 x1 : Vec F S10000x64 .f32) (x2 : Vec F S1x64 .f32) :
    out4_A_4 c i a1 h1 a2 h2 a3 h3 a4 h4 a5 h5 a6 h6 hc x0 x1 x2 = k4_pay4 x0 x1 x2 k4_pay1 := by
  unfold out4_A_4
  rw [View.read_writes_eq_canon _ _ _ (cover4_A_4 c i a1 h1 a2 h2 a3 h3 a4 h4 a5 h5 a6 h6 hc x0 x1 x2)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S10000x64) hz, View.ld_unit_zero (S := S1x64) hz]

/-- At the first point the running column sum of squares likewise. -/
theorem out4A5 (c : Dev nD) (i : grid4.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : cond4_0 i) (x0 x1 : Vec F S10000x64 .f32) (x2 : Vec F S1x64 .f32) :
    out4_A_5 c i a1 h1 a2 h2 a3 h3 a4 h4 a5 h5 a6 h6 hc x0 x1 x2 = k4_pay5 x0 x1 x2 k4_pay2 := by
  unfold out4_A_5
  rw [View.read_writes_eq_canon _ _ _ (cover4_A_5 c i a1 h1 a2 h2 a3 h3 a4 h4 a5 h5 a6 h6 hc x0 x1 x2)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, View.ld_unit_zero (S := S10000x64) hz, View.ld_unit_zero (S := S1x64) hz]

/-- At a later point the body leaves in the block of `s` its one stored value. -/
theorem out4B3 (c : Dev nD) (i : grid4.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond4_0 i) (x0 x1 : Vec F S10000x64 .f32) (x2 xo4 xo5 : Vec F S1x64 .f32) :
    out4_B_3 c i a1 h1 a2 h2 a3 h3 a4 h4 a5 h5 a6 h6 hc x0 x1 x2 xo4 xo5 = k4_pay3 x0 x1 x2 := by
  unfold out4_B_3
  rw [View.read_writes_eq_canon _ _ _ (cover4_B_3 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread, View.ld_unit_zero (S := S10000x64) hz, View.ld_unit_zero (S := S1x64) hz]

/-- At a later point the block's column sums are added onto what the running column sum held. -/
theorem out4B4 (c : Dev nD) (i : grid4.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond4_0 i) (x0 x1 : Vec F S10000x64 .f32) (x2 xo4 xo5 : Vec F S1x64 .f32) :
    out4_B_4 c i a1 h1 a2 h2 a3 h3 a4 h4 a5 h5 a6 h6 hc x0 x1 x2 xo4 xo5 = k4_pay4 x0 x1 x2 xo4 := by
  unfold out4_B_4
  rw [View.read_writes_eq_canon _ _ _ (cover4_B_4 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread, View.ld_unit_zero (S := S10000x64) hz, View.ld_unit_zero (S := S1x64) hz]

/-- At a later point the block's column sums of squares are added onto what the running sum of squares held. -/
theorem out4B5 (c : Dev nD) (i : grid4.Coords) (a1 : Memref sig .tc .vmem S10000x64 .f32) (h1 : a1.IsWhole) (a2 : Memref sig .tc .vmem S10000x64 .f32) (h2 : a2.IsWhole) (a3 : Memref sig .tc .vmem S1x64 .f32) (h3 : a3.IsWhole) (a4 : Memref sig .tc .vmem S10000x64 .f32) (h4 : a4.IsWhole) (a5 : Memref sig .tc .vmem S1x64 .f32) (h5 : a5.IsWhole) (a6 : Memref sig .tc .vmem S1x64 .f32) (h6 : a6.IsWhole) (hc : ¬cond4_0 i) (x0 x1 : Vec F S10000x64 .f32) (x2 xo4 xo5 : Vec F S1x64 .f32) :
    out4_B_5 c i a1 h1 a2 h2 a3 h3 a4 h4 a5 h5 a6 h6 hc x0 x1 x2 xo4 xo5 = k4_pay5 x0 x1 x2 xo5 := by
  unfold out4_B_5
  rw [View.read_writes_eq_canon _ _ _ (cover4_B_5 c i a1 h1 a2 h2 a3 h3 a4 h4 a5 h5 a6 h6 hc x0 x1 x2 xo4 xo5)]
  unfold kernelRun4_B
  dsimp only
  rw [View.canon_unit_zero hz]
  simp only [View.readAt_eq_ld, h1.read_unread, h2.read_unread, h3.read_unread, h5.read_unread, h6.read_unread, View.ld_unit_zero (S := S10000x64) hz, View.ld_unit_zero (S := S1x64) hz]

end Pieces4

/-! ## The body's values at an entry, over extended reals -/

/-- A sum over the rows of a `[10000, 64]` block, column `q`. -/
theorem colsum_block4 (src : FVec Ideal S10000x64 .f32) (h : S10000x64.Reduces [0] S64) (hφ : FKind.Formats .f32)
    (hacc : (0x00000000#32 : BitVec 32) = 0x00000000#32) (q : Fin 64) :
    multiReduction (F := Ideal) .add [0] S64 src 0x00000000#32 h hφ hacc (ix1 q) = ∑ p : Fin 10000, src (ix2 p q) := by
  refine (Ideal.multiReduction_add_single src 0x00000000#32 h hφ hacc (ix1 q)).trans ?_
  exact Finset.sum_congr rfl fun p _ => congrArg src (funext fun a => by match a with | ⟨0, _⟩ => rfl | ⟨1, _⟩ => rfl)

/-- The stored block of `s` at `(p, q)`: `node + agg` there, plus the bias row at `q`. -/
theorem pay4_3_apply (x0 x1 : Vec Ideal S10000x64 .f32) (x2 : Vec Ideal S1x64 .f32) (p : Fin 10000) (q : Fin 64) :
    (k4_pay3 (F := Ideal) x0 x1 x2 (ix2 p q) : EReal) = (x0 (ix2 p q) : EReal) + (x1 (ix2 p q) : EReal) + (x2 (ix2 0 q) : EReal) := by
  unfold k4_pay3
  try dsimp only
  simp only [shapeCast_self]
  rw [addf_apply, addf_apply]
  rw [broadcastTo_apply x2 _ (ix2 p q) (ix2 0 q) (fun a => by match a with | ⟨0, _⟩ => rfl | ⟨1, _⟩ => rfl)]

/-- The running column sum after a point, at column `q`: what it held plus the block's column sum. -/
theorem pay4_4_apply (x0 x1 : Vec Ideal S10000x64 .f32) (x2 acc : Vec Ideal S1x64 .f32) (q : Fin 64) :
    (k4_pay4 (F := Ideal) x0 x1 x2 acc (ix2 0 q) : EReal)
      = (acc (ix2 0 q) : EReal) + ∑ p : Fin 10000, (k4_pay3 (F := Ideal) x0 x1 x2 (ix2 p q) : EReal) := by
  unfold k4_pay4
  try dsimp only
  rw [addf_apply, shapeCast_self, shapeCast_a_1a_apply, colsum_block4]

/-- The running column sum of squares after a point, at column `q`. -/
theorem pay4_5_apply (x0 x1 : Vec Ideal S10000x64 .f32) (x2 acc : Vec Ideal S1x64 .f32) (q : Fin 64) :
    (k4_pay5 (F := Ideal) x0 x1 x2 acc (ix2 0 q) : EReal)
      = (acc (ix2 0 q) : EReal) + ∑ p : Fin 10000, (k4_pay3 (F := Ideal) x0 x1 x2 (ix2 p q) : EReal) * (k4_pay3 (F := Ideal) x0 x1 x2 (ix2 p q) : EReal) := by
  unfold k4_pay5
  try dsimp only
  rw [addf_apply, shapeCast_self, shapeCast_a_1a_apply, colsum_block4]
  rfl

/-- The row the running sums are reset to is zero. -/
theorem pay4_1_apply (j : S1x64.Idx) : (k4_pay1 (F := Ideal) j : EReal) = 0 := by
  show Ideal.ofBits .f32 0x00000000#32 = 0
  exact Ideal.ofBits_zero_f32

theorem pay4_2_apply (j : S1x64.Idx) : (k4_pay2 (F := Ideal) j : EReal) = 0 := by
  show Ideal.ofBits .f32 0x00000000#32 = 0
  exact Ideal.ofBits_zero_f32

/-- A stored entry of `s`, when the loaded blocks are rows of `A0`, `A1` and the loaded bias is `A2`. -/
theorem pay4_3_rows (A0 A1 : Cert.Spec.Mat 100000 64) (A2 : S1x64.Idx → EReal)
    (x0 x1 : Vec Ideal S10000x64 .f32) (x2 : Vec Ideal S1x64 .f32) (p : Fin 10000) (q : Fin 64) (r : Fin 100000)
    (h0 : (x0 (ix2 p q) : EReal) = A0 (ix2 r q)) (h1 : (x1 (ix2 p q) : EReal) = A1 (ix2 r q))
    (h2 : (x2 (ix2 0 q) : EReal) = A2 (ix2 0 q)) :
    (k4_pay3 (F := Ideal) x0 x1 x2 (ix2 p q) : EReal) = Cert.Spec.sumL A0 A1 (fun j => A2 (ix2 0 (j 0))) (ix2 r q) := by
  rw [pay4_3_apply, h0, h1, h2]
  rfl

section Region4
variable (V : (c : Dev nD) → (b : Ref sig .tc) → Buf (Elt Ideal) ((c : Thread nD τ).loc b))

/-- The block index of every window of the region at every grid point: the row blocks move with the point, the
    bias row and the two running sums stay. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The pre-normalisation sum `s` as one function of the arrays the region finds. -/
abbrev S4 (c : Dev nD) : S100000x64.Idx → EReal :=
  Cert.Spec.sumL (V c (Pipeline.arrRef spec4 0)) (V c (Pipeline.arrRef spec4 1)) (fun j => V c (Pipeline.arrRef spec4 2) (ix2 0 (j 0)))

/-- The stored block at point `t` is rows `10000 t …` of `s`. -/
theorem blk_s4 (c : Dev nD) (t : Fin cfg4.N) (p : Fin 10000) (q : Fin 64) (r : Fin 100000) (hr : r.val = t.val * 10000 + p.val) :
    (k4_pay3 (F := Ideal) (iblk4 V c 0 t) (iblk4 V c 1 t) (iblk4 V c 2 t) (ix2 p q) : EReal) = S4 V c (ix2 r q) := by
  obtain ⟨e00, e01, e10, e11, e20, e21, e30, e31, e40, e41, e50, e51⟩ := idx_facts4 t
  refine pay4_3_rows (V c (Pipeline.arrRef spec4 0)) (V c (Pipeline.arrRef spec4 1)) (V c (Pipeline.arrRef spec4 2))
    (iblk4 V c 0 t) (iblk4 V c 1 t) (iblk4 V c 2 t) p q r ?_ ?_ ?_
  · show V c (Pipeline.arrRef spec4 0) (((cfg4.win 0).blk t).view.emb (ix2 p q)) = V c (Pipeline.arrRef spec4 0) (ix2 r q)
    refine congrArg _ (funext fun a => Fin.ext ?_)
    match a with
    | ⟨0, _⟩ => show win4_0.index t (0 : Fin 2) * 10000 + 1 * p.val = r.val; omega
    | ⟨1, _⟩ => show win4_0.index t (1 : Fin 2) * 64 + 1 * q.val = q.val; omega
  · show V c (Pipeline.arrRef spec4 1) (((cfg4.win 1).blk t).view.emb (ix2 p q)) = V c (Pipeline.arrRef spec4 1) (ix2 r q)
    refine congrArg _ (funext fun a => Fin.ext ?_)
    match a with
    | ⟨0, _⟩ => show win4_1.index t (0 : Fin 2) * 10000 + 1 * p.val = r.val; omega
    | ⟨1, _⟩ => show win4_1.index t (1 : Fin 2) * 64 + 1 * q.val = q.val; omega
  · show V c (Pipeline.arrRef spec4 2) (((cfg4.win 2).blk t).view.emb (ix2 (0 : Fin 1) q)) = V c (Pipeline.arrRef spec4 2) (ix2 (0 : Fin 1) q)
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * q.val = q.val; omega

/-- The three outputs' buffers after the first point, as the body's values of the point's blocks. -/
theorem outsAt4_first (c : Dev nD) (t : Fin cfg4.N) (h0 : t.val % 10 = 0) :
    outsAt4 V c t.val t.isLt
      = (k4_pay3 (F := Ideal) (iblk4 V c 0 t) (iblk4 V c 1 t) (iblk4 V c 2 t), k4_pay4 (F := Ideal) (iblk4 V c 0 t) (iblk4 V c 1 t) (iblk4 V c 2 t) (k4_pay1 (F := Ideal)), k4_pay5 (F := Ideal) (iblk4 V c 0 t) (iblk4 V c 1 t) (iblk4 V c 2 t) (k4_pay2 (F := Ideal))) := by
  rw [outsAt4_A V c t h0,
    out4A3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
    out4A4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t),
    out4A5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (iblk4 V c 0 t) (iblk4 V c 1 t) (iblk4 V c 2 t)]

/-- The three outputs' buffers after a later point, as the body's values of the point's blocks and of what the point
    before left in the two running sums. -/
theorem outsAt4_later (c : Dev nD) (t : Fin cfg4.N) (h0 : ¬t.val % 10 = 0) :
    outsAt4 V c t.val t.isLt
      = (k4_pay3 (F := Ideal) (iblk4 V c 0 t) (iblk4 V c 1 t) (iblk4 V c 2 t), k4_pay4 (F := Ideal) (iblk4 V c 0 t) (iblk4 V c 1 t) (iblk4 V c 2 t) (outsAt4 V c (t.val - 1) (Nat.lt_of_le_of_lt (Nat.sub_le _ _) t.isLt)).2.1, k4_pay5 (F := Ideal) (iblk4 V c 0 t) (iblk4 V c 1 t) (iblk4 V c 2 t) (outsAt4 V c (t.val - 1) (Nat.lt_of_le_of_lt (Nat.sub_le _ _) t.isLt)).2.2) := by
  rw [outsAt4_B V c t h0,
    out4B3 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
    out4B4 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2,
    out4B5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (iblk4 V c 0 t) (iblk4 V c 1 t) (iblk4 V c 2 t) (outsAt4 V c (t.val - 1) (Nat.lt_of_le_of_lt (Nat.sub_le _ _) t.isLt)).2.1 (outsAt4 V c (t.val - 1) (Nat.lt_of_le_of_lt (Nat.sub_le _ _) t.isLt)).2.2]

/-- What the three outputs' buffers hold after point `n`: the block of `s`, and the column sums of `s` and of its squares
    over the first `n + 1` blocks. By induction on the point. -/
theorem outsAt4_eq (c : Dev nD) : ∀ (n : ℕ) (h : n < cfg4.N),
    (outsAt4 V c n h).1 = k4_pay3 (F := Ideal) (iblk4 V c 0 ⟨n, h⟩) (iblk4 V c 1 ⟨n, h⟩) (iblk4 V c 2 ⟨n, h⟩)
    ∧ (∀ q : Fin 64, ((outsAt4 V c n h).2.1 (ix2 0 q) : EReal)
        = ∑ t ∈ Finset.range (n + 1), blockSum (fun i => S4 V c (ix2 i q)) t)
    ∧ (∀ q : Fin 64, ((outsAt4 V c n h).2.2 (ix2 0 q) : EReal)
        = ∑ t ∈ Finset.range (n + 1), blockSum (fun i => S4 V c (ix2 i q) * S4 V c (ix2 i q)) t)
  | 0, h => by
    rw [outsAt4_first V c ⟨0, h⟩ rfl]
    refine ⟨rfl, fun q => ?_, fun q => ?_⟩
    · show (k4_pay4 (F := Ideal) (iblk4 V c 0 ⟨0, h⟩) (iblk4 V c 1 ⟨0, h⟩) (iblk4 V c 2 ⟨0, h⟩) (k4_pay1 (F := Ideal)) (ix2 0 q) : EReal) = _
      rw [pay4_4_apply, pay4_1_apply]
      exact blockSum_first _ _ fun p => blk_s4 V c ⟨0, h⟩ p q ⟨0 * 10000 + p.val, by omega⟩ rfl
    · show (k4_pay5 (F := Ideal) (iblk4 V c 0 ⟨0, h⟩) (iblk4 V c 1 ⟨0, h⟩) (iblk4 V c 2 ⟨0, h⟩) (k4_pay2 (F := Ideal)) (ix2 0 q) : EReal) = _
      rw [pay4_5_apply, pay4_2_apply]
      exact blockSum_first _ _ fun p => by rw [blk_s4 V c ⟨0, h⟩ p q ⟨0 * 10000 + p.val, by omega⟩ rfl]
  | n + 1, h => by
    have hN : cfg4.N = 10 := N_4
    have hB : ¬(⟨n + 1, h⟩ : Fin cfg4.N).val % 10 = 0 := by dsimp only; omega
    obtain ⟨-, ih4, ih5⟩ := outsAt4_eq c n (Nat.lt_of_succ_lt h)
    rw [outsAt4_later V c ⟨n + 1, h⟩ hB]
    refine ⟨rfl, fun q => ?_, fun q => ?_⟩
    · show (k4_pay4 (F := Ideal) (iblk4 V c 0 ⟨n + 1, h⟩) (iblk4 V c 1 ⟨n + 1, h⟩) (iblk4 V c 2 ⟨n + 1, h⟩) (outsAt4 V c n (Nat.lt_of_succ_lt h)).2.1 (ix2 0 q) : EReal) = _
      rw [pay4_4_apply]
      exact blockSum_step _ n (by omega) _ _ (ih4 q) fun p => blk_s4 V c ⟨n + 1, h⟩ p q ⟨(n + 1) * 10000 + p.val, by omega⟩ rfl
    · show (k4_pay5 (F := Ideal) (iblk4 V c 0 ⟨n + 1, h⟩) (iblk4 V c 1 ⟨n + 1, h⟩) (iblk4 V c 2 ⟨n + 1, h⟩) (outsAt4 V c n (Nat.lt_of_succ_lt h)).2.2 (ix2 0 q) : EReal) = _
      rw [pay4_5_apply]
      exact blockSum_step _ n (by omega) _ _ (ih5 q) fun p => by rw [blk_s4 V c ⟨n + 1, h⟩ p q ⟨(n + 1) * 10000 + p.val, by omega⟩ rfl]

end Region4

section Final4
variable (V : (c : Dev nD) → (b : Ref sig .tc) → Buf (Elt Ideal) ((c : Thread nD τ).loc b))

/-- What point `t` writes back to the array of `s` is block `t` of `s`. -/
theorem flushed4_3_eq (c : Dev nD) (t : Fin cfg4.N) :
    (dat4 V c).flushed 3 t = ((cfg4.win 3).blk t).view.read (Elt Ideal) (S4 V c) := by
  show (cfg4.win 3).cut (grid4.coords t) ((dat4 V c).after 3 t) = _
  rw [after4_3, (outsAt4_eq V c t.val t.isLt).1]
  funext j
  have hj0 : (j 0).val < 10000 := (j 0).isLt
  have hj1 : (j 1).val < 64 := (j 1).isLt
  have ht : t.val < 10 := lt_of_lt_of_eq t.isLt N_4
  obtain ⟨e00, e01, e10, e11, e20, e21, e30, e31, e40, e41, e50, e51⟩ := idx_facts4 t
  have hx : (win4 3).xinj (grid4.coords t) j = ix2 (⟨(j 0).val, hj0⟩ : Fin 10000) (⟨(j 1).val, hj1⟩ : Fin 64) :=
    funext fun a => by match a with | ⟨0, _⟩ => rfl | ⟨1, _⟩ => rfl
  have he : ((cfg4.win 3).blk t).view.emb j = ix2 (⟨t.val * 10000 + (j 0).val, by omega⟩ : Fin 100000) (⟨(j 1).val, hj1⟩ : Fin 64) := by
    funext a; apply Fin.ext
    match a with
    | ⟨0, _⟩ => show win4_3.index t (0 : Fin 2) * 10000 + 1 * (j 0).val = t.val * 10000 + (j 0).val; omega
    | ⟨1, _⟩ => show win4_3.index t (1 : Fin 2) * 64 + 1 * (j 1).val = (j 1).val; omega
  show (k4_pay3 (F := Ideal) (iblk4 V c 0 t) (iblk4 V c 1 t) (iblk4 V c 2 t) ((win4 3).xinj (grid4.coords t) j) : EReal)
    = S4 V c (((cfg4.win 3).blk t).view.emb j)
  rw [hx, he]
  exact blk_s4 V c t ⟨(j 0).val, hj0⟩ ⟨(j 1).val, hj1⟩ ⟨t.val * 10000 + (j 0).val, by omega⟩ rfl

/-- An entry of the array of `s` is in point `t`'s block iff each coordinate is in the block's range on its axis. -/
theorem mem_blk4_3 (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v47_0).slice (win4_3.rect t)).set ↔ _
  rw [View.set_slice_whole, Rect.mem_set_unit]
  exact Iff.rfl

/-- Row `r` of `s` is written by the point `r / 10000`. -/
theorem covered4_3 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ : ∃ t : Fin cfg4.N, t.val = (i 0).val / 10000 :=
    ⟨⟨(i 0).val / 10000, Nat.lt_of_lt_of_eq (by omega : (i 0).val / 10000 < 10) N_4.symm⟩, rfl⟩
  obtain ⟨-, -, -, -, -, -, e30, e31, -, -, -, -⟩ := idx_facts4 t
  refine ⟨t, flush4_3 t, ?_⟩
  rw [mem_blk4_3]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- After the region its first output holds `s = (node + agg) + ab` of the arrays the region found. -/
theorem region4_s (c : Dev nD) :
    ((dat4 (F := Ideal) V c).arrAt 3 cfg4.N : S100000x64.Idx → EReal)
      = Cert.Spec.sumL (V c (Pipeline.arrRef spec4 0)) (V c (Pipeline.arrRef spec4 1)) (fun j => V c (Pipeline.arrRef spec4 2) (ix2 0 (j 0))) :=
  (dat4 V c).arrAt_eq_of_cover 3 (S4 V c) (fun t _ => flushed4_3_eq V c t) covered4_3

/-- The column sums of `s`, as a `[1, 64]` array. -/
abbrev G4_4 (c : Dev nD) : S1x64.Idx → EReal := fun i => Cert.Spec.colsum (S4 V c) (ix1 (i 1))

/-- A block of a `[1, 64]` array read at an entry is the array at the entry's place in it. -/
theorem read_blk4_4 (G : S1x64.Idx → EReal) (t : Fin cfg4.N) (j : ((cfg4.win 4).xblock (grid4.coords t)).Idx) :
    ((cfg4.win 4).blk t).view.read (Elt Ideal) G j = G (((cfg4.win 4).blk t).view.emb j) := rfl

/-- The one write-back of the running sum, at the last point, writes the column sums of `s` over all rows. -/
theorem flushed4_4_eq (c : Dev nD) (t : Fin cfg4.N) (hf : (cfg4.win 4).flush t = true) :
    (dat4 V c).flushed 4 t = ((cfg4.win 4).blk t).view.read (Elt Ideal) (G4_4 V c) := by
  have ht : t.val < 10 := lt_of_lt_of_eq t.isLt N_4
  have h9 : t.val = 9 := by have := (flush4_4 t).mp hf; omega
  show (cfg4.win 4).cut (grid4.coords t) ((dat4 V c).after 4 t) = _
  rw [after4_4]
  funext j
  have hj0 : (j 0).val < 1 := (j 0).isLt
  have hj1 : (j 1).val < 64 := (j 1).isLt
  obtain ⟨e00, e01, e10, e11, e20, e21, e30, e31, e40, e41, e50, e51⟩ := idx_facts4 t
  have hx : (win4 4).xinj (grid4.coords t) j = ix2 (0 : Fin 1) (⟨(j 1).val, hj1⟩ : Fin 64) :=
    funext fun a => Fin.ext (by
      match a with
      | ⟨0, _⟩ => show (j 0).val = 0; omega
      | ⟨1, _⟩ => rfl)
  have he : ((cfg4.win 4).blk t).view.emb j = ix2 (0 : Fin 1) (⟨(j 1).val, hj1⟩ : Fin 64) := by
    funext a; apply Fin.ext
    match a with
    | ⟨0, _⟩ => show win4_4.index t (0 : Fin 2) * 1 + 1 * (j 0).val = 0; omega
    | ⟨1, _⟩ => show win4_4.index t (1 : Fin 2) * 64 + 1 * (j 1).val = (j 1).val; omega
  refine Eq.trans ?_ (read_blk4_4 (G4_4 V c) t j).symm
  show ((outsAt4 V c t.val t.isLt).2.1 ((win4 4).xinj (grid4.coords t) j) : EReal) = _
  rw [hx, he]
  refine ((outsAt4_eq V c t.val t.isLt).2.1 ⟨(j 1).val, hj1⟩).trans ?_
  rw [h9]
  show _ = Cert.Spec.colsum (S4 V c) (ix1 (⟨(j 1).val, hj1⟩ : Fin 64))
  rw [Cert.Spec.colsum_ix1]
  exact sum_blockSum (fun i => S4 V c (ix2 i (⟨(j 1).val, hj1⟩ : Fin 64)))

/-- An entry of the `[1, 64]` array is in point `t`'s block iff each coordinate is in the block's range on its axis. -/
theorem mem_blk4_4 (t : Fin cfg4.N) (i : S1x64.Idx) :
    i ∈ ((cfg4.win 4).blk t).view.set ↔ ∀ a : Fin 2, win4_4.index t a * S1x64.size a ≤ (i a).val ∧ (i a).val < win4_4.index t a * S1x64.size a + S1x64.size a := by
  show i ∈ ((View.whole main_v47_1).slice (win4_4.rect t)).set ↔ _
  rw [View.set_slice_whole, Rect.mem_set_unit]
  exact Iff.rfl

/-- The last point's block is the whole `[1, 64]` array. -/
theorem covered4_4 (i : S1x64.Idx) :
    ∃ t : Fin cfg4.N, (cfg4.win 4).flush t = true ∧ i ∈ ((cfg4.win 4).blk t).view.set := by
  have hi0 : (i 0).val < 1 := (i 0).isLt
  have hi1 : (i 1).val < 64 := (i 1).isLt
  obtain ⟨t, ht⟩ : ∃ t : Fin cfg4.N, t.val = 9 :=
    ⟨⟨9, Nat.lt_of_lt_of_eq (by omega : 9 < 10) N_4.symm⟩, rfl⟩
  obtain ⟨-, -, -, -, -, -, -, -, e40, e41, e50, e51⟩ := idx_facts4 t
  refine ⟨t, (flush4_4 t).mpr (by omega), ?_⟩
  rw [mem_blk4_4]
  intro a
  match a with
  | ⟨0, _⟩ => show win4_4.index t (0 : Fin 2) * 1 ≤ (i 0).val ∧ (i 0).val < win4_4.index t (0 : Fin 2) * 1 + 1; omega
  | ⟨1, _⟩ => show win4_4.index t (1 : Fin 2) * 64 ≤ (i 1).val ∧ (i 1).val < win4_4.index t (1 : Fin 2) * 64 + 64; omega

/-- After the region its second output holds the column sums of `s` over all 100000 rows. -/
theorem region4_sum (c : Dev nD) :
    ((dat4 (F := Ideal) V c).arrAt 4 cfg4.N : S1x64.Idx → EReal)
      = fun i => Cert.Spec.colsum (Cert.Spec.sumL (V c (Pipeline.arrRef spec4 0)) (V c (Pipeline.arrRef spec4 1)) (fun j => V c (Pipeline.arrRef spec4 2) (ix2 0 (j 0)))) (ix1 (i 1)) :=
  (dat4 V c).arrAt_eq_of_cover 4 (G4_4 V c) (fun t hf => flushed4_4_eq V c t hf) covered4_4

/-- The column sums of the squares of `s`, as a `[1, 64]` array. -/
abbrev G4_5 (c : Dev nD) : S1x64.Idx → EReal := fun i => Cert.Spec.colsum (fun i => S4 V c i * S4 V c i) (ix1 (i 1))

/-- A block of a `[1, 64]` array read at an entry is the array at the entry's place in it. -/
theorem read_blk4_5 (G : S1x64.Idx → EReal) (t : Fin cfg4.N) (j : ((cfg4.win 5).xblock (grid4.coords t)).Idx) :
    ((cfg4.win 5).blk t).view.read (Elt Ideal) G j = G (((cfg4.win 5).blk t).view.emb j) := rfl

/-- The one write-back of the running sum, at the last point, writes the column sums of the squares of `s` over all rows. -/
theorem flushed4_5_eq (c : Dev nD) (t : Fin cfg4.N) (hf : (cfg4.win 5).flush t = true) :
    (dat4 V c).flushed 5 t = ((cfg4.win 5).blk t).view.read (Elt Ideal) (G4_5 V c) := by
  have ht : t.val < 10 := lt_of_lt_of_eq t.isLt N_4
  have h9 : t.val = 9 := by have := (flush4_5 t).mp hf; omega
  show (cfg4.win 5).cut (grid4.coords t) ((dat4 V c).after 5 t) = _
  rw [after4_5]
  funext j
  have hj0 : (j 0).val < 1 := (j 0).isLt
  have hj1 : (j 1).val < 64 := (j 1).isLt
  obtain ⟨e00, e01, e10, e11, e20, e21, e30, e31, e40, e41, e50, e51⟩ := idx_facts4 t
  have hx : (win4 5).xinj (grid4.coords t) j = ix2 (0 : Fin 1) (⟨(j 1).val, hj1⟩ : Fin 64) :=
    funext fun a => Fin.ext (by
      match a with
      | ⟨0, _⟩ => show (j 0).val = 0; omega
      | ⟨1, _⟩ => rfl)
  have he : ((cfg4.win 5).blk t).view.emb j = ix2 (0 : Fin 1) (⟨(j 1).val, hj1⟩ : Fin 64) := by
    funext a; apply Fin.ext
    match a with
    | ⟨0, _⟩ => show win4_5.index t (0 : Fin 2) * 1 + 1 * (j 0).val = 0; omega
    | ⟨1, _⟩ => show win4_5.index t (1 : Fin 2) * 64 + 1 * (j 1).val = (j 1).val; omega
  refine Eq.trans ?_ (read_blk4_5 (G4_5 V c) t j).symm
  show ((outsAt4 V c t.val t.isLt).2.2 ((win4 5).xinj (grid4.coords t) j) : EReal) = _
  rw [hx, he]
  refine ((outsAt4_eq V c t.val t.isLt).2.2 ⟨(j 1).val, hj1⟩).trans ?_
  rw [h9]
  show _ = Cert.Spec.colsum (fun i => S4 V c i * S4 V c i) (ix1 (⟨(j 1).val, hj1⟩ : Fin 64))
  rw [Cert.Spec.colsum_ix1]
  exact sum_blockSum (fun i => S4 V c (ix2 i (⟨(j 1).val, hj1⟩ : Fin 64)) * S4 V c (ix2 i (⟨(j 1).val, hj1⟩ : Fin 64)))

/-- An entry of the `[1, 64]` array is in point `t`'s block iff each coordinate is in the block's range on its axis. -/
theorem mem_blk4_5 (t : Fin cfg4.N) (i : S1x64.Idx) :
    i ∈ ((cfg4.win 5).blk t).view.set ↔ ∀ a : Fin 2, win4_5.index t a * S1x64.size a ≤ (i a).val ∧ (i a).val < win4_5.index t a * S1x64.size a + S1x64.size a := by
  show i ∈ ((View.whole main_v47_2).slice (win4_5.rect t)).set ↔ _
  rw [View.set_slice_whole, Rect.mem_set_unit]
  exact Iff.rfl

/-- The last point's block is the whole `[1, 64]` array. -/
theorem covered4_5 (i : S1x64.Idx) :
    ∃ t : Fin cfg4.N, (cfg4.win 5).flush t = true ∧ i ∈ ((cfg4.win 5).blk t).view.set := by
  have hi0 : (i 0).val < 1 := (i 0).isLt
  have hi1 : (i 1).val < 64 := (i 1).isLt
  obtain ⟨t, ht⟩ : ∃ t : Fin cfg4.N, t.val = 9 :=
    ⟨⟨9, Nat.lt_of_lt_of_eq (by omega : 9 < 10) N_4.symm⟩, rfl⟩
  obtain ⟨-, -, -, -, -, -, -, -, e40, e41, e50, e51⟩ := idx_facts4 t
  refine ⟨t, (flush4_5 t).mpr (by omega), ?_⟩
  rw [mem_blk4_5]
  intro a
  match a with
  | ⟨0, _⟩ => show win4_5.index t (0 : Fin 2) * 1 ≤ (i 0).val ∧ (i 0).val < win4_5.index t (0 : Fin 2) * 1 + 1; omega
  | ⟨1, _⟩ => show win4_5.index t (1 : Fin 2) * 64 ≤ (i 1).val ∧ (i 1).val < win4_5.index t (1 : Fin 2) * 64 + 64; omega

/-- After the region its third output holds the column sums of the squares of `s` over all 100000 rows. -/
theorem region4_sumsq (c : Dev nD) :
    ((dat4 (F := Ideal) V c).arrAt 5 cfg4.N : S1x64.Idx → EReal)
      = fun i => Cert.Spec.colsum (fun i => (Cert.Spec.sumL (V c (Pipeline.arrRef spec4 0)) (V c (Pipeline.arrRef spec4 1)) (fun j => V c (Pipeline.arrRef spec4 2) (ix2 0 (j 0)))) i * (Cert.Spec.sumL (V c (Pipeline.arrRef spec4 0)) (V c (Pipeline.arrRef spec4 1)) (fun j => V c (Pipeline.arrRef spec4 2) (ix2 0 (j 0)))) i) (ix1 (i 1)) :=
  (dat4 V c).arrAt_eq_of_cover 5 (G4_5 V c) (fun t hf => flushed4_5_eq V c t hf) covered4_5

end Final4

end Cert.KernelIdeal.KReduce
end
-- ==== Proof.KFold.lean ====
/-
  The kernel program's result as one function of its arguments.

  Walking the seventeen boundaries in order: each region's output arrays are specification functions of its
  input arrays, each stretch of host operations reads as functions of what it reads, and what is carried from a
  region to a later one is unchanged in between.  Composed, the result buffer at the last boundary is the whole
  network in the arrangement the kernel computes it in (`Cert.Spec.outK`): biases always added, the three
  summands associated to the left, the variance from the moments.
-/
import proofs.«115488_j17910013624557_2_alg».proof.Proof.Gen.KernelIdeal.Frame
import proofs.«115488_j17910013624557_2_alg».proof.Proof.Spec
import proofs.«115488_j17910013624557_2_alg».proof.Proof.KWalk
import proofs.«115488_j17910013624557_2_alg».proof.Proof.KHost
import proofs.«115488_j17910013624557_2_alg».proof.Proof.KDense
import proofs.«115488_j17910013624557_2_alg».proof.Proof.KElem
import proofs.«115488_j17910013624557_2_alg».proof.Proof.KReduce
import Idealize.ShloMosaic.PureOps.Ideal
set_option maxRecDepth 16384

noncomputable section

namespace Cert.KernelIdeal.KFold

open Cert.KernelIdeal Cert.KernelIdeal.Gen Cert.KernelIdeal.KHost
open Idealize.ShloMosaic Idealize.ShloMosaic.TcCoe Idealize.ShloMosaic.Tactic
open Idealize.ShloMosaic.ValueIdx Idealize.ShloMosaic.Pipeline
open Idealize.SL.Sem
open Cert.Spec (Mat Row dense mm sumL normRelu mean varMoments colsum layerK outK zrow)

variable (m : (ℓ : Loc nD τ sig) → Buf (Elt Ideal) ℓ) (ρ : Dev nD → PrngReg) (c : Dev nD)

/-! ## The arguments, typed as the specification types them -/
abbrev a0 : Mat 100000 128 := m ((c : Thread nD τ).loc main_arg0)
abbrev a1 : IVec S800000 32 := m ((c : Thread nD τ).loc main_arg1)
abbrev a2 : IVec S800000 32 := m ((c : Thread nD τ).loc main_arg2)
abbrev a3 : FVec Ideal S800000 .f32 := m ((c : Thread nD τ).loc main_arg3)
abbrev a4 : IVec S50000 32 := m ((c : Thread nD τ).loc main_arg4)
abbrev a5 : Mat 128 64 := m ((c : Thread nD τ).loc main_arg5)
abbrev a6 : Row 64 := m ((c : Thread nD τ).loc main_arg6)
abbrev a7 : Mat 128 64 := m ((c : Thread nD τ).loc main_arg7)
abbrev a8 : Row 64 := m ((c : Thread nD τ).loc main_arg8)
abbrev a9 : Row 64 := m ((c : Thread nD τ).loc main_arg9)
abbrev a10 : Row 64 := m ((c : Thread nD τ).loc main_arg10)
abbrev a11 : Row 64 := m ((c : Thread nD τ).loc main_arg11)
abbrev a12 : Mat 64 64 := m ((c : Thread nD τ).loc main_arg12)
abbrev a13 : Mat 64 64 := m ((c : Thread nD τ).loc main_arg13)
abbrev a14 : Row 64 := m ((c : Thread nD τ).loc main_arg14)
abbrev a15 : Row 64 := m ((c : Thread nD τ).loc main_arg15)
abbrev a16 : Row 64 := m ((c : Thread nD τ).loc main_arg16)
abbrev a17 : Mat 64 32 := m ((c : Thread nD τ).loc main_arg17)
abbrev a18 : Mat 64 32 := m ((c : Thread nD τ).loc main_arg18)
abbrev a19 : Row 32 := m ((c : Thread nD τ).loc main_arg19)

/-- The aggregation of the two normalised layers, at this launch's edge list. -/
abbrev SPk : Mat 100000 64 → Mat 100000 64 := SP64 (a1 m c) (a2 m c) (a3 m c)
/-- The aggregation of the last layer. -/
abbrev SPLk : Mat 100000 32 → Mat 100000 32 := SP32 (a1 m c) (a2 m c) (a3 m c)
/-- The final selection of rows. -/
abbrev GAk : Mat 100000 32 → Mat 50000 32 := GA (a4 m c)
/-- The normalisation's epsilon as the programs' float constant. -/
abbrev epsf : EReal := Ideal.ofBits .f32 0x3727C5AC#32

/-! ## The first layer -/

theorem node0 : (W2 m ρ c (Proc.devRef .tc main_v2_0) : Mat 100000 64) = dense (a0 m c) (a5 m c) (a6 m c) := by
  refine (W2_arr m ρ c 5).trans ((KDense.region0_node (V1 m ρ) c).trans ?_)
  show dense (W1 m ρ c (Proc.devRef .tc main_arg0)) (W1 m ρ c (Proc.devRef .tc main_arg5)) (row (W1 m ρ c (Proc.devRef .tc main_v0))) = _
  rw [KWalk.arg0_at1, KWalk.arg5_at1, v0_row]

theorem neigh0 : (W2 m ρ c (Proc.devRef .tc main_v2_1) : Mat 100000 64) = dense (a0 m c) (a7 m c) (a8 m c) := by
  refine (W2_arr m ρ c 6).trans ((KDense.region0_neigh (V1 m ρ) c).trans ?_)
  show dense (W1 m ρ c (Proc.devRef .tc main_arg0)) (W1 m ρ c (Proc.devRef .tc main_arg7)) (row (W1 m ρ c (Proc.devRef .tc main_v1))) = _
  rw [KWalk.arg0_at1, KWalk.arg7_at1, v1_row]

/-- The first layer's pre-normalisation sum. -/
abbrev S0 : Mat 100000 64 := sumL (dense (a0 m c) (a5 m c) (a6 m c)) (SPk m c (dense (a0 m c) (a7 m c) (a8 m c))) (a9 m c)

/-- What the first reduction region sums, read off its entry contents, is the first layer's pre-normalisation sum. -/
theorem s0L : sumL (V3 m ρ c (Pipeline.arrRef spec1 0)) (V3 m ρ c (Pipeline.arrRef spec1 1))
    (fun j => V3 m ρ c (Pipeline.arrRef spec1 2) (ix2 0 (j 0))) = S0 m c := by
  show sumL (W3 m ρ c (Proc.devRef .tc main_v2_0)) (W3 m ρ c (Proc.devRef .tc main_v15)) (row (W3 m ρ c (Proc.devRef .tc main_v16))) = _
  rw [KWalk.v2_0_over, node0, v15_eq, neigh0, v16_row]

theorem s0 : (W4 m ρ c (Proc.devRef .tc main_v17_0) : Mat 100000 64) = S0 m c :=
  (W4_arr m ρ c 3).trans ((KReduce.region1_s (V3 m ρ) c).trans (s0L m ρ c))

theorem sum0 : (W4 m ρ c (Proc.devRef .tc main_v17_1) : (⟨2, ![1, 64]⟩ : Shape).Idx → EReal) = fun i => colsum (S0 m c) (ix1 (i 1)) :=
  (W4_arr m ρ c 4).trans ((KReduce.region1_sum (V3 m ρ) c).trans
    (congrArg (fun S : Mat 100000 64 => fun i : (⟨2, ![1, 64]⟩ : Shape).Idx => colsum S (ix1 (i 1))) (s0L m ρ c)))

theorem sumsq0 : (W4 m ρ c (Proc.devRef .tc main_v17_2) : (⟨2, ![1, 64]⟩ : Shape).Idx → EReal) = fun i => colsum (fun i => S0 m c i * S0 m c i) (ix1 (i 1)) :=
  (W4_arr m ρ c 5).trans ((KReduce.region1_sumsq (V3 m ρ) c).trans
    (congrArg (fun S : Mat 100000 64 => fun i : (⟨2, ![1, 64]⟩ : Shape).Idx => colsum (fun i => S i * S i) (ix1 (i 1))) (s0L m ρ c)))

/-- The first layer's output. -/
abbrev X1 : Mat 100000 64 := layerK (SPk m c) Nf epsf (a0 m c) (a5 m c) (a6 m c) (a7 m c) (a8 m c) (a9 m c) (a10 m c) (a11 m c)

theorem x1 : (W6 m ρ c (Proc.devRef .tc main_v28) : Mat 100000 64) = X1 m c := by
  refine (W6_arr m ρ c 5).trans ((KElem.region2_out (V5 m ρ) c).trans ?_)
  show normRelu epsf (row (W5 m ρ c (Proc.devRef .tc main_v19))) (row (W5 m ρ c (Proc.devRef .tc main_v25))) (row (W5 m ρ c (Proc.devRef .tc main_v26))) (row (W5 m ρ c (Proc.devRef .tc main_v27)))
      (W5 m ρ c (Proc.devRef .tc main_v17_0)) = _
  rw [v19_row m ρ c (S0 m c) (sum0 m ρ c), v25_row m ρ c (S0 m c) (sum0 m ρ c) (sumsq0 m ρ c), v26_row, v27_row,
    KWalk.v17_0_over, s0]
  rfl

/-! ## The second layer -/

theorem node1 : (W8 m ρ c (Proc.devRef .tc main_v32_0) : Mat 100000 64) = dense (X1 m c) (a12 m c) zrow := by
  refine (W8_arr m ρ c 5).trans ((KDense.region3_node (V7 m ρ) c).trans ?_)
  show dense (W7 m ρ c (Proc.devRef .tc main_v28)) (W7 m ρ c (Proc.devRef .tc main_arg12)) (row (W7 m ρ c (Proc.devRef .tc main_v30))) = _
  rw [KWalk.v28_over, x1, KWalk.arg12_at7, v30_row]

theorem neigh1 : (W8 m ρ c (Proc.devRef .tc main_v32_1) : Mat 100000 64) = dense (X1 m c) (a13 m c) zrow := by
  refine (W8_arr m ρ c 6).trans ((KDense.region3_neigh (V7 m ρ) c).trans ?_)
  show dense (W7 m ρ c (Proc.devRef .tc main_v28)) (W7 m ρ c (Proc.devRef .tc main_arg13)) (row (W7 m ρ c (Proc.devRef .tc main_v31))) = _
  rw [KWalk.v28_over, x1, KWalk.arg13_at7, v31_row]

/-- The second layer's pre-normalisation sum. -/
abbrev S1 : Mat 100000 64 := sumL (dense (X1 m c) (a12 m c) zrow) (SPk m c (dense (X1 m c) (a13 m c) zrow)) (a14 m c)

/-- What the second reduction region sums, read off its entry contents, is the second layer's pre-normalisation sum. -/
theorem s1L : sumL (V9 m ρ c (Pipeline.arrRef spec4 0)) (V9 m ρ c (Pipeline.arrRef spec4 1))
    (fun j => V9 m ρ c (Pipeline.arrRef spec4 2) (ix2 0 (j 0))) = S1 m c := by
  show sumL (W9 m ρ c (Proc.devRef .tc main_v32_0)) (W9 m ρ c (Proc.devRef .tc main_v45)) (row (W9 m ρ c (Proc.devRef .tc main_v46))) = _
  rw [KWalk.v32_0_over, node1, v45_eq, neigh1, v46_row]

theorem s1 : (W10 m ρ c (Proc.devRef .tc main_v47_0) : Mat 100000 64) = S1 m c :=
  (W10_arr m ρ c 3).trans ((KReduce.region4_s (V9 m ρ) c).trans (s1L m ρ c))

theorem sum1 : (W10 m ρ c (Proc.devRef .tc main_v47_1) : (⟨2, ![1, 64]⟩ : Shape).Idx → EReal) = fun i => colsum (S1 m c) (ix1 (i 1)) :=
  (W10_arr m ρ c 4).trans ((KReduce.region4_sum (V9 m ρ) c).trans
    (congrArg (fun S : Mat 100000 64 => fun i : (⟨2, ![1, 64]⟩ : Shape).Idx => colsum S (ix1 (i 1))) (s1L m ρ c)))

theorem sumsq1 : (W10 m ρ c (Proc.devRef .tc main_v47_2) : (⟨2, ![1, 64]⟩ : Shape).Idx → EReal) = fun i => colsum (fun i => S1 m c i * S1 m c i) (ix1 (i 1)) :=
  (W10_arr m ρ c 5).trans ((KReduce.region4_sumsq (V9 m ρ) c).trans
    (congrArg (fun S : Mat 100000 64 => fun i : (⟨2, ![1, 64]⟩ : Shape).Idx => colsum (fun i => S i * S i) (ix1 (i 1))) (s1L m ρ c)))

/-- The second layer's output. -/
abbrev X2 : Mat 100000 64 := layerK (SPk m c) Nf epsf (X1 m c) (a12 m c) zrow (a13 m c) zrow (a14 m c) (a15 m c) (a16 m c)

theorem x2 : (W12 m ρ c (Proc.devRef .tc main_v58) : Mat 100000 64) = X2 m c := by
  refine (W12_arr m ρ c 5).trans ((KElem.region5_out (V11 m ρ) c).trans ?_)
  show normRelu epsf (row (W11 m ρ c (Proc.devRef .tc main_v49))) (row (W11 m ρ c (Proc.devRef .tc main_v55))) (row (W11 m ρ c (Proc.devRef .tc main_v56))) (row (W11 m ρ c (Proc.devRef .tc main_v57)))
      (W11 m ρ c (Proc.devRef .tc main_v47_0)) = _
  rw [v49_row m ρ c (S1 m c) (sum1 m ρ c), v55_row m ρ c (S1 m c) (sum1 m ρ c) (sumsq1 m ρ c), v56_row, v57_row,
    KWalk.v47_0_over, s1]
  rfl

/-! ## The last layer and the selection -/

theorem nodeL : (W14 m ρ c (Proc.devRef .tc main_v62_0) : Mat 100000 32) = dense (X2 m c) (a17 m c) zrow := by
  refine (W14_arr m ρ c 5).trans ((KDense.region6_node (V13 m ρ) c).trans ?_)
  show dense (W13 m ρ c (Proc.devRef .tc main_v58)) (W13 m ρ c (Proc.devRef .tc main_arg17)) (row (W13 m ρ c (Proc.devRef .tc main_v60))) = _
  rw [KWalk.v58_over, x2, KWalk.arg17_at13, v60_row]

theorem neighL : (W14 m ρ c (Proc.devRef .tc main_v62_1) : Mat 100000 32) = dense (X2 m c) (a18 m c) zrow := by
  refine (W14_arr m ρ c 6).trans ((KDense.region6_neigh (V13 m ρ) c).trans ?_)
  show dense (W13 m ρ c (Proc.devRef .tc main_v58)) (W13 m ρ c (Proc.devRef .tc main_arg18)) (row (W13 m ρ c (Proc.devRef .tc main_v61))) = _
  rw [KWalk.v58_over, x2, KWalk.arg18_at13, v61_row]

theorem xfinal : (W16 m ρ c (Proc.devRef .tc main_v77) : Mat 100000 32)
    = sumL (dense (X2 m c) (a17 m c) zrow) (SPLk m c (dense (X2 m c) (a18 m c) zrow)) (a19 m c) := by
  refine (W16_arr m ρ c 3).trans ((KElem.region7_out (V15 m ρ) c).trans ?_)
  show sumL (W15 m ρ c (Proc.devRef .tc main_v62_0)) (W15 m ρ c (Proc.devRef .tc main_v75)) (row (W15 m ρ c (Proc.devRef .tc main_v76))) = _
  rw [KWalk.v62_0_over, nodeL, v75_eq, neighL, v76_row]

/-- The result buffer at the last boundary is the whole network in the kernel's arrangement. -/
theorem result : (W17 m ρ c (Proc.devRef .tc main_v84) : Mat 50000 32)
    = outK (SPk m c) (SPLk m c) (GAk m c) Nf epsf (a0 m c) (a5 m c) (a6 m c) (a7 m c) (a8 m c) (a9 m c) (a10 m c) (a11 m c)
        (a12 m c) (a13 m c) (a14 m c) (a15 m c) (a16 m c) (a17 m c) (a18 m c) (a19 m c) := by
  rw [v84_eq, xfinal]
  rfl

end Cert.KernelIdeal.KFold

end
-- ==== Proof.RefRun.lean ====
/-
  The reference program as a straight line of host operations, and what its run leaves in memory.

  The program's entry function calls three module-local functions (the column variance, a select between a
  vector and a splat, the clamp at zero); here each call is replaced by the callee's operations over the
  buffers that call names, so the whole program is one list of operations.  Running the list from any memory
  leaves every argument unchanged and the result buffer at `refTerm` of the arguments, a composition of a few
  named stages: a dense product with bias, the sparse aggregation (gather, scale, scatter-add), the column
  mean and variance, the normalisation and the clamp, and the final row gather.
-/
import proofs.«115488_j17910013624557_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of array values -/

/-- A row of 64 repeated along each of the 100000 rows. -/
def rowB64 (b : FVec F S64 .f32) : FVec F S100000x64 .f32 :=
  broadcastInDim S100000x64 ![0, 1] bcast_S1x64_S100000x64_0_1 (broadcastInDim S1x64 ![1] bcast_S64_S1x64_1 b)

/-- A row of 32 repeated along each of the 100000 rows. -/
def rowB32 (b : FVec F S32 .f32) : FVec F S100000x32 .f32 :=
  broadcastInDim S100000x32 ![0, 1] bcast_S1x32_S100000x32_0_1 (broadcastInDim S1x32 ![1] bcast_S32_S1x32_1 b)

/-- The matrix product of a 100000×128 matrix with a 128×64 one. -/
def mm128 (x : FVec F S100000x128 .f32) (W : FVec F S128x64 .f32) : FVec F S100000x64 .f32 :=
  Host.dotGeneral dot_S100000x128_S128x64_S100000x64_1_0_0_1_n_n none x W

/-- The matrix product of a 100000×64 matrix with a 64×64 one. -/
def mm64 (x : FVec F S100000x64 .f32) (W : FVec F S64x64 .f32) : FVec F S100000x64 .f32 :=
  Host.dotGeneral dot_S100000x64_S64x64_S100000x64_1_0_0_1_n_n none x W

/-- The matrix product of a 100000×64 matrix with a 64×32 one. -/
def mm32 (x : FVec F S100000x64 .f32) (W : FVec F S64x32 .f32) : FVec F S100000x32 .f32 :=
  Host.dotGeneral dot_S100000x64_S64x32_S100000x32_1_0_0_1_n_n none x W

/-- The product plus a bias along every row. -/
def dense128 (x : FVec F S100000x128 .f32) (W : FVec F S128x64 .f32) (b : FVec F S64 .f32) : FVec F S100000x64 .f32 :=
  addf (mm128 x W) (rowB64 b)

/-- The edge list's column indices as a gather reads them: a negative index counted from the end, then as an
    800000×1 table. -/
def normIdx (cols : IVec S800000 32) : IVec S800000x1 32 :=
  broadcastInDim S800000x1 ![0] bcast_S800000_S800000x1_0
    (select (cmpi .slt cols (broadcastInDim S800000 ![] bcast_S_S800000 (constantI S_ 32 0#32)))
      (addi cols (broadcastInDim S800000 ![] bcast_S_S800000 (constantI S_ 32 100000#32))) cols)

/-- The sparse aggregation at width 64: row `cols e` of `y` scaled by `vals e`, summed into row `rows e` of a zero
    matrix, over all edges `e`. -/
def SP64 (rows cols : IVec S800000 32) (vals : FVec F S800000 .f32) (y : FVec F S100000x64 .f32) : FVec F S100000x64 .f32 :=
  Host.scatterAdd scatter_S100000x64_S800000x1_S800000x64_1_0_0_1
    (broadcastInDim S100000x64 ![] bcast_S_S100000x64 (constant (F := F) S_ .f32 0x00000000#32))
    (broadcastInDim S800000x1 ![0] bcast_S800000_S800000x1_0 rows)
    (mulf (broadcastInDim S800000x64 ![0, 1] bcast_S800000x1_S800000x64_0_1 (broadcastInDim S800000x1 ![0] bcast_S800000_S800000x1_0 vals))
      (Host.gather gather_S100000x64_S800000x1_S800000x64_1_0_n_n_0_1_164 y (normIdx cols)))

/-- The sparse aggregation at width 32. -/
def SP32 (rows cols : IVec S800000 32) (vals : FVec F S800000 .f32) (y : FVec F S100000x32 .f32) : FVec F S100000x32 .f32 :=
  Host.scatterAdd scatter_S100000x32_S800000x1_S800000x32_1_0_0_1
    (broadcastInDim S100000x32 ![] bcast_S_S100000x32 (constant (F := F) S_ .f32 0x00000000#32))
    (broadcastInDim S800000x1 ![0] bcast_S800000_S800000x1_0 rows)
    (mulf (broadcastInDim S800000x32 ![0, 1] bcast_S800000x1_S800000x32_0_1 (broadcastInDim S800000x1 ![0] bcast_S800000_S800000x1_0 vals))
      (Host.gather gather_S100000x32_S800000x1_S800000x32_1_0_n_n_0_1_132 y (normIdx cols)))

/-- `node + (agg + ab)`, the bias `ab` along every row, at width 64. -/
def sumT64 (node agg : FVec F S100000x64 .f32) (ab : FVec F S64 .f32) : FVec F S100000x64 .f32 :=
  addf node (addf agg (rowB64 ab))

/-- `node + (agg + ab)` at width 32. -/
def sumT32 (node agg : FVec F S100000x32 .f32) (ab : FVec F S32 .f32) : FVec F S100000x32 .f32 :=
  addf node (addf agg (rowB32 ab))

/-- The sum of every column. -/
def colSum64 (s : FVec F S100000x64 .f32) : FVec F S64 .f32 :=
  Host.reduceAdd s (constant (F := F) S_ .f32 0x00000000#32) reducesTo_S100000x64_S64_d0 h_S_

/-- The mean of every column: its sum divided by the number of rows. -/
def meanT (s : FVec F S100000x64 .f32) : FVec F S64 .f32 :=
  Host.divf (colSum64 s) (broadcastInDim S64 ![] bcast_S_S64 (constant (F := F) S_ .f32 0x47C35000#32))

/-- Every entry less its column's mean (the mean formed as a 1×64 row here). -/
def devT (s : FVec F S100000x64 .f32) : FVec F S100000x64 .f32 :=
  subf s (broadcastInDim S100000x64 ![0, 1] bcast_S1x64_S100000x64_0_1
    (Host.divf (broadcastInDim S1x64 ![1] bcast_S64_S1x64_1 (colSum64 s))
      (broadcastInDim S1x64 ![] bcast_S_S1x64 (constant (F := F) S_ .f32 0x47C35000#32))))

/-- The divisor of the variance: the number of rows less the correction `c`. -/
def dofT (c : IVec S_ 32) : FVec F S_ .f32 :=
  subf (constant (F := F) S_ .f32 0x47C35000#32) (sitofp .f32 c)

/-- The variance of every column: the sum of the squared deviations over the divisor where the divisor is
    positive, not-a-number otherwise. -/
def varT (s : FVec F S100000x64 .f32) (c : IVec S_ 32) : FVec F S64 .f32 :=
  select (broadcastInDim S64 ![] bcast_S_S64 (cmpf .ogt (dofT (F := F) c) (constant (F := F) S_ .f32 0x00000000#32)))
    (Host.divf (colSum64 (mulf (devT s) (devT s))) (broadcastInDim S64 ![] bcast_S_S64 (dofT (F := F) c)))
    (broadcastInDim S64 ![] bcast_S_S64 (constant (F := F) S_ .f32 0x7FC00000#32))

/-- Normalise by a mean and a variance, scale and shift. -/
def normT (s : FVec F S100000x64 .f32) (mu var g b : FVec F S64 .f32) : FVec F S100000x64 .f32 :=
  addf (mulf (mulf (subf s (rowB64 mu))
      (rowB64 (Host.rsqrt (addf var (broadcastInDim S64 ![] bcast_S_S64 (constant (F := F) S_ .f32 0x3727C5AC#32))))))
    (rowB64 g)) (rowB64 b)

/-- The clamp at zero. -/
def reluT (y : FVec F S100000x64 .f32) : FVec F S100000x64 .f32 :=
  maximumf y (broadcastInDim S100000x64 ![] bcast_S_S100000x64 (constant (F := F) S_ .f32 0x00000000#32))

/-- A layer's output from its pre-normalisation sum: normalised by the sum's own column means and variances
    (no correction), scaled, shifted, clamped. -/
def layerT (s : FVec F S100000x64 .f32) (g b : FVec F S64 .f32) : FVec F S100000x64 .f32 :=
  reluT (normT s (meanT s) (varT s (constantI S_ 32 0#32)) g b)

/-- The final selection of rows: the indices read as a gather reads them (a negative one counted from the end). -/
def GA (idx : IVec S50000 32) (y : FVec F S100000x32 .f32) : FVec F S50000x32 .f32 :=
  Host.gather gather_S100000x32_S50000x1_S50000x32_1_0_n_n_0_1_132 y
    (broadcastInDim S50000x1 ![0] bcast_S50000_S50000x1_0
      (select (cmpi .slt idx (broadcastInDim S50000 ![] bcast_S_S50000 (constantI S_ 32 0#32)))
        (addi idx (broadcastInDim S50000 ![] bcast_S_S50000 (constantI S_ 32 100000#32))) idx))

/-- The first layer's pre-normalisation sum. -/
def s0T (a0 : FVec F S100000x128 .f32) (a1 a2 : IVec S800000 32) (a3 : FVec F S800000 .f32)
    (a5 : FVec F S128x64 .f32) (a6 : FVec F S64 .f32) (a7 : FVec F S128x64 .f32) (a8 a9 : FVec F S64 .f32) : FVec F S100000x64 .f32 :=
  sumT64 (dense128 a0 a5 a6) (SP64 a1 a2 a3 (dense128 a0 a7 a8)) a9

/-- The second layer's pre-normalisation sum, from the first layer's output. -/
def s1T (x1 : FVec F S100000x64 .f32) (a1 a2 : IVec S800000 32) (a3 : FVec F S800000 .f32)
    (a12 a13 : FVec F S64x64 .f32) (a14 : FVec F S64 .f32) : FVec F S100000x64 .f32 :=
  sumT64 (mm64 x1 a12) (SP64 a1 a2 a3 (mm64 x1 a13)) a14

/-- The last layer and the row selection, from the second layer's output. -/
def outT (x2 : FVec F S100000x64 .f32) (a1 a2 : IVec S800000 32) (a3 : FVec F S800000 .f32) (a4 : IVec S50000 32)
    (a17 a18 : FVec F S64x32 .f32) (a19 : FVec F S32 .f32) : FVec F S50000x32 .f32 :=
  GA a4 (sumT32 (mm32 x2 a17) (SP32 a1 a2 a3 (mm32 x2 a18)) a19)

/-- The whole program as one function of its twenty arguments. -/
def refTerm (a0 : FVec F S100000x128 .f32) (a1 a2 : IVec S800000 32) (a3 : FVec F S800000 .f32) (a4 : IVec S50000 32)
    (a5 : FVec F S128x64 .f32) (a6 : FVec F S64 .f32) (a7 : FVec F S128x64 .f32) (a8 a9 a10 a11 : FVec F S64 .f32)
    (a12 a13 : FVec F S64x64 .f32) (a14 a15 a16 : FVec F S64 .f32) (a17 a18 : FVec F S64x32 .f32) (a19 : FVec F S32 .f32) :
    FVec F S50000x32 .f32 :=
  outT (layerT (s1T (layerT (s0T a0 a1 a2 a3 a5 a6 a7 a8 a9) a10 a11) a1 a2 a3 a12 a13 a14) a15 a16) a1 a2 a3 a4 a17 a18 a19

/-! ## The program as a list of operations -/

/-- The entry function's operations in order, each call replaced by the callee's operations over that call's
    buffers: the variance is twenty-two (its own nineteen, then the select's three), the clamp three. -/
abbrev ops : List (HloOp τ sig (Elt F)) :=
  [
    binary main_arg0 main_arg5 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg6 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)),
    binary main_arg0 main_arg7 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    unary main_arg3 main_v8 (broadcastInDim S800000x1 ![0] bcast_S800000_S800000x1_0 : (⟨S800000, .f32⟩ : BufTy).Contents (Elt F) → (⟨S800000x1, .f32⟩ : BufTy).Contents (Elt F)),
    nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_arg2 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v11 (broadcastInDim S800000 ![] bcast_S_S800000 : (⟨S_, .i32⟩ : BufTy).Contents (Elt F) → (⟨S800000, .i32⟩ : BufTy).Contents (Elt F)),
    binary main_arg2 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_arg2 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v7 main_v14 main_v15 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v8 main_v16 (broadcastInDim S800000x64 ![0, 1] bcast_S800000x1_S800000x64_0_1 : (⟨S800000x1, .f32⟩ : BufTy).Contents (Elt F) → (⟨S800000x64, .f32⟩ : BufTy).Contents (Elt F)),
    binary main_v16 main_v15 main_v17 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v18 (broadcastInDim S100000x64 ![] bcast_S_S100000x64 : (⟨S_, .f32⟩ : BufTy).Contents (Elt F) → (⟨S100000x64, .f32⟩ : BufTy).Contents (Elt F)),
    unary main_arg1 main_v19 (broadcastInDim S800000x1 ![0] bcast_S800000_S800000x1_0 : (⟨S800000, .i32⟩ : BufTy).Contents (Elt F) → (⟨S800000x1, .i32⟩ : BufTy).Contents (Elt F)),
    ternary main_v18 main_v19 main_v17 main_v20 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_arg9 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)),
    binary main_v3 main_v23 main_v24 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v24 main_cst_1 main_v25 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v26 (broadcastInDim S64 ![] bcast_S_S64 : (⟨S_, .f32⟩ : BufTy).Contents (Elt F) → (⟨S64, .f32⟩ : BufTy).Contents (Elt F)),
    binary main_v25 main_v26 main_v27 (Host.divf : (⟨S64, .f32⟩ : BufTy).Contents (Elt F) → (⟨S64, .f32⟩ : BufTy).Contents (Elt F) → (⟨S64, .f32⟩ : BufTy).Contents (Elt F)),
    nullary main_c_3 (constantI S_ 32 0#32),
    TRef.nullary main_call0.cst (constant S_ .f32 0x00000000#32),
    TRef.binary (.of main_v24 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v24 : TRef sig ⟨S100000x64, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v27 main_v29 (broadcastInDim S1x64 ![1] bcast_S64_S1x64_1 : (⟨S64, .f32⟩ : BufTy).Contents (Elt F) → (⟨S1x64, .f32⟩ : BufTy).Contents (Elt F)),
    unary main_v29 main_v30 (broadcastInDim S100000x64 ![0, 1] bcast_S1x64_S100000x64_0_1 : (⟨S1x64, .f32⟩ : BufTy).Contents (Elt F) → (⟨S100000x64, .f32⟩ : BufTy).Contents (Elt F)),
    binary main_v24 main_v30 main_v31 (subf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x3727C5AC#32),
    unary main_cst_4 main_v32 (broadcastInDim S64 ![] bcast_S_S64 : (⟨S_, .f32⟩ : BufTy).Contents (Elt F) → (⟨S64, .f32⟩ : BufTy).Contents (Elt F)),
    binary main_v28 main_v32 main_v33 (addf : (⟨S64, .f32⟩ : BufTy).Contents (Elt F) → (⟨S64, .f32⟩ : BufTy).Contents (Elt F) → (⟨S64, .f32⟩ : BufTy).Contents (Elt F)),
    unary main_v33 main_v34 (Host.rsqrt : (⟨S64, .f32⟩ : BufTy).Contents (Elt F) → (⟨S64, .f32⟩ : BufTy).Contents (Elt F)),
    unary main_v34 main_v35 (broadcastInDim S1x64 ![1] bcast_S64_S1x64_1 : (⟨S64, .f32⟩ : BufTy).Contents (Elt F) → (⟨S1x64, .f32⟩ : BufTy).Contents (Elt F)),
    unary main_v35 main_v36 (broadcastInDim S100000x64 ![0, 1] bcast_S1x64_S100000x64_0_1 : (⟨S1x64, .f32⟩ : BufTy).Contents (Elt F) → (⟨S100000x64, .f32⟩ : BufTy).Contents (Elt F)),
    binary main_v31 main_v36 main_v37 (mulf : (⟨S100000x64, .f32⟩ : BufTy).Contents (Elt F) → (⟨S100000x64, .f32⟩ : BufTy).Contents (Elt F) → (⟨S100000x64, .f32⟩ : BufTy).Contents (Elt F)),
    unary main_arg10 main_v38 (broadcastInDim S1x64 ![1] bcast_S64_S1x64_1 : (⟨S64, .f32⟩ : BufTy).Contents (Elt F) → (⟨S1x64, .f32⟩ : BufTy).Contents (Elt F)),
    unary main_v38 main_v39 (broadcastInDim S100000x64 ![0, 1] bcast_S1x64_S100000x64_0_1 : (⟨S1x64, .f32⟩ : BufTy).Contents (Elt F) → (⟨S100000x64, .f32⟩ : BufTy).Contents (Elt F)),
    binary main_v37 main_v39 main_v40 (mulf : (⟨S100000x64, .f32⟩ : BufTy).Contents (Elt F) → (⟨S100000x64, .f32⟩ : BufTy).Contents (Elt F) → (⟨S100000x64, .f32⟩ : BufTy).Contents (Elt F)),
    unary main_arg11 main_v41 (broadcastInDim S1x64 ![1] bcast_S64_S1x64_1 : (⟨S64, .f32⟩ : BufTy).Contents (Elt F) → (⟨S1x64, .f32⟩ : BufTy).Contents (Elt F)),
    unary main_v41 main_v42 (broadcastInDim S100000x64 ![0, 1] bcast_S1x64_S100000x64_0_1 : (⟨S1x64, .f32⟩ : BufTy).Contents (Elt F) → (⟨S100000x64, .f32⟩ : BufTy).Contents (Elt F)),
    binary main_v40 main_v42 main_v43 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v43 : TRef sig ⟨S100000x64, .f32⟩) main_call1.v0 main_call1.v1 maximumf,
    binary main_v44 main_arg12 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v44 main_arg13 main_v46 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v47 (broadcastInDim S800000x1 ![0] bcast_S800000_S800000x1_0 : (⟨S800000, .f32⟩ : BufTy).Contents (Elt F) → (⟨S800000x1, .f32⟩ : BufTy).Contents (Elt F)),
    nullary main_c_5 (constantI S_ 32 0#32),
    unary main_c_5 main_v48 (broadcastInDim S800000 ![] bcast_S_S800000 : (⟨S_, .i32⟩ : BufTy).Contents (Elt F) → (⟨S800000, .i32⟩ : BufTy).Contents (Elt F)),
    binary main_arg2 main_v48 main_v49 (cmpi .slt : (⟨S800000, .i32⟩ : BufTy).Contents (Elt F) → (⟨S800000, .i32⟩ : BufTy).Contents (Elt F) → (⟨S800000, .i1⟩ : BufTy).Contents (Elt F)),
    nullary main_c_6 (constantI S_ 32 100000#32),
    unary main_c_6 main_v50 (broadcastInDim S800000 ![] bcast_S_S800000 : (⟨S_, .i32⟩ : BufTy).Contents (Elt F) → (⟨S800000, .i32⟩ : BufTy).Contents (Elt F)),
    binary main_arg2 main_v50 main_v51 (addi : (⟨S800000, .i32⟩ : BufTy).Contents (Elt F) → (⟨S800000, .i32⟩ : BufTy).Contents (Elt F) → (⟨S800000, .i32⟩ : BufTy).Contents (Elt F)),
    ternary main_v49 main_v51 main_arg2 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v52 main_v53 (broadcastInDim S800000x1 ![0] bcast_S800000_S800000x1_0 : (⟨S800000, .i32⟩ : BufTy).Contents (Elt F) → (⟨S800000x1, .i32⟩ : BufTy).Contents (Elt F)),
    binary main_v46 main_v53 main_v54 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    unary main_v47 main_v55 (broadcastInDim S800000x64 ![0, 1] bcast_S800000x1_S800000x64_0_1 : (⟨S800000x1, .f32⟩ : BufTy).Contents (Elt F) → (⟨S800000x64, .f32⟩ : BufTy).Contents (Elt F)),
    binary main_v55 main_v54 main_v56 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v57 (broadcastInDim S100000x64 ![] bcast_S_S100000x64 : (⟨S_, .f32⟩ : BufTy).Contents (Elt F) → (⟨S100000x64, .f32⟩ : BufTy).Contents (Elt F)),
    unary main_arg1 main_v58 (broadcastInDim S800000x1 ![0] bcast_S800000_S800000x1_0 : (⟨S800000, .i32⟩ : BufTy).Contents (Elt F) → (⟨S800000x1, .i32⟩ : BufTy).Contents (Elt F)),
    ternary main_v57 main_v58 main_v56 main_v59 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    unary main_arg14 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)),
    binary main_v45 main_v62 main_v63 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v63 main_cst_8 main_v64 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v65 (broadcastInDim S64 ![] bcast_S_S64 : (⟨S_, .f32⟩ : BufTy).Contents (Elt F) → (⟨S64, .f32⟩ : BufTy).Contents (Elt F)),
    binary main_v64 main_v65 main_v66 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call2.cst (constant S_ .f32 0x00000000#32),
    TRef.binary (.of main_v63 : TRef sig ⟨S100000x64, .f32⟩) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v63 : TRef sig ⟨S100000x64, .f32⟩) main_call2.v4 main_call2.v5 subf,
    TRef.binary main_call2.v5 main_call2.v5 main_call2.v6 mulf,
    TRef.unary (.of main_c_10 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v66 main_v68 (broadcastInDim S1x64 ![1] bcast_S64_S1x64_1 : (⟨S64, .f32⟩ : BufTy).Contents (Elt F) → (⟨S1x64, .f32⟩ : BufTy).Contents (Elt F)),
    unary main_v68 main_v69 (broadcastInDim S100000x64 ![0, 1] bcast_S1x64_S100000x64_0_1 : (⟨S1x64, .f32⟩ : BufTy).Contents (Elt F) → (⟨S100000x64, .f32⟩ : BufTy).Contents (Elt F)),
    binary main_v63 main_v69 main_v70 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v71 (broadcastInDim S64 ![] bcast_S_S64 : (⟨S_, .f32⟩ : BufTy).Contents (Elt F) → (⟨S64, .f32⟩ : BufTy).Contents (Elt F)),
    binary main_v67 main_v71 main_v72 (addf : (⟨S64, .f32⟩ : BufTy).Contents (Elt F) → (⟨S64, .f32⟩ : BufTy).Contents (Elt F) → (⟨S64, .f32⟩ : BufTy).Contents (Elt F)),
    unary main_v72 main_v73 (Host.rsqrt : (⟨S64, .f32⟩ : BufTy).Contents (Elt F) → (⟨S64, .f32⟩ : BufTy).Contents (Elt F)),
    unary main_v73 main_v74 (broadcastInDim S1x64 ![1] bcast_S64_S1x64_1 : (⟨S64, .f32⟩ : BufTy).Contents (Elt F) → (⟨S1x64, .f32⟩ : BufTy).Contents (Elt F)),
    unary main_v74 main_v75 (broadcastInDim S100000x64 ![0, 1] bcast_S1x64_S100000x64_0_1 : (⟨S1x64, .f32⟩ : BufTy).Contents (Elt F) → (⟨S100000x64, .f32⟩ : BufTy).Contents (Elt F)),
    binary main_v70 main_v75 main_v76 (mulf : (⟨S100000x64, .f32⟩ : BufTy).Contents (Elt F) → (⟨S100000x64, .f32⟩ : BufTy).Contents (Elt F) → (⟨S100000x64, .f32⟩ : BufTy).Contents (Elt F)),
    unary main_arg15 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v76 main_v78 main_v79 (mulf : (⟨S100000x64, .f32⟩ : BufTy).Contents (Elt F) → (⟨S100000x64, .f32⟩ : BufTy).Contents (Elt F) → (⟨S100000x64, .f32⟩ : BufTy).Contents (Elt F)),
    unary main_arg16 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v82 : TRef sig ⟨S100000x64, .f32⟩) main_call3.v0 main_call3.v1 maximumf,
    binary main_v83 main_arg17 main_v84 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    binary main_v83 main_arg18 main_v85 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg3 main_v86 (broadcastInDim S800000x1 ![0] bcast_S800000_S800000x1_0 : (⟨S800000, .f32⟩ : BufTy).Contents (Elt F) → (⟨S800000x1, .f32⟩ : BufTy).Contents (Elt F)),
    nullary main_c_12 (constantI S_ 32 0#32),
    unary main_c_12 main_v87 (broadcastInDim S800000 ![] bcast_S_S800000 : (⟨S_, .i32⟩ : BufTy).Contents (Elt F) → (⟨S800000, .i32⟩ : BufTy).Contents (Elt F)),
    binary main_arg2 main_v87 main_v88 (cmpi .slt : (⟨S800000, .i32⟩ : BufTy).Contents (Elt F) → (⟨S800000, .i32⟩ : BufTy).Contents (Elt F) → (⟨S800000, .i1⟩ : BufTy).Contents (Elt F)),
    nullary main_c_13 (constantI S_ 32 100000#32),
    unary main_c_13 main_v89 (broadcastInDim S800000 ![] bcast_S_S800000 : (⟨S_, .i32⟩ : BufTy).Contents (Elt F) → (⟨S800000, .i32⟩ : BufTy).Contents (Elt F)),
    binary main_arg2 main_v89 main_v90 (addi : (⟨S800000, .i32⟩ : BufTy).Contents (Elt F) → (⟨S800000, .i32⟩ : BufTy).Contents (Elt F) → (⟨S800000, .i32⟩ : BufTy).Contents (Elt F)),
    ternary main_v88 main_v90 main_arg2 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v91 main_v92 (broadcastInDim S800000x1 ![0] bcast_S800000_S800000x1_0 : (⟨S800000, .i32⟩ : BufTy).Contents (Elt F) → (⟨S800000x1, .i32⟩ : BufTy).Contents (Elt F)),
    binary main_v85 main_v92 main_v93 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    unary main_v86 main_v94 (broadcastInDim S800000x32 ![0, 1] bcast_S800000x1_S800000x32_0_1 : (⟨S800000x1, .f32⟩ : BufTy).Contents (Elt F) → (⟨S800000x32, .f32⟩ : BufTy).Contents (Elt F)),
    binary main_v94 main_v93 main_v95 (mulf : (⟨S800000x32, .f32⟩ : BufTy).Contents (Elt F) → (⟨S800000x32, .f32⟩ : BufTy).Contents (Elt F) → (⟨S800000x32, .f32⟩ : BufTy).Contents (Elt F)),
    nullary main_cst_14 (constant S_ .f32 0x00000000#32),
    unary main_cst_14 main_v96 (broadcastInDim S100000x32 ![] bcast_S_S100000x32 : (⟨S_, .f32⟩ : BufTy).Contents (Elt F) → (⟨S100000x32, .f32⟩ : BufTy).Contents (Elt F)),
    unary main_arg1 main_v97 (broadcastInDim S800000x1 ![0] bcast_S800000_S800000x1_0 : (⟨S800000, .i32⟩ : BufTy).Contents (Elt F) → (⟨S800000x1, .i32⟩ : BufTy).Contents (Elt F)),
    ternary main_v96 main_v97 main_v95 main_v98 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    unary main_arg19 main_v99 (broadcastInDim S1x32 ![1] bcast_S32_S1x32_1 : (⟨S32, .f32⟩ : BufTy).Contents (Elt F) → (⟨S1x32, .f32⟩ : BufTy).Contents (Elt F)),
    unary main_v99 main_v100 (broadcastInDim S100000x32 ![0, 1] bcast_S1x32_S100000x32_0_1 : (⟨S1x32, .f32⟩ : BufTy).Contents (Elt F) → (⟨S100000x32, .f32⟩ : BufTy).Contents (Elt F)),
    binary main_v98 main_v100 main_v101 (addf : (⟨S100000x32, .f32⟩ : BufTy).Contents (Elt F) → (⟨S100000x32, .f32⟩ : BufTy).Contents (Elt F) → (⟨S100000x32, .f32⟩ : BufTy).Contents (Elt F)),
    binary main_v84 main_v101 main_v102 (addf : (⟨S100000x32, .f32⟩ : BufTy).Contents (Elt F) → (⟨S100000x32, .f32⟩ : BufTy).Contents (Elt F) → (⟨S100000x32, .f32⟩ : BufTy).Contents (Elt F)),
    nullary main_c_15 (constantI S_ 32 0#32),
    unary main_c_15 main_v103 (broadcastInDim S50000 ![] bcast_S_S50000 : (⟨S_, .i32⟩ : BufTy).Contents (Elt F) → (⟨S50000, .i32⟩ : BufTy).Contents (Elt F)),
    binary main_arg4 main_v103 main_v104 (cmpi .slt : (⟨S50000, .i32⟩ : BufTy).Contents (Elt F) → (⟨S50000, .i32⟩ : BufTy).Contents (Elt F) → (⟨S50000, .i1⟩ : BufTy).Contents (Elt F)),
    nullary main_c_16 (constantI S_ 32 100000#32),
    unary main_c_16 main_v105 (broadcastInDim S50000 ![] bcast_S_S50000 : (⟨S_, .i32⟩ : BufTy).Contents (Elt F) → (⟨S50000, .i32⟩ : BufTy).Contents (Elt F)),
    binary main_arg4 main_v105 main_v106 (addi : (⟨S50000, .i32⟩ : BufTy).Contents (Elt F) → (⟨S50000, .i32⟩ : BufTy).Contents (Elt F) → (⟨S50000, .i32⟩ : BufTy).Contents (Elt F)),
    ternary main_v104 main_v106 main_arg4 main_v107 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v107 main_v108 (broadcastInDim S50000x1 ![0] bcast_S50000_S50000x1_0 : (⟨S50000, .i32⟩ : BufTy).Contents (Elt F) → (⟨S50000x1, .i32⟩ : BufTy).Contents (Elt F)),
    binary main_v102 main_v108 main_v109 ((fun x i => Host.gather gather_S100000x32_S50000x1_S50000x32_1_0_n_n_0_1_132 x i) : (⟨S100000x32, .f32⟩ : BufTy).Contents (Elt F) → (⟨S50000x1, .i32⟩ : BufTy).Contents (Elt F) → (⟨S50000x32, .f32⟩ : BufTy).Contents (Elt F)) ]

set_option maxRecDepth 100000 in
set_option maxHeartbeats 4000000 in
/-- The entry function is that straight line: the three windows and the called functions unfolded, the
    sequencing reassociated. -/
theorem main_eq (c : Dev nD) : main (F := F) c = seq ops := by
  simp only [main, main_part0, main_part1, main_part2, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 100000 in
theorem ops_sub : (ops : List (HloOp τ sig (Elt F))).Forall fun op => op.bufs ⊆ tcRefs τ sig :=
  ⟨
    binary_bufs_sub .., unary_bufs_sub .., unary_bufs_sub .., binary_bufs_sub .., binary_bufs_sub .., unary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub ..⟩

/-! ## What the operations leave in each buffer -/

attribute [local irreducible] Host.gather Host.scatterAdd Host.reduceAdd in
set_option maxRecDepth 100000 in
set_option maxHeartbeats 40000000 in
/-- The fold of the operations at the result buffer is `refTerm` of the arguments' contents: each operation's
    result at its own buffer is its function of its operands' contents, and at any other buffer what was there. -/
theorem out_eq (V : Valuation τ sig (Elt F)) :
    after ops V (Proc.devRef .tc main_v109) = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  after_results_simp
  rfl

/-! No operation writes an argument's buffer: each keeps its contents. -/

set_option maxRecDepth 100000
set_option maxHeartbeats 4000000

theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

theorem arg2_eq (V : Valuation τ sig (Elt F)) :
    after ops V (Proc.devRef .tc main_arg2) = V (Proc.devRef .tc main_arg2) := by
  after_results_simp

theorem arg3_eq (V : Valuation τ sig (Elt F)) :
    after ops V (Proc.devRef .tc main_arg3) = V (Proc.devRef .tc main_arg3) := by
  after_results_simp

theorem arg4_eq (V : Valuation τ sig (Elt F)) :
    after ops V (Proc.devRef .tc main_arg4) = V (Proc.devRef .tc main_arg4) := by
  after_results_simp

theorem arg5_eq (V : Valuation τ sig (Elt F)) :
    after ops V (Proc.devRef .tc main_arg5) = V (Proc.devRef .tc main_arg5) := by
  after_results_simp

theorem arg6_eq (V : Valuation τ sig (Elt F)) :
    after ops V (Proc.devRef .tc main_arg6) = V (Proc.devRef .tc main_arg6) := by
  after_results_simp

theorem arg7_eq (V : Valuation τ sig (Elt F)) :
    after ops V (Proc.devRef .tc main_arg7) = V (Proc.devRef .tc main_arg7) := by
  after_results_simp

theorem arg8_eq (V : Valuation τ sig (Elt F)) :
    after ops V (Proc.devRef .tc main_arg8) = V (Proc.devRef .tc main_arg8) := by
  after_results_simp

theorem arg9_eq (V : Valuation τ sig (Elt F)) :
    after ops V (Proc.devRef .tc main_arg9) = V (Proc.devRef .tc main_arg9) := by
  after_results_simp

theorem arg10_eq (V : Valuation τ sig (Elt F)) :
    after ops V (Proc.devRef .tc main_arg10) = V (Proc.devRef .tc main_arg10) := by
  after_results_simp

theorem arg11_eq (V : Valuation τ sig (Elt F)) :
    after ops V (Proc.devRef .tc main_arg11) = V (Proc.devRef .tc main_arg11) := by
  after_results_simp

theorem arg12_eq (V : Valuation τ sig (Elt F)) :
    after ops V (Proc.devRef .tc main_arg12) = V (Proc.devRef .tc main_arg12) := by
  after_results_simp

theorem arg13_eq (V : Valuation τ sig (Elt F)) :
    after ops V (Proc.devRef .tc main_arg13) = V (Proc.devRef .tc main_arg13) := by
  after_results_simp

theorem arg14_eq (V : Valuation τ sig (Elt F)) :
    after ops V (Proc.devRef .tc main_arg14) = V (Proc.devRef .tc main_arg14) := by
  after_results_simp

theorem arg15_eq (V : Valuation τ sig (Elt F)) :
    after ops V (Proc.devRef .tc main_arg15) = V (Proc.devRef .tc main_arg15) := by
  after_results_simp

theorem arg16_eq (V : Valuation τ sig (Elt F)) :
    after ops V (Proc.devRef .tc main_arg16) = V (Proc.devRef .tc main_arg16) := by
  after_results_simp

theorem arg17_eq (V : Valuation τ sig (Elt F)) :
    after ops V (Proc.devRef .tc main_arg17) = V (Proc.devRef .tc main_arg17) := by
  after_results_simp

theorem arg18_eq (V : Valuation τ sig (Elt F)) :
    after ops V (Proc.devRef .tc main_arg18) = V (Proc.devRef .tc main_arg18) := by
  after_results_simp

theorem arg19_eq (V : Valuation τ sig (Elt F)) :
    after ops V (Proc.devRef .tc main_arg19) = V (Proc.devRef .tc main_arg19) := by
  after_results_simp

/-! ## The run -/

/-- On every device, for any float values, from any memory with zero counters: every weakly fair execution of the
    entry function terminates with the result buffer at `refTerm` of the arguments' launch contents and every
    argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v109) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c main_v109).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _)⟩)
    (run_seq scopedRefs_eq scopedSems_eq defs main (fun _ => ops) main_eq (fun _ => ops_sub) m ρ)

end Cert.ReferenceIdeal.RefRun

end
-- ==== Proof.SpecConsts.lean ====
/-
  The two float constants of the normalisation, as the real numbers their bit patterns denote:
  the row count `100000` and the positive `eps` added to the variance.
-/
import Idealize.ShloMosaic.PureOps.Ideal

noncomputable section

namespace Cert.Spec

open Idealize.ShloMosaic

/-- The pattern `0x47C35000` has exponent field `143` and fraction `4411392`:
    `(2^23 + 4411392) · 2^(143 - 127 - 23) = 12800000 / 128 = 100000`. -/
theorem n_real : Ideal.ofBits .f32 0x47C35000#32 = ((100000 : ℝ) : EReal) := by
  simp [Ideal.ofBits, Ideal.ieee, -EReal.coe_mul]; norm_num

/-- The pattern `0x3727C5AC` has exponent field `110` and fraction `2606508`:
    `(2^23 + 2606508) · 2^(110 - 127 - 23) = 10995116 · 2^(-40)`, a positive real. -/
theorem eps_val : Ideal.ofBits .f32 0x3727C5AC#32 = ((10995116 * (2 : ℝ) ^ (-40 : Int) : ℝ) : EReal) := by
  simp [Ideal.ofBits, Ideal.ieee, -EReal.coe_mul]

theorem eps_pos : ∃ ε : ℝ, 0 < ε ∧ Ideal.ofBits .f32 0x3727C5AC#32 = (ε : EReal) :=
  ⟨_, by positivity, eps_val⟩

end Cert.Spec

end
-- ==== Proof.RefValue.lean ====
/-
  The reference's composed term is the specification in its second arrangement.

  Each stage of the run's term is read at an index, at the ideal values: a host product is the sum over the
  contracted coordinate of the entries' products, a host sum over the row axis from the initial value zero is the
  sum of the column, a row laid down every row of a matrix reads the row at the entry's column, a scalar
  broadcast reads the scalar.  The variance's divisor is the row count less the conversion of the integer zero,
  that is the row count, a positive real, so the comparison holds and the select takes the quotient: the
  variance is the mean of the squared deviations.  The sparse aggregation and the final row gather are kept as
  the functions they are.
-/
import proofs.«115488_j17910013624557_2_alg».proof.Proof.RefRun
import proofs.«115488_j17910013624557_2_alg».proof.Proof.Spec
import proofs.«115488_j17910013624557_2_alg».proof.Proof.SpecConsts
import Idealize.ShloMosaic.PureOps.Ideal.Laws
import Idealize.ShloMosaic.Lib.ValueIdx
import Idealize.ShloMosaic.Lib.IdealHost
import Idealize.ShloMosaic.Lib.StackMember

noncomputable section

/-! ## Reading the stages at an index, at the ideal values -/

namespace Cert.ReferenceIdeal.RefValue

open Cert.ReferenceIdeal Cert.ReferenceIdeal.Gen Cert.ReferenceIdeal.RefRun Cert.Spec
open Idealize.ShloMosaic Idealize.ShloMosaic.ValueIdx
open scoped BigOperators

/-- The row count as the programs' float constant. -/
abbrev Nc : EReal := Ideal.ofBits .f32 0x47C35000#32
/-- The constant added to the variance. -/
abbrev epsc : EReal := Ideal.ofBits .f32 0x3727C5AC#32

/-- A scalar constant broadcast to any shape reads the constant's value everywhere. -/
theorem bc0_apply {T : Shape} (h : S_.BroadcastsInDim T ![]) (w : BitVec 32) (j : T.Idx) :
    broadcastInDim T ![] h (constant (F := Ideal) S_ .f32 w) j = Ideal.ofBits .f32 w := by
  rw [broadcastInDim_scalar_apply]; rfl

/-- A vector of 64 laid out as the one row of a 1×64 matrix, read at column `c`. -/
theorem row1_64_apply {α : Type} (b : S64.Idx → α) (c : Fin 64) :
    broadcastInDim S1x64 ![1] bcast_S64_S1x64_1 b (ix2 (0 : Fin 1) c) = b (ix1 c) := by
  refine broadcastInDim_apply ![1] bcast_S64_S1x64_1 b (ix2 (0 : Fin 1) c) (ix1 c) ?_
  intro (a : Fin 1)
  match a with
  | ⟨0, _⟩ => rfl

/-- A vector of 32 laid out as the one row of a 1×32 matrix, read at column `c`. -/
theorem row1_32_apply {α : Type} (b : S32.Idx → α) (c : Fin 32) :
    broadcastInDim S1x32 ![1] bcast_S32_S1x32_1 b (ix2 (0 : Fin 1) c) = b (ix1 c) := by
  refine broadcastInDim_apply ![1] bcast_S32_S1x32_1 b (ix2 (0 : Fin 1) c) (ix1 c) ?_
  intro (a : Fin 1)
  match a with
  | ⟨0, _⟩ => rfl

/-- A row of 64 repeated down the rows reads, at any entry, the row at that entry's column. -/
theorem rowB64_eq (b : FVec Ideal S64 .f32) : rowB64 b = fun i => b (ix1 (i 1)) := by
  funext i
  obtain ⟨r, c, rfl⟩ : ∃ (r : Fin 100000) (c : Fin 64), i = ix2 r c := ⟨i 0, i 1, eq_ix2 i⟩
  unfold rowB64
  refine (broadcastInDim_oneRow_apply bcast_S1x64_S100000x64_0_1 _ r c).trans ?_
  exact row1_64_apply b c

/-- A row of 32 repeated down the rows reads, at any entry, the row at that entry's column. -/
theorem rowB32_eq (b : FVec Ideal S32 .f32) : rowB32 b = fun i => b (ix1 (i 1)) := by
  funext i
  obtain ⟨r, c, rfl⟩ : ∃ (r : Fin 100000) (c : Fin 32), i = ix2 r c := ⟨i 0, i 1, eq_ix2 i⟩
  unfold rowB32
  refine (broadcastInDim_oneRow_apply bcast_S1x32_S100000x32_0_1 _ r c).trans ?_
  exact row1_32_apply b c

/-- The three products are the specification's matrix product. -/
theorem mm128_eq (x : FVec Ideal S100000x128 .f32) (W : FVec Ideal S128x64 .f32) : mm128 x W = Spec.mm x W := by
  funext i
  obtain ⟨a, b, rfl⟩ : ∃ (a : Fin 100000) (b : Fin 64), i = ix2 a b := ⟨i 0, i 1, eq_ix2 i⟩
  exact StackMember.dotGeneral_plain_apply none x W a b

theorem mm64_eq (x : FVec Ideal S100000x64 .f32) (W : FVec Ideal S64x64 .f32) : mm64 x W = Spec.mm x W := by
  funext i
  obtain ⟨a, b, rfl⟩ : ∃ (a : Fin 100000) (b : Fin 64), i = ix2 a b := ⟨i 0, i 1, eq_ix2 i⟩
  exact StackMember.dotGeneral_plain_apply none x W a b

theorem mm32_eq (x : FVec Ideal S100000x64 .f32) (W : FVec Ideal S64x32 .f32) : mm32 x W = Spec.mm x W := by
  funext i
  obtain ⟨a, b, rfl⟩ : ∃ (a : Fin 100000) (b : Fin 32), i = ix2 a b := ⟨i 0, i 1, eq_ix2 i⟩
  exact StackMember.dotGeneral_plain_apply none x W a b

/-- The product with its bias is the specification's dense layer. -/
theorem dense128_eq (x : FVec Ideal S100000x128 .f32) (W : FVec Ideal S128x64 .f32) (b : FVec Ideal S64 .f32) :
    dense128 x W b = Spec.dense x W b := by
  unfold dense128 Spec.dense
  rw [mm128_eq, rowB64_eq]
  rfl

/-- The right-associated sums. -/
theorem sumT64_eq (node agg : FVec Ideal S100000x64 .f32) (ab : FVec Ideal S64 .f32) :
    sumT64 node agg ab = Spec.sumR node agg ab := by
  unfold sumT64 Spec.sumR
  rw [rowB64_eq]
  rfl

theorem sumT32_eq (node agg : FVec Ideal S100000x32 .f32) (ab : FVec Ideal S32 .f32) :
    sumT32 node agg ab = Spec.sumR node agg ab := by
  unfold sumT32 Spec.sumR
  rw [rowB32_eq]
  rfl

/-- The column sums: the host's sum over the row axis from the initial value zero. -/
theorem colSum64_eq (s : FVec Ideal S100000x64 .f32) : colSum64 s = Spec.colsum s := by
  funext j
  obtain ⟨c, rfl⟩ : ∃ c : Fin 64, j = ix1 c := ⟨j 0, eq_ix1 j⟩
  have h : S100000x64.Reduces [(0 : Fin 2)] S64 := by decide
  show Ideal.hostReduceAdd reducesTo_S100000x64_S64_d0 s (Ideal.ofBits .f32 0x00000000#32) (ix1 c) = _
  rw [Ideal.hostReduceAdd_single reducesTo_S100000x64_S64_d0 h s _ (ix1 c), Ideal.ofBits_zero_f32, zero_add]
  show _ = ∑ r : Fin 100000, s (ix2 r c)
  refine Finset.sum_congr rfl fun k _ => congrArg s ?_
  funext ax
  apply Fin.ext
  match ax with
  | ⟨0, _⟩ => rfl
  | ⟨1, _⟩ => rfl

/-- The column means. -/
theorem meanT_eq (s : FVec Ideal S100000x64 .f32) : meanT s = Spec.mean Nc s := by
  funext j
  show Ideal.div (colSum64 s j) (broadcastInDim S64 ![] bcast_S_S64 (constant (F := Ideal) S_ .f32 0x47C35000#32) j)
      = Ideal.div (Spec.colsum s j) Nc
  rw [bc0_apply, colSum64_eq]

/-- Every entry less its column's mean. -/
theorem devT_eq (s : FVec Ideal S100000x64 .f32) : devT s = fun i => s i - Spec.mean Nc s (ix1 (i 1)) := by
  funext i
  obtain ⟨r, c, rfl⟩ : ∃ (r : Fin 100000) (c : Fin 64), i = ix2 r c := ⟨i 0, i 1, eq_ix2 i⟩
  unfold devT
  rw [subf_apply, broadcastInDim_oneRow_apply bcast_S1x64_S100000x64_0_1 _ r c, hostDivf_apply, row1_64_apply, bc0_apply,
    colSum64_eq]
  rfl

/-- The variance's divisor, with no correction, is the row count. -/
theorem dofT_zero : dofT (F := Ideal) (constantI S_ 32 0#32) ix0 = Nc := by
  show Nc - (((0#32 : BitVec 32).toInt : ℝ) : EReal) = Nc
  have : ((0#32 : BitVec 32).toInt : ℝ) = 0 := by
    have : (0#32 : BitVec 32).toInt = 0 := by decide
    rw [this]; norm_num
  rw [this, EReal.coe_zero, sub_zero]

/-- The column variances: the divisor is the positive row count, so the select takes the quotient. -/
theorem varT_eq (s : FVec Ideal S100000x64 .f32) : varT s (constantI S_ 32 0#32) = Spec.varCentered Nc s := by
  funext j
  have hpos : FloatOps.cmpf (F := Ideal) (φ := .f32) .ogt Nc 0 = 1#1 := by
    show BitVec.ofBool (decide ((0 : EReal) < Nc)) = 1#1
    have h0 : (0 : EReal) < Nc := by
      show (0 : EReal) < Ideal.ofBits .f32 0x47C35000#32
      rw [Spec.n_real]; exact_mod_cast (by norm_num : (0 : ℝ) < 100000)
    rw [decide_eq_true h0]; rfl
  unfold varT
  rw [select_apply, hostDivf_apply, broadcastInDim_scalar_apply, broadcastInDim_scalar_apply, broadcastInDim_scalar_apply,
    cmpf_apply, dofT_zero]
  simp only [constant_apply, Ideal.ofBits_zero_f32]
  rw [hpos, select_one, colSum64_eq, devT_eq]
  all_goals rfl

/-- Normalisation, scale, shift and clamp are the specification's. -/
theorem norm_relu_eq (s : FVec Ideal S100000x64 .f32) (mu var g b : FVec Ideal S64 .f32) :
    reluT (normT s mu var g b) = Spec.normRelu epsc mu var g b s := by
  funext i
  unfold reluT normT Spec.normRelu
  rw [maximumf_apply, bc0_apply, Ideal.ofBits_zero_f32, rowB64_eq, rowB64_eq, rowB64_eq, rowB64_eq]
  show max ((s i - mu (ix1 (i 1))) * Ideal.rsqrt (var (ix1 (i 1)) + broadcastInDim S64 ![] bcast_S_S64 (constant (F := Ideal) S_ .f32 0x3727C5AC#32) (ix1 (i 1))) * g (ix1 (i 1)) + b (ix1 (i 1))) 0 = _
  rw [bc0_apply]
  all_goals rfl

/-- A layer from its pre-normalisation sum. -/
theorem layerT_eq (s : FVec Ideal S100000x64 .f32) (g b : FVec Ideal S64 .f32) :
    layerT s g b = Spec.normRelu epsc (Spec.mean Nc s) (Spec.varCentered Nc s) g b s := by
  unfold layerT
  rw [norm_relu_eq, meanT_eq, varT_eq]

/-- The reference's composed term is the specification in the second arrangement. -/
theorem refTerm_eq (a0 : FVec Ideal S100000x128 .f32) (a1 a2 : IVec S800000 32) (a3 : FVec Ideal S800000 .f32) (a4 : IVec S50000 32)
    (a5 : FVec Ideal S128x64 .f32) (a6 : FVec Ideal S64 .f32) (a7 : FVec Ideal S128x64 .f32) (a8 a9 a10 a11 : FVec Ideal S64 .f32)
    (a12 a13 : FVec Ideal S64x64 .f32) (a14 a15 a16 : FVec Ideal S64 .f32) (a17 a18 : FVec Ideal S64x32 .f32) (a19 : FVec Ideal S32 .f32) :
    refTerm (F := Ideal) a0 a1 a2 a3 a4 a5 a6 a7 a8 a9 a10 a11 a12 a13 a14 a15 a16 a17 a18 a19
      = Cert.Spec.outR (SP64 a1 a2 a3) (SP32 a1 a2 a3) (GA (F := Ideal) a4) (Ideal.ofBits .f32 0x47C35000#32) (Ideal.ofBits .f32 0x3727C5AC#32)
          a0 a5 a6 a7 a8 a9 a10 a11 a12 a13 a14 a15 a16 a17 a18 a19 := by
  unfold refTerm outT s1T s0T Spec.outR Spec.layerR Spec.layerR0
  simp only [layerT_eq, sumT64_eq, sumT32_eq, dense128_eq, mm64_eq, mm32_eq]
  all_goals rfl

end Cert.ReferenceIdeal.RefValue

end
-- ==== Proof.SpecReal.lean ====
/-
  The host operations of the neighbour aggregation keep real-valued arrays real-valued.

  The aggregation reads rows of a feature matrix by an index array (a gather), multiplies each by an edge
  weight broadcast along the row, and adds the products into the rows of a zero matrix named by a second
  index array (a scatter that accumulates).  At the extended reals a gather and a broadcast only re-index
  their operand, a product of reals is a real, and the accumulating scatter gives each operand entry plus a
  finite sum of update entries; so each step sends real-valued arrays to real-valued arrays.
-/
import proofs.«115488_j17910013624557_2_alg».proof.Proof.SpecMath
import Idealize.ShloMosaic.PureOps.Ideal.Laws

noncomputable section

namespace Cert.Spec

open Idealize.ShloMosaic
open scoped BigOperators

/-- A broadcast reads its operand at some index: realness is inherited. -/
theorem allReal_broadcastInDim {s : Shape} (t : Shape) (dims : Fin s.rank → Fin t.rank)
    (h : s.BroadcastsInDim t dims) {x : s.Idx → EReal} (hx : AllReal x) :
    AllReal (broadcastInDim t dims h x) :=
  fun _ => hx _

/-- A gather reads its operand at some index: realness is inherited, whatever the index array holds. -/
theorem allReal_gather {s si t : Shape} {w : Nat} (d : GatherDims s si t) {x : s.Idx → EReal} (idx : IVec si w)
    (hx : AllReal x) : AllReal (Host.gather d x idx) :=
  fun _ => hx _

/-- The entrywise product of real-valued arrays is real-valued. -/
theorem allReal_mulf {s : Shape} {φ : FTy} {x y : FVec Ideal s φ} (hx : AllReal x) (hy : AllReal y) :
    AllReal (mulf (F := Ideal) x y) :=
  fun i => IsReal.mul (hx i) (hy i)

/-- The entrywise sum of real-valued arrays is real-valued. -/
theorem allReal_addf {s : Shape} {φ : FTy} {x y : FVec Ideal s φ} (hx : AllReal x) (hy : AllReal y) :
    AllReal (addf (F := Ideal) x y) :=
  fun i => IsReal.add (hx i) (hy i)

/-- The entrywise difference of real-valued arrays is real-valued. -/
theorem allReal_subf {s : Shape} {φ : FTy} {x y : FVec Ideal s φ} (hx : AllReal x) (hy : AllReal y) :
    AllReal (subf (F := Ideal) x y) :=
  fun i => IsReal.sub (hx i) (hy i)

/-- The entrywise maximum of real-valued arrays is real-valued. -/
theorem allReal_maximumf {s : Shape} {φ : FTy} {x y : FVec Ideal s φ} (hx : AllReal x) (hy : AllReal y) :
    AllReal (maximumf (F := Ideal) x y) :=
  fun i => IsReal.max (hx i) (hy i)

/-- The constant array of a bit pattern that denotes a real is real-valued. -/
theorem allReal_constant (s : Shape) (φ : FTy) (b : BitVec φ.bits) (hb : IsReal (Ideal.ofBits φ b)) :
    AllReal (constant (F := Ideal) s φ b) :=
  fun _ => hb

/-- The zero constant is real-valued. -/
theorem allReal_constant_zero (s : Shape) : AllReal (constant (F := Ideal) s .f32 0x00000000#32) :=
  allReal_constant s .f32 _ ⟨0, Ideal.ofBits_zero_f32⟩

/-- The accumulating scatter gives, at each index, the operand entry plus a finite sum of update entries:
    real-valued when the operand and the updates are. -/
theorem allReal_hostScatterAdd {s si su : Shape} (d : ScatterDims s si su) {w : Nat} {x : s.Idx → EReal}
    (idx : IVec si w) {upd : su.Idx → EReal} (hx : AllReal x) (hupd : AllReal upd) :
    AllReal (Ideal.hostScatterAdd d x idx upd) :=
  fun i => IsReal.add (hx i) (IsReal.sum _ fun j _ => hupd j)

/-- The same, for the operation as a program spells it. -/
theorem allReal_scatterAdd {s si su : Shape} {φ : FTy} (d : ScatterDims s si su) {w : Nat} {x : FVec Ideal s φ}
    (idx : IVec si w) {upd : FVec Ideal su φ} (hx : AllReal x) (hupd : AllReal upd) :
    AllReal (Host.scatterAdd (F := Ideal) d x idx upd) :=
  allReal_hostScatterAdd d idx hx hupd

/-- The aggregation as the programs compose it — gather the rows named by `src`, scale by the broadcast
    weights `wgt`, accumulate into `init` at the rows named by `dst` — keeps realness. -/
theorem allReal_aggregate {s si su : Shape} {φ : FTy} (g : GatherDims s si su) (d : ScatterDims s si su)
    {w : Nat} (src dst : IVec si w) {init f : FVec Ideal s φ} {wgt : FVec Ideal su φ}
    (hinit : AllReal init) (hwgt : AllReal wgt) (hf : AllReal f) :
    AllReal (Host.scatterAdd (F := Ideal) d init dst (mulf (F := Ideal) wgt (Host.gather g f src))) :=
  allReal_scatterAdd d dst hinit (allReal_mulf hwgt (allReal_gather g src hf))

/-- The aggregation exactly as the programs spell it: the accumulator is the broadcast zero constant, the edge
    weights `vals` are broadcast twice (to a column, then along the rows), the gathered rows of `x` are scaled
    by them and accumulated.  Generic in the dimension records, the broadcast maps and the two index arrays. -/
theorem allReal_sparse {s sg ss su s0 sv sv1 : Shape} {w w' : Nat}
    (g : GatherDims s sg su) (d : ScatterDims s ss su)
    (dims0 : Fin s0.rank → Fin s.rank) (h0 : s0.BroadcastsInDim s dims0)
    (dims1 : Fin sv.rank → Fin sv1.rank) (h1 : sv.BroadcastsInDim sv1 dims1)
    (dims2 : Fin sv1.rank → Fin su.rank) (h2 : sv1.BroadcastsInDim su dims2)
    (src : IVec sg w) (dst : IVec ss w') {vals : FVec Ideal sv .f32} {x : FVec Ideal s .f32}
    (hvals : AllReal vals) (hx : AllReal x) :
    AllReal (Host.scatterAdd (F := Ideal) d
      (broadcastInDim s dims0 h0 (constant (F := Ideal) s0 .f32 0x00000000#32)) dst
      (mulf (F := Ideal) (broadcastInDim su dims2 h2 (broadcastInDim sv1 dims1 h1 vals)) (Host.gather g x src))) :=
  allReal_scatterAdd d dst (allReal_broadcastInDim s dims0 h0 (allReal_constant_zero s0))
    (allReal_mulf (allReal_broadcastInDim su dims2 h2 (allReal_broadcastInDim sv1 dims1 h1 hvals))
      (allReal_gather g src hx))

end Cert.Spec

end
-- ==== Proof.PreReal.lean ====
/-
  From the precondition to realness of every float argument.

  The precondition is the conjunction, over the seventeen float arrays, of "every entry has absolute value
  below plus infinity".  An extended real whose absolute value, the larger of itself and its negation, is
  below plus infinity is neither infinity, so it is a real number.
-/
import proofs.«115488_j17910013624557_2_alg».proof.Pre_finite_inputs
import proofs.«115488_j17910013624557_2_alg».proof.Proof.SpecMath
import Idealize.ShloMosaic.Lib.ReduceAll

noncomputable section

namespace Cert.PreReal

open Idealize.ShloMosaic Cert.Spec Cert.Pre_finite_inputs

/-- The scalar shape has one index. -/
instance : Subsingleton (S_ : Shape).Idx := ⟨fun _ _ => funext fun d => d.elim0⟩

/-- The pattern with all exponent bits set and a zero fraction denotes plus infinity. -/
theorem ofBits_inf : Ideal.ofBits .f32 0x7F800000#32 = (⊤ : EReal) := by
  simp [Ideal.ofBits, Ideal.ieee]

/-- An extended real whose absolute value is below plus infinity is a real number. -/
theorem isReal_of_abs_lt_top {x : EReal} (h : Ideal.cmp .olt (max x (-x)) (⊤ : EReal) = 1#1) : IsReal x := by
  induction x using EReal.rec with
  | bot => exact absurd h (by simp [Ideal.cmp])
  | coe r => exact ⟨r, rfl⟩
  | top => exact absurd h (by simp [Ideal.cmp])

/-- One conjunct of the precondition: if the reduction by "and" of the entrywise test "absolute value below the
    broadcast plus infinity" is one, every entry of the array is a real number. -/
theorem allReal_of_all {S : Shape} {axes : List (Fin S.rank)} (x : FVec Ideal S .f32)
    (dims : Fin S_.rank → Fin S.rank) (bc : S_.BroadcastsInDim S dims) (red : S.ReducesTo axes S_)
    (hu : 0 < S_.numel) (init : S_.Idx → BitVec 1) (j : S_.Idx)
    (e : Host.reduce IntOp.andi
          (cmpf (F := Ideal) .olt (Host.absf (F := Ideal) x)
            (broadcastInDim S dims bc (constant (F := Ideal) S_ .f32 0x7F800000#32)))
          init red hu j = 1#1) :
    AllReal x := by
  intro i
  have hi := Host.reduce_andi_all _ init red hu j e i
  have hi' : Ideal.cmp .olt (max (x i) (-(x i))) (Ideal.ofBits .f32 0x7F800000#32) = 1#1 := hi
  rw [ofBits_inf] at hi'
  exact isReal_of_abs_lt_top hi'

/-- The precondition, one at the scalar shape's index, gives realness of every float argument. -/
theorem allReal_of_pre [Facts]
    (a0 : FVec Ideal S100000x128 .f32) (a1 : IVec S800000 32) (a2 : IVec S800000 32) (a3 : FVec Ideal S800000 .f32)
    (a4 : IVec S50000 32) (a5 : FVec Ideal S128x64 .f32) (a6 : FVec Ideal S64 .f32) (a7 : FVec Ideal S128x64 .f32)
    (a8 : FVec Ideal S64 .f32) (a9 : FVec Ideal S64 .f32) (a10 : FVec Ideal S64 .f32) (a11 : FVec Ideal S64 .f32)
    (a12 : FVec Ideal S64x64 .f32) (a13 : FVec Ideal S64x64 .f32) (a14 : FVec Ideal S64 .f32)
    (a15 : FVec Ideal S64 .f32) (a16 : FVec Ideal S64 .f32) (a17 : FVec Ideal S64x32 .f32)
    (a18 : FVec Ideal S64x32 .f32) (a19 : FVec Ideal S32 .f32)
    (h : fn (F := Ideal) a0 a1 a2 a3 a4 a5 a6 a7 a8 a9 a10 a11 a12 a13 a14 a15 a16 a17 a18 a19 = fun _ => 1#1) :
    AllReal a0 ∧ AllReal a3 ∧ AllReal a5 ∧ AllReal a6 ∧ AllReal a7 ∧ AllReal a8 ∧ AllReal a9 ∧ AllReal a10 ∧
      AllReal a11 ∧ AllReal a12 ∧ AllReal a13 ∧ AllReal a14 ∧ AllReal a15 ∧ AllReal a16 ∧ AllReal a17 ∧
      AllReal a18 ∧ AllReal a19 := by
  have h0 := congrFun h ValueIdx.ix0
  dsimp only [fn, fn_part1, fn_part2, fn_part3, fn_part4] at h0
  simp only [andi, IntOp.andi_eq_one] at h0
  obtain ⟨⟨⟨⟨⟨⟨⟨⟨⟨⟨⟨⟨⟨⟨⟨⟨e0, e3⟩, e5⟩, e6⟩, e7⟩, e8⟩, e9⟩, e10⟩, e11⟩, e12⟩, e13⟩, e14⟩, e15⟩, e16⟩, e17⟩, e18⟩, e19⟩ := h0
  exact ⟨allReal_of_all a0 _ _ _ _ _ _ e0, allReal_of_all a3 _ _ _ _ _ _ e3, allReal_of_all a5 _ _ _ _ _ _ e5,
    allReal_of_all a6 _ _ _ _ _ _ e6, allReal_of_all a7 _ _ _ _ _ _ e7, allReal_of_all a8 _ _ _ _ _ _ e8,
    allReal_of_all a9 _ _ _ _ _ _ e9, allReal_of_all a10 _ _ _ _ _ _ e10, allReal_of_all a11 _ _ _ _ _ _ e11,
    allReal_of_all a12 _ _ _ _ _ _ e12, allReal_of_all a13 _ _ _ _ _ _ e13, allReal_of_all a14 _ _ _ _ _ _ e14,
    allReal_of_all a15 _ _ _ _ _ _ e15, allReal_of_all a16 _ _ _ _ _ _ e16, allReal_of_all a17 _ _ _ _ _ _ e17,
    allReal_of_all a18 _ _ _ _ _ _ e18, allReal_of_all a19 _ _ _ _ _ _ e19⟩

end Cert.PreReal

end
-- ==== Proof.SPEq.lean ====
/-
  The neighbour aggregation and the final row selection are the same functions in the two programs.

  Each program spells these chains over its own copies of the shapes, the broadcast facts and the gather and
  scatter dimension records.  The copies of a shape are the same literal, the copies of a record have the same
  data fields, and their remaining fields are proofs; so the two spellings are one function.
-/
import proofs.«115488_j17910013624557_2_alg».proof.Proof.KHost
import proofs.«115488_j17910013624557_2_alg».proof.Proof.RefRun

noncomputable section

namespace Cert.SPEq

open Idealize.ShloMosaic

/-! ### The dimension records agree -/

theorem scatter64_eq [Cert.KernelIdeal.Facts₀] [Cert.ReferenceIdeal.Facts₀] :
    Cert.KernelIdeal.scatter_S100000x64_S800000x1_S800000x64_1_0_0_1
      = Cert.ReferenceIdeal.scatter_S100000x64_S800000x1_S800000x64_1_0_0_1 := rfl

theorem gather64_eq [Cert.KernelIdeal.Facts₀] [Cert.ReferenceIdeal.Facts₀] :
    Cert.KernelIdeal.gather_S100000x64_S800000x1_S800000x64_1_0_n_n_0_1_164
      = Cert.ReferenceIdeal.gather_S100000x64_S800000x1_S800000x64_1_0_n_n_0_1_164 := rfl

theorem scatter32_eq [Cert.KernelIdeal.Facts₀] [Cert.ReferenceIdeal.Facts₀] :
    Cert.KernelIdeal.scatter_S100000x32_S800000x1_S800000x32_1_0_0_1
      = Cert.ReferenceIdeal.scatter_S100000x32_S800000x1_S800000x32_1_0_0_1 := rfl

theorem gather32_eq [Cert.KernelIdeal.Facts₀] [Cert.ReferenceIdeal.Facts₀] :
    Cert.KernelIdeal.gather_S100000x32_S800000x1_S800000x32_1_0_n_n_0_1_132
      = Cert.ReferenceIdeal.gather_S100000x32_S800000x1_S800000x32_1_0_n_n_0_1_132 := rfl

theorem gatherGA_eq [Cert.KernelIdeal.Facts₀] [Cert.ReferenceIdeal.Facts₀] :
    Cert.KernelIdeal.gather_S100000x32_S50000x1_S50000x32_1_0_n_n_0_1_132
      = Cert.ReferenceIdeal.gather_S100000x32_S50000x1_S50000x32_1_0_n_n_0_1_132 := rfl

/-! ### The chains agree -/

/-- The aggregation at width 64 is the same function in the two programs. -/
theorem sp64_eq (rows cols : IVec Cert.KernelIdeal.S800000 32) (vals : FVec Ideal Cert.KernelIdeal.S800000 .f32) :
    Cert.KernelIdeal.KHost.SP64 rows cols vals = Cert.ReferenceIdeal.RefRun.SP64 (F := Ideal) rows cols vals := rfl

/-- The aggregation at width 32 is the same function in the two programs. -/
theorem sp32_eq (rows cols : IVec Cert.KernelIdeal.S800000 32) (vals : FVec Ideal Cert.KernelIdeal.S800000 .f32) :
    Cert.KernelIdeal.KHost.SP32 rows cols vals = Cert.ReferenceIdeal.RefRun.SP32 (F := Ideal) rows cols vals := rfl

/-- The final row selection is the same function in the two programs. -/
theorem ga_eq (idx : IVec Cert.KernelIdeal.S50000 32) :
    Cert.KernelIdeal.KHost.GA idx = Cert.ReferenceIdeal.RefRun.GA (F := Ideal) idx := rfl

end Cert.SPEq

end
-- ==== Proof.Claims.lean ====
/-
  The five claims.

  The two frames of the kernel program are its generated frame at the two instances; the reference's frame is its
  run with the result forgotten; the idealisation rewrote nothing.  For the value claim: the kernel program's
  result is the network in the kernel's arrangement (`Cert.Spec.outK`) of its arguments, the reference's result
  the network in the reference's arrangement (`Cert.Spec.outR`) of the same arguments, over the same aggregation
  and selection operators; the precondition makes every float argument an array of real numbers, the aggregation
  keeps arrays of reals real, and on real inputs the two arrangements agree (re-association of a three-term sum,
  a zero bias, and the two formulas of a column's variance).
-/
import proofs.«115488_j17910013624557_2_alg».proof.Defs
import proofs.«115488_j17910013624557_2_alg».proof.Proof.Gen.Kernel
import proofs.«115488_j17910013624557_2_alg».proof.Proof.Gen.Kernel.Frame
import proofs.«115488_j17910013624557_2_alg».proof.Proof.Gen.KernelIdeal
import proofs.«115488_j17910013624557_2_alg».proof.Proof.Gen.KernelIdeal.Frame
import proofs.«115488_j17910013624557_2_alg».proof.Proof.Gen.ReferenceIdeal
import proofs.«115488_j17910013624557_2_alg».proof.Proof.Gen.Pre_finite_inputs
import proofs.«115488_j17910013624557_2_alg».proof.Proof.KRun
import proofs.«115488_j17910013624557_2_alg».proof.Proof.KFold
import proofs.«115488_j17910013624557_2_alg».proof.Proof.RefRun
import proofs.«115488_j17910013624557_2_alg».proof.Proof.RefValue
import proofs.«115488_j17910013624557_2_alg».proof.Proof.SpecMath
import proofs.«115488_j17910013624557_2_alg».proof.Proof.SpecConsts
import proofs.«115488_j17910013624557_2_alg».proof.Proof.SpecReal
import proofs.«115488_j17910013624557_2_alg».proof.Proof.PreReal
import proofs.«115488_j17910013624557_2_alg».proof.Proof.SPEq

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

section Bridge

open Cert.KernelIdeal Cert.KernelIdeal.Gen Cert.KernelIdeal.KFold Cert.KernelIdeal.KHost

variable (m : (ℓ : Loc nD τ sig) → Buf (Elt Ideal) ℓ) (ρ : Dev nD → PrngReg) (c : Dev nD)

/-- The aggregation keeps an array of reals real when the edge weights are real: every entry of the result is a
    finite sum of products of an edge weight and a gathered entry. -/
theorem spk_real (h3 : Cert.Spec.AllReal (a3 m c)) (f : Cert.Spec.Mat 100000 64) (hf : Cert.Spec.AllReal f) :
    Cert.Spec.AllReal (SPk m c f) := by
  show Cert.Spec.AllReal (SP64 (a1 m c) (a2 m c) (a3 m c) f)
  unfold SP64
  exact Cert.Spec.allReal_sparse _ _ _ _ _ _ _ _ _ _ h3 hf

/-- Under the precondition the kernel program's result is the reference's term of the same arguments. -/
theorem bridge (hpre : Cert.Pre_finite_inputs.fn (F := Ideal) (a0 m c) (a1 m c) (a2 m c) (a3 m c) (a4 m c) (a5 m c) (a6 m c)
      (a7 m c) (a8 m c) (a9 m c) (a10 m c) (a11 m c) (a12 m c) (a13 m c) (a14 m c) (a15 m c) (a16 m c) (a17 m c) (a18 m c)
      (a19 m c) = fun _ => 1#1) :
    Cert.ReferenceIdeal.RefRun.refTerm (F := Ideal) (a0 m c) (a1 m c) (a2 m c) (a3 m c) (a4 m c) (a5 m c) (a6 m c)
      (a7 m c) (a8 m c) (a9 m c) (a10 m c) (a11 m c) (a12 m c) (a13 m c) (a14 m c) (a15 m c) (a16 m c) (a17 m c) (a18 m c)
      (a19 m c) = W17 m ρ c (Proc.devRef .tc main_v84) := by
  obtain ⟨h0, h3, h5, h6, h7, h8, h9, h10, h11, h12, h13, h14, h15, h16, h17, h18, h19⟩ :=
    Cert.PreReal.allReal_of_pre _ _ _ _ _ _ _ _ _ _ _ _ _ _ _ _ _ _ _ _ hpre
  rw [Cert.ReferenceIdeal.RefValue.refTerm_eq, KFold.result m ρ c,
    ← Cert.SPEq.sp64_eq, ← Cert.SPEq.sp32_eq, ← Cert.SPEq.ga_eq]
  exact (Cert.Spec.outK_eq_outR_of (n := 100000) (by norm_num) _ _ _ (spk_real m c h3) _ _ Cert.Spec.n_real
    Cert.Spec.eps_pos _ _ _ _ _ _ _ _ _ _ _ _ _ _ _ _ h0 h5 h6 h7 h8 h9 h10 h11 h12 h13 h14).symm

end Bridge

theorem algebraic : Cert.algebraic_KernelIdeal_ReferenceIdeal := by
  intro m ρ m' ρ' hpre hagree
  refine ⟨fun c => Cert.KernelIdeal.Gen.W17 m ρ c (Proc.devRef .tc Cert.KernelIdeal.main_v84),
    Cert.KernelIdeal.KRun.run_named (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14, e15, e16, e17, e18, e19⟩ := hagree c
  rw [e0, e1, e2, e3, e4, e5, e6, e7, e8, e9, e10, e11, e12, e13, e14, e15, e16, e17, e18, e19]
  exact bridge m ρ c (hpre c)

end Cert.Proof.Claims

end
-- ==== Proof.lean ====
/-
  The certificate: the programs' stated facts (proved in the generated modules) and the five claims.

  The kernel program evaluates a two-layer graph network with a final projection and row selection in eight
  tiled regions with host operations between them; the reference evaluates the same network with whole-array
  operations.  `Proof/Spec.lean` states the network once in each program's arrangement, `Proof/SpecMath.lean`
  proves the two arrangements equal on real inputs, the `K*` modules read the kernel program's result off its
  run, the `Ref*` modules the reference's, and `Proof/Claims.lean` joins them.
-/
import proofs.«115488_j17910013624557_2_alg».proof.Defs
import proofs.«115488_j17910013624557_2_alg».proof.Proof.Gen.Kernel
import proofs.«115488_j17910013624557_2_alg».proof.Proof.Gen.KernelIdeal
import proofs.«115488_j17910013624557_2_alg».proof.Proof.Gen.ReferenceIdeal
import proofs.«115488_j17910013624557_2_alg».proof.Proof.Gen.Pre_finite_inputs
import proofs.«115488_j17910013624557_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
